-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S16384x128 : Shape := ⟨2, ![16384, 128]⟩
abbrev S262144x128 : Shape := ⟨2, ![262144, 128]⟩
abbrev S256x128 : Shape := ⟨2, ![256, 128]⟩
abbrev S128x64 : Shape := ⟨2, ![128, 64]⟩
abbrev S64x8 : Shape := ⟨2, ![64, 8]⟩
abbrev S8x2 : Shape := ⟨2, ![8, 2]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S262144x128 : S_.BroadcastsInDim S262144x128 (![] : Fin 0 → Fin S262144x128.rank)
  reducesTo_S262144x128_S_d0_1 : S262144x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x8 : S_.BroadcastsInDim S64x8 (![] : Fin 0 → Fin S64x8.rank)
  reducesTo_S64x8_S_d0_1 : S64x8.ReducesTo [0, 1] S_
  bcast_S_S8x2 : S_.BroadcastsInDim S8x2 (![] : Fin 0 → Fin S8x2.rank)
  reducesTo_S8x2_S_d0_1 : S8x2.ReducesTo [0, 1] S_

variable [Facts]

def fn_part3 {F : FTy → Type} [FloatOps F] (main_v48 : IVec S_ 1) (main_v49 : FVec F S8x2 .f32) (main_v50 : FVec F S8x2 .f32) : IVec S_ 1 :=
  let main_v51 : IVec S8x2 1 := cmpf .olt main_v49 main_v50
  let main_c_19 : IVec S_ 1 := constantI S_ 1 1#1
  let main_v52 : IVec S_ 1 := (fun x v => Host.reduce IntOp.andi x v reducesTo_S8x2_S_d0_1 h_S_) main_v51 main_c_19
  let main_v53 : IVec S_ 1 := andi main_v48 main_v52
  main_v53

def fn_part2 {F : FTy → Type} [FloatOps F] (main_arg7 : FVec F S256x128 .f32) (main_arg8 : FVec F S128x64 .f32) (main_arg9 : FVec F S64x8 .f32) (main_arg10 : FVec F S8x2 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64x8 .f32 := Host.absf main_arg9
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8x2 .f32 := Host.absf main_arg10
  let main_cst_18 : FVec F S_ .f32 := constant S_ .f32 0x7F800000#32
  let main_v50 : FVec F S8x2 .f32 := broadcastInDim S8x2 ![] bcast_S_S8x2 main_cst_18
  fn_part3 (F := F) main_v48 main_v49 main_v50

def fn_part1 {F : FTy → Type} [FloatOps F] (main_arg4 : FVec F S16384x128 .f32) (main_arg5 : FVec F S262144x128 .f32) (main_arg6 : FVec F S256x128 .f32) (main_arg7 : FVec F S256x128 .f32) (main_arg8 : FVec F S128x64 .f32) (main_arg9 : FVec F S64x8 .f32) (main_arg10 : FVec F S8x2 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S16384x128 .f32 := Host.absf main_arg4
  let main_cst_6 : FVec F S_ .f32 := constant S_ .f32 0x7F800000#32
  let main_v20 : FVec F S16384x128 .f32 := broadcastInDim S16384x128 ![] bcast_S_S16384x128 main_cst_6
  let main_v21 : IVec S16384x128 1 := cmpf .olt main_v19 main_v20
  let main_c_7 : IVec S_ 1 := constantI S_ 1 1#1
  let main_v22 : IVec S_ 1 := (fun x v => Host.reduce IntOp.andi x v reducesTo_S16384x128_S_d0_1 h_S_) main_v21 main_c_7
  let main_v23 : IVec S_ 1 := andi main_v18 main_v22
  let main_v24 : FVec F S262144x128 .f32 := Host.absf main_arg5
  let main_cst_8 : FVec F S_ .f32 := constant S_ .f32 0x7F800000#32
  let main_v25 : FVec F S262144x128 .f32 := broadcastInDim S262144x128 ![] bcast_S_S262144x128 main_cst_8
  let main_v26 : IVec S262144x128 1 := cmpf .olt main_v24 main_v25
  let main_c_9 : IVec S_ 1 := constantI S_ 1 1#1
  let main_v27 : IVec S_ 1 := (fun x v => Host.reduce IntOp.andi x v reducesTo_S262144x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x128 .f32) (main_arg1 : FVec F S16384x128 .f32) (main_arg2 : FVec F S262144x128 .f32) (main_arg3 : FVec F S1024x128 .f32) (main_arg4 : FVec F S16384x128 .f32) (main_arg5 : FVec F S262144x128 .f32) (main_arg6 : FVec F S256x128 .f32) (main_arg7 : FVec F S256x128 .f32) (main_arg8 : FVec F S128x64 .f32) (main_arg9 : FVec F S64x8 .f32) (main_arg10 : FVec F S8x2 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_arg7 main_arg8 main_arg9 main_arg10 main_v13 main_v16
-- ==== Kernel.lean ====
abbrev S1024x128 : Shape := ⟨2, ![1024, 128]⟩
abbrev S16384x128 : Shape := ⟨2, ![16384, 128]⟩
abbrev S262144x128 : Shape := ⟨2, ![262144, 128]⟩
abbrev S256x128 : Shape := ⟨2, ![256, 128]⟩
abbrev S128x64 : Shape := ⟨2, ![128, 64]⟩
abbrev S64x8 : Shape := ⟨2, ![64, 8]⟩
abbrev S8x2 : Shape := ⟨2, ![8, 2]⟩
abbrev S1024x2 : Shape := ⟨2, ![1024, 2]⟩
abbrev S128x128 : Shape := ⟨2, ![128, 128]⟩
abbrev S1024x16x128 : Shape := ⟨3, ![1024, 16, 128]⟩
abbrev S64x16x128 : Shape := ⟨3, ![64, 16, 128]⟩
abbrev S64x128 : Shape := ⟨2, ![64, 128]⟩
abbrev S1024x64 : Shape := ⟨2, ![1024, 64]⟩
abbrev S1024x8 : Shape := ⟨2, ![1024, 8]⟩
abbrev S1024 : Shape := ⟨1, ![1024]⟩
abbrev S1024x1 : Shape := ⟨2, ![1024, 1]⟩

abbrev nBuf : Space → Nat
  | .hbm => 12
  | .vmem => 18
  | .smem => 0
  | _ => 0

abbrev bufTy : (tb : Table) → Fin (tcTables nBuf tb) → BufTy
  | .hbm, ⟨0, _⟩ => ⟨S1024x128, .f32⟩
  | .hbm, ⟨1, _⟩ => ⟨S16384x128, .f32⟩
  | .hbm, ⟨2, _⟩ => ⟨S262144x128, .f32⟩
  | .hbm, ⟨3, _⟩ => ⟨S1024x128, .f32⟩
  | .hbm, ⟨4, _⟩ => ⟨S16384x128, .f32⟩
  | .hbm, ⟨5, _⟩ => ⟨S262144x128, .f32⟩
  | .hbm, ⟨6, _⟩ => ⟨S256x128, .f32⟩
  | .hbm, ⟨7, _⟩ => ⟨S256x128, .f32⟩
  | .hbm, ⟨8, _⟩ => ⟨S128x64, .f32⟩
  | .hbm, ⟨9, _⟩ => ⟨S64x8, .f32⟩
  | .hbm, ⟨10, _⟩ => ⟨S8x2, .f32⟩
  | .hbm, ⟨11, _⟩ => ⟨S1024x2, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S16384x128, .f32⟩
  | .local _ .vmem, ⟨4, _⟩ => ⟨S16384x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S16384x128, .f32⟩
  | .local _ .vmem, ⟨9, _⟩ => ⟨S16384x128, .f32⟩
  | .local _ .vmem, ⟨10, _⟩ => ⟨S256x128, .f32⟩
  | .local _ .vmem, ⟨11, _⟩ => ⟨S256x128, .f32⟩
  | .local _ .vmem, ⟨12, _⟩ => ⟨S128x64, .f32⟩
  | .local _ .vmem, ⟨13, _⟩ => ⟨S64x8, .f32⟩
  | .local _ .vmem, ⟨14, _⟩ => ⟨S8x2, .f32⟩
  | .local _ .vmem, ⟨15, _⟩ => ⟨S1024x2, .f32⟩
  | .local _ .vmem, ⟨16, _⟩ => ⟨S1024x128, .f32⟩
  | .local _ .vmem, ⟨17, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c64_i32 : BitVec 32 := 64#32
  let v24 : BitVec 32 := Scalar.muli arg0 c64_i32
  let v25 : Index := Scalar.indexCast v24
  let c0_19 : Index := 0#32
  ![v25.toNat, 0]
def k0_cond1 (i : grid0.Coords) : BitVec 1 :=
  let arg0 : BitVec 32 := BitVec.ofNat 32 (i 0).val
  let c15_i32 : BitVec 32 := 15#32
  let v38 : BitVec 1 := Scalar.cmpi .eq arg0 c15_i32
  let v39 : BitVec 32 := Scalar.extui v38
  let c0_i32 : BitVec 32 := 0#32
  let v40 : BitVec 1 := Scalar.cmpi .ne v39 c0_i32
  v40

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S16384x128_S16384x128_0_0 : ∀ a, (![0, 0] : Fin 2 → Nat) a + S16384x128.size a ≤ S16384x128.size a
  h_S16384x128 : 0 < S16384x128.numel
  shapeCasts_S16384x128_S1024x16x128 : S16384x128.ShapeCasts S1024x16x128
  reduces_S1024x16x128_S1024x128 : S1024x16x128.Reduces [1] S1024x128
  inb_S1024x128_S1024x128_0_0 : ∀ a, (![0, 0] : Fin 2 → Nat) a + S1024x128.size a ≤ S1024x128.size a
  h_S1024x128 : 0 < S1024x128.numel
  shapeCasts_S1024x128_S64x16x128 : S1024x128.ShapeCasts S64x16x128
  reduces_S64x16x128_S64x128 : S64x16x128.Reduces [1] S64x128
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S64x8_S64x8_0_0 : ∀ a, (![0, 0] : Fin 2 → Nat) a + S64x8.size a ≤ S64x8.size a
  h_S64x8 : 0 < S64x8.numel
  inb_S8x2_S8x2_0_0 : ∀ a, (![0, 0] : Fin 2 → Nat) a + S8x2.size a ≤ S8x2.size a
  h_S8x2 : 0 < S8x2.numel
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x64_S64x8_S1024x8_1_0_0_1_n_n_wf : DotDims.WF S1024x64 S64x8 S1024x8 [1] [0] [0] [1] [] []
  dot_S1024x8_S8x2_S1024x2_1_0_0_1_n_n_wf : DotDims.WF S1024x8 S8x2 S1024x2 [1] [0] [0] [1] [] []
  hrank0 : 0 < grid0.rank
  k0_off1_inb : ∀ i : grid0.Coords, ∀ a, (k0_off1 i) a + S64x128.size a ≤ S1024x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S262144x128.size a
  hwx0_2 : ∀ i : grid0.Coords, EltTy.bits .f32 = 32 ∨ (Rect.block (s := S262144x128) S16384x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x128.size a ≤ S262144x128.size a
  hwx0_5 : ∀ i : grid0.Coords, EltTy.bits .f32 = 32 ∨ (Rect.block (s := S262144x128) S16384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x8.size a ≤ S64x8.size a
  hwx0_9 : ∀ i : grid0.Coords, EltTy.bits .f32 = 32 ∨ (Rect.block (s := S64x8) S64x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x2.size a ≤ S8x2.size a
  hwx0_10 : ∀ i : grid0.Coords, EltTy.bits .f32 = 32 ∨ (Rect.block (s := S8x2) S8x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x2.size a ≤ S1024x2.size a
  hwx0_11 : ∀ i : grid0.Coords, EltTy.bits .f32 = 32 ∨ (Rect.block (s := S1024x2) S1024x2.size (cc0_transform_11 i) (hinb0_11 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x8_S8x2_S1024x2_1_0_0_1_n_n : DotDims S1024x8 S8x2 S1024x2 where
  lhsContracting := [1]
  rhsContracting := [0]
  lhsNonContracting := [0]
  rhsNonContracting := [1]
  lhsBatch := []
  rhsBatch := []
  wf := dot_S1024x8_S8x2_S1024x2_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16384x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16384x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1024x2.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond1 i == 1#1) | ⟨_ + 12, h⟩ => absurd h (Nat.not_lt.2 (Nat.le_add_left _ _))

class Facts : Prop extends Facts₀ where

variable [Facts]
-- ==== ReferenceIdeal.lean ====
abbrev S1024x128 : Shape := ⟨2, ![1024, 128]⟩
abbrev S16384x128 : Shape := ⟨2, ![16384, 128]⟩
abbrev S262144x128 : Shape := ⟨2, ![262144, 128]⟩
abbrev S256x128 : Shape := ⟨2, ![256, 128]⟩
abbrev S128x64 : Shape := ⟨2, ![128, 64]⟩
abbrev S64x8 : Shape := ⟨2, ![64, 8]⟩
abbrev S8x2 : Shape := ⟨2, ![8, 2]⟩
abbrev S16384x16x128 : Shape := ⟨3, ![16384, 16, 128]⟩
abbrev S_ : Shape := ⟨0, ![]⟩
abbrev S16384x256 : Shape := ⟨2, ![16384, 256]⟩
abbrev S1024x16x128 : Shape := ⟨3, ![1024, 16, 128]⟩
abbrev S1024x256 : Shape := ⟨2, ![1024, 256]⟩
abbrev S1024x64 : Shape := ⟨2, ![1024, 64]⟩
abbrev S1024x8 : Shape := ⟨2, ![1024, 8]⟩
abbrev S1024x2 : Shape := ⟨2, ![1024, 2]⟩
abbrev S1024 : Shape := ⟨1, ![1024]⟩
abbrev S1024x1 : Shape := ⟨2, ![1024, 1]⟩

abbrev nBuf : Space → Nat
  | .hbm => 71
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S16384x128, .f32⟩
  | .hbm, ⟨2, _⟩ => ⟨S262144x128, .f32⟩
  | .hbm, ⟨3, _⟩ => ⟨S1024x128, .f32⟩
  | .hbm, ⟨4, _⟩ => ⟨S16384x128, .f32⟩
  | .hbm, ⟨5, _⟩ => ⟨S262144x128, .f32⟩
  | .hbm, ⟨6, _⟩ => ⟨S256x128, .f32⟩
  | .hbm, ⟨7, _⟩ => ⟨S256x128, .f32⟩
  | .hbm, ⟨8, _⟩ => ⟨S128x64, .f32⟩
  | .hbm, ⟨9, _⟩ => ⟨S64x8, .f32⟩
  | .hbm, ⟨10, _⟩ => ⟨S8x2, .f32⟩
  | .hbm, ⟨11, _⟩ => ⟨S16384x16x128, .f32⟩
  | .hbm, ⟨12, _⟩ => ⟨S_, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x16x128, .f32⟩
  | .hbm, ⟨18, _⟩ => ⟨S_, .f32⟩
  | .hbm, ⟨19, _⟩ => ⟨S16384x128, .f32⟩
  | .hbm, ⟨20, _⟩ => ⟨S_, .f32⟩
  | .hbm, ⟨21, _⟩ => ⟨S16384x128, .f32⟩
  | .hbm, ⟨22, _⟩ => ⟨S16384x128, .f32⟩
  | .hbm, ⟨23, _⟩ => ⟨S16384x256, .f32⟩
  | .hbm, ⟨24, _⟩ => ⟨S16384x256, .f32⟩
  | .hbm, ⟨25, _⟩ => ⟨S16384x128, .f32⟩
  | .hbm, ⟨26, _⟩ => ⟨S16384x128, .f32⟩
  | .hbm, ⟨27, _⟩ => ⟨S1024x16x128, .f32⟩
  | .hbm, ⟨28, _⟩ => ⟨S_, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x16x128, .f32⟩
  | .hbm, ⟨34, _⟩ => ⟨S_, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | .hbm, ⟨39, _⟩ => ⟨S1024x256, .f32⟩
  | .hbm, ⟨40, _⟩ => ⟨S1024x256, .f32⟩
  | .hbm, ⟨41, _⟩ => ⟨S1024x128, .f32⟩
  | .hbm, ⟨42, _⟩ => ⟨S1024x128, .f32⟩
  | .hbm, ⟨43, _⟩ => ⟨S1024x256, .f32⟩
  | .hbm, ⟨44, _⟩ => ⟨S1024x128, .f32⟩
  | .hbm, ⟨45, _⟩ => ⟨S_, .f32⟩
  | .hbm, ⟨46, _⟩ => ⟨S1024x128, .f32⟩
  | .hbm, ⟨47, _⟩ => ⟨S1024x128, .f32⟩
  | .hbm, ⟨48, _⟩ => ⟨S1024x64, .f32⟩
  | .hbm, ⟨49, _⟩ => ⟨S_, .f32⟩
  | .hbm, ⟨50, _⟩ => ⟨S1024x64, .f32⟩
  | .hbm, ⟨51, _⟩ => ⟨S1024x64, .f32⟩
  | .hbm, ⟨52, _⟩ => ⟨S1024x8, .f32⟩
  | .hbm, ⟨53, _⟩ => ⟨S_, .f32⟩
  | .hbm, ⟨54, _⟩ => ⟨S1024x8, .f32⟩
  | .hbm, ⟨55, _⟩ => ⟨S1024x8, .f32⟩
  | .hbm, ⟨56, _⟩ => ⟨S1024x2, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024x1, .f32⟩
  | .hbm, ⟨63, _⟩ => ⟨S1024x2, .f32⟩
  | .hbm, ⟨64, _⟩ => ⟨S1024x2, .f32⟩
  | .hbm, ⟨65, _⟩ => ⟨S1024x2, .f32⟩
  | .hbm, ⟨66, _⟩ => ⟨S_, .f32⟩
  | .hbm, ⟨67, _⟩ => ⟨S1024, .f32⟩
  | .hbm, ⟨68, _⟩ => ⟨S1024x1, .f32⟩
  | .hbm, ⟨69, _⟩ => ⟨S1024x2, .f32⟩
  | .hbm, ⟨70, _⟩ => ⟨S1024x2, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_cst : Ref sig .tc := ⟨.hbm, 45, rfl⟩
abbrev main_call0_v0 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]

class Facts₀ : Prop where
  shapeCasts_S262144x128_S16384x16x128 : S262144x128.ShapeCasts S16384x16x128
  reducesTo_S16384x16x128_S16384x128_d1 : S16384x16x128.ReducesTo [1] S16384x128
  h_S_ : 0 < S_.numel
  bcast_S_S16384x128 : S_.BroadcastsInDim S16384x128 (![] : Fin 0 → Fin S16384x128.rank)
  concatenates_S16384x128_S16384x128_S16384x256_d1 : Shape.Concatenates [S16384x128, S16384x128] S16384x256 1
  shapeCasts_S16384x128_S1024x16x128 : S16384x128.ShapeCasts S1024x16x128
  reducesTo_S1024x16x128_S1024x128_d1 : S1024x16x128.ReducesTo [1] S1024x128
  bcast_S_S1024x128 : S_.BroadcastsInDim S1024x128 (![] : Fin 0 → Fin S1024x128.rank)
  concatenates_S1024x128_S1024x128_S1024x256_d1 : Shape.Concatenates [S1024x128, S1024x128] S1024x256 1
  bcast_S_S1024x64 : S_.BroadcastsInDim S1024x64 (![] : Fin 0 → Fin S1024x64.rank)
  bcast_S_S1024x8 : S_.BroadcastsInDim S1024x8 (![] : Fin 0 → Fin S1024x8.rank)
  reducesTo_S1024x2_S1024_d1 : S1024x2.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  dot_S16384x256_S256x128_S16384x128_1_0_0_1_n_n_wf : DotDims.WF S16384x256 S256x128 S16384x128 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x8_S1024x8_1_0_0_1_n_n_wf : DotDims.WF S1024x64 S64x8 S1024x8 [1] [0] [0] [1] [] []
  dot_S1024x8_S8x2_S1024x2_1_0_0_1_n_n_wf : DotDims.WF S1024x8 S8x2 S1024x2 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x8_S8x2_S1024x2_1_0_0_1_n_n : DotDims S1024x8 S8x2 S1024x2 where
  lhsContracting := [1]
  rhsContracting := [0]
  lhsNonContracting := [0]
  rhsNonContracting := [1]
  lhsBatch := []
  rhsBatch := []
  wf := dot_S1024x8_S8x2_S1024x2_1_0_0_1_n_n_wf

class Facts : Prop extends Facts₀ where

variable [Facts]
-- ==== Proof.LibOverlay.lean ====
/-
  What a run of unmasked stores through rectangles of one buffer leaves, read back, over ANY prior contents: the
  stores' payloads laid over the prior contents, the last store on top.

  The pipeline library's closed form for a buffer a body fills (`View.canon`) names the contents only where some store
  covers the index. A buffer that is only partly overwritten at a point — an accumulator updated in place beside rows
  written one band per point — keeps its prior contents elsewhere, and what it holds afterwards is a function of what
  it held before: `laid`.
-/
import Idealize.ShloMosaic.Lib.Writes
import Idealize.ShloMosaic.Lib.Memref

noncomputable section

namespace Cert.Lib

open Idealize.ShloMosaic

variable {sig : RefSig} {κ : Kind} {sp : Space} {s : Shape} {e : EltTy} {Val : EltTy → Type}

/-- The pieces `L` (last store first) laid over the contents `Y`: at each index the payload of the first piece of the
    list whose rectangle holds it, and `Y` at an index no piece holds. -/
def laid (Y : s.Idx → Val e) : List (View.Piece Val s e) → s.Idx → Val e
  | [] => Y
  | p :: L => p.1.overlay (laid Y L) p.2

@[simp] theorem laid_nil (Y : s.Idx → Val e) : laid Y ([] : List (View.Piece Val s e)) = Y := rfl

theorem laid_cons (Y : s.Idx → Val e) (p : View.Piece Val s e) (L : List (View.Piece Val s e)) :
    laid Y (p :: L) = p.1.overlay (laid Y L) p.2 := rfl

/-- Under the last store, its payload; -/
theorem laid_cons_emb (Y : s.Idx → Val e) (r : Rect s) (w : r.shape.Idx → Val e) (L : List (View.Piece Val s e)) (x : r.shape.Idx) :
    laid Y (⟨r, w⟩ :: L) (r.emb x) = w x := by
  rw [laid_cons]; exact r.overlay_emb _ _ x

/-- off it, the earlier stores laid over the contents. -/
theorem laid_cons_of_not_mem (Y : s.Idx → Val e) (p : View.Piece Val s e) (L : List (View.Piece Val s e)) {y : s.Idx}
    (h : y ∉ p.1.set) : laid Y (p :: L) y = laid Y L y := by
  rw [laid_cons]; exact p.1.overlay_of_not_mem _ _ h

/-- The same with the last store spelled out as its rectangle and payload. -/
theorem laid_cons_of_not_mem' (Y : s.Idx → Val e) (r : Rect s) (w : r.shape.Idx → Val e) (L : List (View.Piece Val s e)) {y : s.Idx}
    (h : y ∉ r.set) : laid Y (⟨r, w⟩ :: L) y = laid Y L y :=
  laid_cons_of_not_mem Y ⟨r, w⟩ L h

/-- A buffer read back after the stores `L` over contents `f` is the pieces laid over `f` read back, through whichever
    view the stores went. -/
theorem read_writes_eq_laid (v : View sig κ sp s e) (f : v.ty.Contents Val) :
    ∀ L : List (View.Piece Val s e), v.read Val (v.writes Val f L) = laid (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb, laid_cons_emb]
    · have hy' : y ∉ Finset.univ.map p.1.emb := by rwa [Rect.map_emb_univ]
      rw [View.writes_cons, View.read_slice_write_of_not_mem p.1 _ _ _ hy', laid_cons_of_not_mem _ p L hy,
        read_writes_eq_laid v f L]

end Cert.Lib

end
-- ==== Proof.BodyEarlyW.lean ====
/-
  One grid point of the kernel before the last: the body on whole staging buffers.

  At such a point the body reads its eleven input blocks, leaves them and the result's staging buffer as they were, and
  overwrites one band of 64 rows of each of its two accumulators (the second-hop means of the two sides) — nothing else.
  What each accumulator holds afterwards is therefore its earlier contents with that band laid over them.
-/
import proofs.«100680_g9603546873884_cont_9to1c4b_371_3_alg».proof.Proof.Gen.Kernel.Frame
import proofs.«100680_g9603546873884_cont_9to1c4b_371_3_alg».proof.Proof.Gen.Kernel.Skeleton
import proofs.«100680_g9603546873884_cont_9to1c4b_371_3_alg».proof.Proof.LibOverlay
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib

variable {F : FTy → Type} [FloatOps F]

local notation "𝕄" => MT nD τ sig Unit (Elt F) ℕ (UR sig nD τ) ℕ

set_option maxHeartbeats 4000000 in
/-- The bands a point before the last stores into the two accumulators, as the run of the body finds them, with the
    proof that from whole buffers at the given contents the body runs to a state where the inputs and the result's
    buffer are untouched and each accumulator holds its earlier contents under its band. -/
noncomputable def runEarly (c : Dev nD) (i : grid0.Coords) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : ¬ k0_cond1 i = 1#1) (x1 : Vec F S1024x128 .f32) (x2 : Vec F S1024x128 .f32) (x3 : Vec F S16384x128 .f32) (x4 : Vec F S1024x128 .f32) (x5 : Vec F S1024x128 .f32) (x6 : Vec F S16384x128 .f32) (x7 : Vec F S256x128 .f32) (x8 : Vec F S256x128 .f32) (x9 : Vec F S128x64 .f32) (x10 : Vec F S64x8 .f32) (x11 : Vec F S8x2 .f32) (xs13 xs14 : Vec F S1024x128 .f32) :
    Σ' (L13 : List (View.Piece (Elt F) S1024x128 .f32)), { L14 : List (View.Piece (Elt F) S1024x128 .f32) //
      ∀ (xo : Vec F S1024x2 .f32) (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare xo ∗ owns (c : Thread nD τ) a13 fullShare xs13 ∗ owns (c : Thread nD τ) a14 fullShare xs14
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare xo ∗ owns (c : Thread nD τ) a13 fullShare (laid xs13 L13) ∗ owns (c : Thread nD τ) a14 fullShare (laid xs14 L14)) -∗ K ⟨⟩))
          ⊢ wp frame (wpE (defs₀ (F := F)) Variants.none c none) E (cc0__body i a1 h1 a2 h2 a3 h3 a4 h4 a5 h5 a6 h6 a7 h7 a8 h8 a9 h9 a10 h10 a11 h11 a12 h12 a13 h13 a14 h14) K } := by
  refine ⟨?_, ?_, fun xo E K => ?run⟩
  case run =>
    sl_unfold [cc0__body]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr
      swap; · iexact H13
      ipureintro; rw [read_writes_eq_laid, h13.read_unread]
    iexists _; isplitr
    swap; · iexact H14
    ipureintro; rw [read_writes_eq_laid, h14.read_unread]

end Cert.Kernel.Body

end
-- ==== Proof.BodyLastW.lean ====
/-
  The last grid point: the body on whole staging buffers.

  Here the body first does what every point does — it overwrites its band of 64 rows of each accumulator — and then,
  the accumulators complete, reads both of them whole beside the two node-feature arrays and the weights, and stores the
  result (the whole [1024, 2] block) into the result's staging buffer.
-/
import proofs.«100680_g9603546873884_cont_9to1c4b_371_3_alg».proof.Proof.Gen.Kernel.Frame
import proofs.«100680_g9603546873884_cont_9to1c4b_371_3_alg».proof.Proof.Gen.Kernel.Skeleton
import proofs.«100680_g9603546873884_cont_9to1c4b_371_3_alg».proof.Proof.LibOverlay
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib

variable {F : FTy → Type} [FloatOps F]

local notation "𝕄" => MT nD τ sig Unit (Elt F) ℕ (UR sig nD τ) ℕ

set_option maxHeartbeats 4000000 in
/-- What the last point stores — the result block, and its band of each accumulator — as the run of the body finds
    them, with the proof that from whole buffers at the given contents (the result's buffer at anything) the body runs to
    a state where the inputs are untouched, each accumulator holds its earlier contents under its band, and the result's
    buffer holds its earlier contents under the stored block. -/
noncomputable def runLast (c : Dev nD) (i : grid0.Coords) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : k0_cond1 i = 1#1) (x1 : Vec F S1024x128 .f32) (x2 : Vec F S1024x128 .f32) (x3 : Vec F S16384x128 .f32) (x4 : Vec F S1024x128 .f32) (x5 : Vec F S1024x128 .f32) (x6 : Vec F S16384x128 .f32) (x7 : Vec F S256x128 .f32) (x8 : Vec F S256x128 .f32) (x9 : Vec F S128x64 .f32) (x10 : Vec F S64x8 .f32) (x11 : Vec F S8x2 .f32) (xs13 xs14 : Vec F S1024x128 .f32) :
    Σ' (L12 : List (View.Piece (Elt F) S1024x2 .f32)) (L13 : List (View.Piece (Elt F) S1024x128 .f32)), { L14 : List (View.Piece (Elt F) S1024x128 .f32) //
      ∀ (xo : Vec F S1024x2 .f32) (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare xo ∗ owns (c : Thread nD τ) a13 fullShare xs13 ∗ owns (c : Thread nD τ) a14 fullShare xs14
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (laid xo L12) ∗ owns (c : Thread nD τ) a13 fullShare (laid xs13 L13) ∗ owns (c : Thread nD τ) a14 fullShare (laid xs14 L14)) -∗ K ⟨⟩))
          ⊢ wp frame (wpE (defs₀ (F := F)) Variants.none c none) E (cc0__body i a1 h1 a2 h2 a3 h3 a4 h4 a5 h5 a6 h6 a7 h7 a8 h8 a9 h9 a10 h10 a11 h11 a12 h12 a13 h13 a14 h14) K } := by
  refine ⟨?_, ?_, ?_, fun xo E K => ?run⟩
  case run =>
    sl_unfold [cc0__body]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr
      swap; · iexact H12
      ipureintro; rw [read_writes_eq_laid, h12.read_unread]
    isplitl [H13]
    · iexists _; isplitr
      swap; · iexact H13
      ipureintro; rw [read_writes_eq_laid, h13.read_unread]
    iexists _; isplitr
    swap; · iexact H14
    ipureintro; rw [read_writes_eq_laid, h14.read_unread]

end Cert.Kernel.Body

end
-- ==== Proof.LibBands.lean ====
/-
  Filling a matrix band by band.

  A buffer of `R` rows is filled a band of rows at a time, in order, from contents nobody names. After the bands below
  row `o` are in, the buffer holds the finished matrix `G` on rows `< o` and its first contents `e` elsewhere; storing
  the band of rows `o … o + h - 1` of `G` moves the boundary to `o + h`. At `o = 0` nothing is known of the buffer, and
  once the boundary reaches `R` it holds `G` whatever it held at first.
-/
import proofs.«100680_g9603546873884_cont_9to1c4b_371_3_alg».proof.Proof.LibOverlay

noncomputable section

namespace Cert.Lib

open Idealize.ShloMosaic

variable {Val : EltTy → Type} {e : EltTy} {R C : Nat}

/-- `G` on the rows below `o`, `b` on the others. -/
def below (o : Nat) (G b : (⟨2, ![R, C]⟩ : Shape).Idx → Val e) : (⟨2, ![R, C]⟩ : Shape).Idx → Val e :=
  fun y => if (y 0).val < o then G y else b y

theorem below_zero (G b : (⟨2, ![R, C]⟩ : Shape).Idx → Val e) : below 0 G b = b :=
  funext fun y => if_neg (Nat.not_lt_zero _)

theorem below_all {o : Nat} (ho : R ≤ o) (G b : (⟨2, ![R, C]⟩ : Shape).Idx → Val e) : below o G b = G :=
  funext fun y => if_pos (by have h0 : (y 0).val < R := (y 0).isLt; omega)

/-- One store of the band of rows `o … o + h - 1` of `G` over contents that hold `G` below row `o`. -/
theorem laid_band (o h : Nat) (G b : (⟨2, ![R, C]⟩ : Shape).Idx → Val e) (r : Rect (⟨2, ![R, C]⟩ : Shape))
    (w : r.shape.Idx → Val e)
    (hmem : ∀ y : (⟨2, ![R, C]⟩ : Shape).Idx, y ∈ r.set ↔ o ≤ (y 0).val ∧ (y 0).val < o + h)
    (hw : ∀ x, w x = G (r.emb x)) :
    laid (below o G b) [(⟨r, w⟩ : View.Piece Val (⟨2, ![R, C]⟩ : Shape) e)] = below (o + h) G b := by
  funext y
  by_cases hy : y ∈ r.set
  · obtain ⟨x, rfl⟩ : ∃ x, r.emb x = y := r.exists_idx_of_mem hy
    rw [laid_cons_emb, hw]
    exact (if_pos ((hmem _).mp hy).2).symm
  · rw [laid_cons_of_not_mem' _ r w [] hy, laid_nil]
    have hn := mt (hmem y).mpr hy
    unfold below
    by_cases h1 : (y 0).val < o
    · rw [if_pos h1, if_pos (by omega)]
    · rw [if_neg h1, if_neg (by omega)]

end Cert.Lib

end
-- ==== Proof.KernelOutW.lean ====
/-
  The kernel's result as ONE function of the eleven argument arrays.

  The grid has sixteen points. Point t reads rows 1024·t … 1024·t+1023 of the first-hop neighbour features and rows
  16384·t … 16384·t+16383 of the second-hop ones, on each side, and from them fills rows 64·t … 64·t+63 of that side's
  accumulator: the second-hop mean of the first-hop layer. The last point then reads both accumulators whole, beside
  the two node-feature arrays and the weights, and computes the result — the two-layer aggregation, the dense head
  and the row-wise softmax. So every row of an accumulator is the body's band value at the one point that owns it, and
  the result is the last point's value at the completed accumulators.
-/
import proofs.«100680_g9603546873884_cont_9to1c4b_371_3_alg».proof.Proof.Gen.Kernel.Skeleton
import Idealize.ShloMosaic.Lib.ValueIdx

noncomputable section

namespace Cert.KernelOutW

open Idealize.ShloMosaic Cert.Kernel Cert.Kernel.Gen

variable {F : FTy → Type} [FloatOps F]

/-- Rows `o … o + n - 1` of a matrix of `N` rows. -/
def rowsAt (N n C : Nat) (o : Nat) (h : o + n ≤ N) {α : Type} (X : (⟨2, ![N, C]⟩ : Shape).Idx → α) :
    (⟨2, ![n, C]⟩ : Shape).Idx → α :=
  fun y => X (ValueIdx.ix2 ⟨o + (y 0).val, by have h0 : (y 0).val < n := (y 0).isLt; omega⟩ ⟨(y 1).val, (y 1).isLt⟩)

theorem rowsAt_apply (N n C : Nat) (o : Nat) (h : o + n ≤ N) {α : Type} (X : (⟨2, ![N, C]⟩ : Shape).Idx → α)
    (p : Fin n) (q : Fin C) :
    rowsAt N n C o h X (ValueIdx.ix2 p q) = X (ValueIdx.ix2 ⟨o + p.val, by omega⟩ q) := rfl

/-- The upper half of a 256-row weight matrix (what multiplies a node's own features), -/
def upper (x : Vec F S256x128 .f32) : Vec F S128x128 .f32 := rowsAt 256 128 128 0 (by decide) x
/-- and its lower half (what multiplies the mean of its neighbours). -/
def lower (x : Vec F S256x128 .f32) : Vec F S128x128 .f32 := rowsAt 256 128 128 128 (by decide) x

/-- The point that owns row `r` of an accumulator: 64 rows to a point. -/
theorem own_lt (r : Fin 1024) : r.val / 64 < 16 := by have := r.isLt; omega

/-- One side's accumulator: row `r` is row `r % 64` of the band the body stores at point `r / 64`, computed from that
    point's block of the first-hop features `n1` and of the second-hop features `n2`. (The first stored band of the
    body; the other side's band is the second, a product with the splat 1/16 taken last.) -/
def accFirst (n1 : Vec F S16384x128 .f32) (n2 : Vec F S262144x128 .f32) (w2 : Vec F S256x128 .f32) : Vec F S1024x128 .f32 :=
  fun y => k0_pay5 (upper w2) (lower w2)
    (rowsAt 262144 16384 128 ((y 0).val / 64 * 16384) (by have h0 : (y 0).val < 1024 := (y 0).isLt; omega) n2)
    (rowsAt 16384 1024 128 ((y 0).val / 64 * 1024) (by have h0 : (y 0).val < 1024 := (y 0).isLt; omega) n1)
    (ValueIdx.ix2 ⟨(y 0).val % 64, Nat.mod_lt _ (by decide)⟩ ⟨(y 1).val, (y 1).isLt⟩)

def accSecond (n1 : Vec F S16384x128 .f32) (n2 : Vec F S262144x128 .f32) (w2 : Vec F S256x128 .f32) : Vec F S1024x128 .f32 :=
  fun y => k0_pay1 (k0_pay6 (upper w2) (lower w2)
      (rowsAt 262144 16384 128 ((y 0).val / 64 * 16384) (by have h0 : (y 0).val < 1024 := (y 0).isLt; omega) n2)
      (rowsAt 16384 1024 128 ((y 0).val / 64 * 1024) (by have h0 : (y 0).val < 1024 := (y 0).isLt; omega) n1))
    (k0_pay7 (F := F))
    (ValueIdx.ix2 ⟨(y 0).val % 64, Nat.mod_lt _ (by decide)⟩ ⟨(y 1).val, (y 1).isLt⟩)

/-- The last point's logits, from whole arrays and completed accumulators, -/
def logits (x0 : Vec F S1024x128 .f32) (x1 : Vec F S16384x128 .f32) (x2 : Vec F S262144x128 .f32)
    (x3 : Vec F S1024x128 .f32) (x4 : Vec F S16384x128 .f32) (x5 : Vec F S262144x128 .f32)
    (x6 : Vec F S256x128 .f32) (x7 : Vec F S256x128 .f32) (x8 : Vec F S128x64 .f32) (x9 : Vec F S64x8 .f32)
    (x10 : Vec F S8x2 .f32) : FVec F S1024x2 .f32 :=
  k0_pay3 (upper x6) (lower x6) x0 (accFirst x1 x2 x6) x3 (accSecond x4 x5 x6) (upper x7) (lower x7) x8 x9 x10

/-- their row maxima kept as a column, -/
def rowMaxCol (x0 : Vec F S1024x128 .f32) (x1 : Vec F S16384x128 .f32) (x2 : Vec F S262144x128 .f32)
    (x3 : Vec F S1024x128 .f32) (x4 : Vec F S16384x128 .f32) (x5 : Vec F S262144x128 .f32)
    (x6 : Vec F S256x128 .f32) (x7 : Vec F S256x128 .f32) (x8 : Vec F S128x64 .f32) (x9 : Vec F S64x8 .f32)
    (x10 : Vec F S8x2 .f32) : FVec F S1024x1 .f32 :=
  k0_pay4 (upper x6) (lower x6) x0 (accFirst x1 x2 x6) x3 (accSecond x4 x5 x6) (upper x7) (lower x7) x8 x9 x10

/-- and the result: the softmax of each row of the logits. -/
def out (x0 : Vec F S1024x128 .f32) (x1 : Vec F S16384x128 .f32) (x2 : Vec F S262144x128 .f32)
    (x3 : Vec F S1024x128 .f32) (x4 : Vec F S16384x128 .f32) (x5 : Vec F S262144x128 .f32)
    (x6 : Vec F S256x128 .f32) (x7 : Vec F S256x128 .f32) (x8 : Vec F S128x64 .f32) (x9 : Vec F S64x8 .f32)
    (x10 : Vec F S8x2 .f32) : FVec F S1024x2 .f32 :=
  k0_pay2 (logits x0 x1 x2 x3 x4 x5 x6 x7 x8 x9 x10) (rowMaxCol x0 x1 x2 x3 x4 x5 x6 x7 x8 x9 x10)

end Cert.KernelOutW

end
-- ==== Proof.BodyDataW.lean ====
/-
  What the body's stores are, at a point of the grid, in terms of the argument arrays.

  The sixteen points are closed forms of their position: the last-point branch is taken at position 15 only, the band a
  point stores into each accumulator starts at row 64·t, a streamed window's block at point t is rows 1024·t … (first-hop)
  or 16384·t … (second-hop) of its array, and a resident window's block is its whole array. So the band stored at point t
  is rows 64·t … 64·t+63 of a matrix that does not depend on t — each side's accumulator — and, once both accumulators
  are complete, the block stored at the last point is the kernel's result.
-/
import proofs.«100680_g9603546873884_cont_9to1c4b_371_3_alg».proof.Proof.Gen.Kernel.Frame
import proofs.«100680_g9603546873884_cont_9to1c4b_371_3_alg».proof.Proof.BodyEarlyW
import proofs.«100680_g9603546873884_cont_9to1c4b_371_3_alg».proof.Proof.BodyLastW
import proofs.«100680_g9603546873884_cont_9to1c4b_371_3_alg».proof.Proof.LibBands
import proofs.«100680_g9603546873884_cont_9to1c4b_371_3_alg».proof.Proof.KernelOutW
import Idealize.ShloMosaic.Lib.WholeRead
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib Cert.KernelOutW

variable {F : FTy → Type} [FloatOps F]

variable (m : (ℓ : Loc nD τ sig) → Buf (Elt F) ℓ)

/-! ## Closed forms over the grid -/

theorem cond_iff : ∀ t : Fin cfg0.N, k0_cond1 (grid0.coords t) = 1#1 ↔ t.val = 15 :=
  (by decide +kernel : ∀ t : Fin grid0.N, k0_cond1 (grid0.coords t) = 1#1 ↔ t.val = 15)

theorem off_facts : ∀ t : Fin cfg0.N, k0_off1 (grid0.coords t) (0 : Fin 2) = 64 * t.val ∧ k0_off1 (grid0.coords t) (1 : Fin 2) = 0 :=
  (by decide +kernel : ∀ t : Fin grid0.N, k0_off1 (grid0.coords t) (0 : Fin 2) = 64 * t.val ∧ k0_off1 (grid0.coords t) (1 : Fin 2) = 0)

theorem idx_resident : ∀ t : Fin cfg0.N,
    win0_0.index t (0 : Fin 2) = 0 ∧ win0_0.index t (1 : Fin 2) = 0 ∧ win0_3.index t (0 : Fin 2) = 0 ∧ win0_3.index t (1 : Fin 2) = 0
    ∧ win0_6.index t (0 : Fin 2) = 0 ∧ win0_6.index t (1 : Fin 2) = 0 ∧ win0_7.index t (0 : Fin 2) = 0 ∧ win0_7.index t (1 : Fin 2) = 0
    ∧ win0_8.index t (0 : Fin 2) = 0 ∧ win0_8.index t (1 : Fin 2) = 0 ∧ win0_9.index t (0 : Fin 2) = 0 ∧ win0_9.index t (1 : Fin 2) = 0
    ∧ win0_10.index t (0 : Fin 2) = 0 ∧ win0_10.index t (1 : Fin 2) = 0 ∧ win0_11.index t (0 : Fin 2) = 0 ∧ win0_11.index t (1 : Fin 2) = 0 :=
  (by decide +kernel : ∀ t : Fin grid0.N, _)

theorem idx_streamed : ∀ t : Fin cfg0.N,
    win0_1.index t (0 : Fin 2) = t.val ∧ win0_1.index t (1 : Fin 2) = 0 ∧ win0_2.index t (0 : Fin 2) = t.val ∧ win0_2.index t (1 : Fin 2) = 0
    ∧ win0_4.index t (0 : Fin 2) = t.val ∧ win0_4.index t (1 : Fin 2) = 0 ∧ win0_5.index t (0 : Fin 2) = t.val ∧ win0_5.index t (1 : Fin 2) = 0 :=
  (by decide +kernel : ∀ t : Fin grid0.N, _)

theorem N16 : cfg0.N = 16 := N_0

/-! ## The argument arrays and the windows' blocks -/

abbrev A0 (c : Dev nD) : Vec F S1024x128 .f32 := V m c main_arg0
abbrev A1 (c : Dev nD) : Vec F S16384x128 .f32 := V m c main_arg1
abbrev A2 (c : Dev nD) : Vec F S262144x128 .f32 := V m c main_arg2
abbrev A3 (c : Dev nD) : Vec F S1024x128 .f32 := V m c main_arg3
abbrev A4 (c : Dev nD) : Vec F S16384x128 .f32 := V m c main_arg4
abbrev A5 (c : Dev nD) : Vec F S262144x128 .f32 := V m c main_arg5
abbrev A6 (c : Dev nD) : Vec F S256x128 .f32 := V m c main_arg6
abbrev A7 (c : Dev nD) : Vec F S256x128 .f32 := V m c main_arg7
abbrev A8 (c : Dev nD) : Vec F S128x64 .f32 := V m c main_arg8
abbrev A9 (c : Dev nD) : Vec F S64x8 .f32 := V m c main_arg9
abbrev A10 (c : Dev nD) : Vec F S8x2 .f32 := V m c main_arg10

/-- A resident window's block is its whole array. -/
theorem iblk0 (c : Dev nD) (t : Fin cfg0.N) : iblk m c 0 t = A0 m c := by
  funext y
  show V m c main_arg0 (((cfg0.win 0).blk t).view.emb y) = V m c main_arg0 y
  refine congrArg _ (funext fun a => Fin.ext ?_)
  obtain ⟨e0, e1, -⟩ := idx_resident t
  match a with
  | ⟨0, _⟩ => show win0_0.index t (0 : Fin 2) * 1024 + 1 * (y 0).val = (y 0).val; omega
  | ⟨1, _⟩ => show win0_0.index t (1 : Fin 2) * 128 + 1 * (y 1).val = (y 1).val; omega

theorem iblk3 (c : Dev nD) (t : Fin cfg0.N) : iblk m c 3 t = A3 m c := by
  funext y
  show V m c main_arg3 (((cfg0.win 3).blk t).view.emb y) = V m c main_arg3 y
  refine congrArg _ (funext fun a => Fin.ext ?_)
  obtain ⟨e0, e1, e2, e3, e4, e5, e6, e7, e8, e9, e10, e11, e12, e13, e14, e15⟩ := idx_resident t
  match a with
  | ⟨0, _⟩ => show win0_3.index t (0 : Fin 2) * 1024 + 1 * (y 0).val = (y 0).val; omega
  | ⟨1, _⟩ => show win0_3.index t (1 : Fin 2) * 128 + 1 * (y 1).val = (y 1).val; omega

theorem iblk6 (c : Dev nD) (t : Fin cfg0.N) : iblk m c 6 t = A6 m c := by
  funext y
  show V m c main_arg6 (((cfg0.win 6).blk t).view.emb y) = V m c main_arg6 y
  refine congrArg _ (funext fun a => Fin.ext ?_)
  obtain ⟨e0, e1, e2, e3, e4, e5, e6, e7, e8, e9, e10, e11, e12, e13, e14, e15⟩ := idx_resident t
  match a with
  | ⟨0, _⟩ => show win0_6.index t (0 : Fin 2) * 256 + 1 * (y 0).val = (y 0).val; omega
  | ⟨1, _⟩ => show win0_6.index t (1 : Fin 2) * 128 + 1 * (y 1).val = (y 1).val; omega

theorem iblk7 (c : Dev nD) (t : Fin cfg0.N) : iblk m c 7 t = A7 m c := by
  funext y
  show V m c main_arg7 (((cfg0.win 7).blk t).view.emb y) = V m c main_arg7 y
  refine congrArg _ (funext fun a => Fin.ext ?_)
  obtain ⟨e0, e1, e2, e3, e4, e5, e6, e7, e8, e9, e10, e11, e12, e13, e14, e15⟩ := idx_resident t
  match a with
  | ⟨0, _⟩ => show win0_7.index t (0 : Fin 2) * 256 + 1 * (y 0).val = (y 0).val; omega
  | ⟨1, _⟩ => show win0_7.index t (1 : Fin 2) * 128 + 1 * (y 1).val = (y 1).val; omega

theorem iblk8 (c : Dev nD) (t : Fin cfg0.N) : iblk m c 8 t = A8 m c := by
  funext y
  show V m c main_arg8 (((cfg0.win 8).blk t).view.emb y) = V m c main_arg8 y
  refine congrArg _ (funext fun a => Fin.ext ?_)
  obtain ⟨e0, e1, e2, e3, e4, e5, e6, e7, e8, e9, e10, e11, e12, e13, e14, e15⟩ := idx_resident t
  match a with
  | ⟨0, _⟩ => show win0_8.index t (0 : Fin 2) * 128 + 1 * (y 0).val = (y 0).val; omega
  | ⟨1, _⟩ => show win0_8.index t (1 : Fin 2) * 64 + 1 * (y 1).val = (y 1).val; omega

theorem iblk9 (c : Dev nD) (t : Fin cfg0.N) : iblk m c 9 t = A9 m c := by
  funext y
  show V m c main_arg9 (((cfg0.win 9).blk t).view.emb y) = V m c main_arg9 y
  refine congrArg _ (funext fun a => Fin.ext ?_)
  obtain ⟨e0, e1, e2, e3, e4, e5, e6, e7, e8, e9, e10, e11, e12, e13, e14, e15⟩ := idx_resident t
  match a with
  | ⟨0, _⟩ => show win0_9.index t (0 : Fin 2) * 64 + 1 * (y 0).val = (y 0).val; omega
  | ⟨1, _⟩ => show win0_9.index t (1 : Fin 2) * 8 + 1 * (y 1).val = (y 1).val; omega

theorem iblk10 (c : Dev nD) (t : Fin cfg0.N) : iblk m c 10 t = A10 m c := by
  funext y
  show V m c main_arg10 (((cfg0.win 10).blk t).view.emb y) = V m c main_arg10 y
  refine congrArg _ (funext fun a => Fin.ext ?_)
  obtain ⟨e0, e1, e2, e3, e4, e5, e6, e7, e8, e9, e10, e11, e12, e13, e14, e15⟩ := idx_resident t
  match a with
  | ⟨0, _⟩ => show win0_10.index t (0 : Fin 2) * 8 + 1 * (y 0).val = (y 0).val; omega
  | ⟨1, _⟩ => show win0_10.index t (1 : Fin 2) * 2 + 1 * (y 1).val = (y 1).val; omega

/-- A streamed window's block at point `t` is rows `1024·t …` of its array. -/
theorem iblk1 (c : Dev nD) (t : Fin cfg0.N) :
    iblk m c 1 t = rowsAt 16384 1024 128 (t.val * 1024) (by have h : t.val < 16 := lt_of_lt_of_eq t.isLt N16; omega) (A1 m c) := by
  funext y
  show V m c main_arg1 (((cfg0.win 1).blk t).view.emb y) = V m c main_arg1 (ValueIdx.ix2 ⟨t.val * 1024 + (y 0).val, _⟩ ⟨(y 1).val, _⟩)
  refine congrArg _ (funext fun a => Fin.ext ?_)
  obtain ⟨e0, e1, e2, e3, e4, e5, e6, e7⟩ := idx_streamed t
  match a with
  | ⟨0, _⟩ => show win0_1.index t (0 : Fin 2) * 1024 + 1 * (y 0).val = t.val * 1024 + (y 0).val; omega
  | ⟨1, _⟩ => show win0_1.index t (1 : Fin 2) * 128 + 1 * (y 1).val = (y 1).val; omega

/-- A streamed window's block at point `t` is rows `16384·t …` of its array. -/
theorem iblk2 (c : Dev nD) (t : Fin cfg0.N) :
    iblk m c 2 t = rowsAt 262144 16384 128 (t.val * 16384) (by have h : t.val < 16 := lt_of_lt_of_eq t.isLt N16; omega) (A2 m c) := by
  funext y
  show V m c main_arg2 (((cfg0.win 2).blk t).view.emb y) = V m c main_arg2 (ValueIdx.ix2 ⟨t.val * 16384 + (y 0).val, _⟩ ⟨(y 1).val, _⟩)
  refine congrArg _ (funext fun a => Fin.ext ?_)
  obtain ⟨e0, e1, e2, e3, e4, e5, e6, e7⟩ := idx_streamed t
  match a with
  | ⟨0, _⟩ => show win0_2.index t (0 : Fin 2) * 16384 + 1 * (y 0).val = t.val * 16384 + (y 0).val; omega
  | ⟨1, _⟩ => show win0_2.index t (1 : Fin 2) * 128 + 1 * (y 1).val = (y 1).val; omega

/-- A streamed window's block at point `t` is rows `1024·t …` of its array. -/
theorem iblk4 (c : Dev nD) (t : Fin cfg0.N) :
    iblk m c 4 t = rowsAt 16384 1024 128 (t.val * 1024) (by have h : t.val < 16 := lt_of_lt_of_eq t.isLt N16; omega) (A4 m c) := by
  funext y
  show V m c main_arg4 (((cfg0.win 4).blk t).view.emb y) = V m c main_arg4 (ValueIdx.ix2 ⟨t.val * 1024 + (y 0).val, _⟩ ⟨(y 1).val, _⟩)
  refine congrArg _ (funext fun a => Fin.ext ?_)
  obtain ⟨e0, e1, e2, e3, e4, e5, e6, e7⟩ := idx_streamed t
  match a with
  | ⟨0, _⟩ => show win0_4.index t (0 : Fin 2) * 1024 + 1 * (y 0).val = t.val * 1024 + (y 0).val; omega
  | ⟨1, _⟩ => show win0_4.index t (1 : Fin 2) * 128 + 1 * (y 1).val = (y 1).val; omega

/-- A streamed window's block at point `t` is rows `16384·t …` of its array. -/
theorem iblk5 (c : Dev nD) (t : Fin cfg0.N) :
    iblk m c 5 t = rowsAt 262144 16384 128 (t.val * 16384) (by have h : t.val < 16 := lt_of_lt_of_eq t.isLt N16; omega) (A5 m c) := by
  funext y
  show V m c main_arg5 (((cfg0.win 5).blk t).view.emb y) = V m c main_arg5 (ValueIdx.ix2 ⟨t.val * 16384 + (y 0).val, _⟩ ⟨(y 1).val, _⟩)
  refine congrArg _ (funext fun a => Fin.ext ?_)
  obtain ⟨e0, e1, e2, e3, e4, e5, e6, e7⟩ := idx_streamed t
  match a with
  | ⟨0, _⟩ => show win0_5.index t (0 : Fin 2) * 16384 + 1 * (y 0).val = t.val * 16384 + (y 0).val; omega
  | ⟨1, _⟩ => show win0_5.index t (1 : Fin 2) * 128 + 1 * (y 1).val = (y 1).val; omega

/-! ## The accumulators, through the windows' blocks -/

/-- The point that owns row `y 0` of an accumulator, -/
def own (y : S1024x128.Idx) : Fin cfg0.N := ⟨(y 0).val / 64, by rw [N16]; have h0 : (y 0).val < 1024 := (y 0).isLt; omega⟩
/-- and the row's place in that point's band. -/
def inBand (y : S1024x128.Idx) : S64x128.Idx := ValueIdx.ix2 ⟨(y 0).val % 64, Nat.mod_lt _ (by decide)⟩ ⟨(y 1).val, (y 1).isLt⟩

/-- The blocks a point streams, at fixed types. -/
def blk1 (c : Dev nD) (t : Fin cfg0.N) : Vec F S1024x128 .f32 := iblk m c 1 t
def blk2 (c : Dev nD) (t : Fin cfg0.N) : Vec F S16384x128 .f32 := iblk m c 2 t
def blk4 (c : Dev nD) (t : Fin cfg0.N) : Vec F S1024x128 .f32 := iblk m c 4 t
def blk5 (c : Dev nD) (t : Fin cfg0.N) : Vec F S16384x128 .f32 := iblk m c 5 t

/-- The first side's accumulator: each row the owning point's band value. -/
def accS (c : Dev nD) : Vec F S1024x128 .f32 := fun y =>
  k0_pay5 (upper (A6 m c)) (lower (A6 m c)) (blk2 m c (own y)) (blk1 m c (own y)) (inBand y)
/-- The second side's. -/
def accD (c : Dev nD) : Vec F S1024x128 .f32 := fun y =>
  k0_pay1 (k0_pay6 (upper (A6 m c)) (lower (A6 m c)) (blk5 m c (own y)) (blk4 m c (own y))) (k0_pay7 (F := F)) (inBand y)

theorem accS_eq (c : Dev nD) : accS m c = accFirst (A1 m c) (A2 m c) (A6 m c) := by
  funext y; unfold accS accFirst blk1 blk2; rw [iblk1, iblk2]; rfl

theorem accD_eq (c : Dev nD) : accD m c = accSecond (A4 m c) (A5 m c) (A6 m c) := by
  funext y; unfold accD accSecond blk4 blk5; rw [iblk4, iblk5]; rfl

/-- The kernel's result, of the arrays as the region finds them. -/
def outK (c : Dev nD) : Vec F S1024x2 .f32 :=
  out (A0 m c) (A1 m c) (A2 m c) (A3 m c) (A4 m c) (A5 m c) (A6 m c) (A7 m c) (A8 m c) (A9 m c) (A10 m c)

end Cert.Kernel.Body

end
-- ==== Proof.BodyPiecesW.lean ====
/-
  The bands and the block the body stores, identified.

  A load of a whole buffer through the whole-shape rectangle reads its contents; through the rows 0 … 127 or 128 … 255 of a
  256-row weight buffer, the upper or lower half; and a whole load of a buffer some stores went into reads the earlier
  contents with those stores laid over them. With the closed forms of the band's offset and of the blocks, the band a
  point stores into an accumulator is that accumulator's rows 64·t … 64·t+63, so the store moves the boundary of the
  finished rows from 64·t to 64·t + 64.
-/
import proofs.«100680_g9603546873884_cont_9to1c4b_371_3_alg».proof.Proof.BodyDataW

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib Cert.KernelOutW

variable {F : FTy → Type} [FloatOps F]

variable (m : (ℓ : Loc nD τ sig) → Buf (Elt F) ℓ)

theorem hz : (![0, 0] : Fin 2 → Nat) = fun _ => 0 := funext fun a => by fin_cases a <;> rfl

/-- A whole load of a whole buffer reads its contents. -/
theorem read_whole {d : Fin 2 → Nat} (mem : Memref sig .tc .vmem (⟨2, d⟩ : Shape) .f32) (h : mem.IsWhole)
    (X : Vec F (⟨2, d⟩ : Shape) .f32) (inb : ∀ a, (![0, 0] : Fin 2 → Nat) a + (⟨2, d⟩ : Shape).size a ≤ (⟨2, d⟩ : Shape).size a) :
    View.readAt (Elt F) mem.view (Rect.unit (s := (⟨2, d⟩ : Shape)) ![0, 0] (⟨2, d⟩ : Shape).size inb).toLoadRect (h.unread X) = X := by
  rw [View.readAt_eq_ld, h.read_unread]; exact View.ld_unit_zero hz inb X

/-- After stores, the earlier contents with the stores laid over them. -/
theorem read_whole_writes {d : Fin 2 → Nat} (mem : Memref sig .tc .vmem (⟨2, d⟩ : Shape) .f32) (h : mem.IsWhole)
    (X : Vec F (⟨2, d⟩ : Shape) .f32) (L : List (View.Piece (Elt F) (⟨2, d⟩ : Shape) .f32))
    (inb : ∀ a, (![0, 0] : Fin 2 → Nat) a + (⟨2, d⟩ : Shape).size a ≤ (⟨2, d⟩ : Shape).size a) :
    View.readAt (Elt F) mem.view (Rect.unit (s := (⟨2, d⟩ : Shape)) ![0, 0] (⟨2, d⟩ : Shape).size inb).toLoadRect
      (mem.view.writes (Elt F) (h.unread X) L) = laid X L := by
  rw [View.readAt_eq_ld, read_writes_eq_laid, h.read_unread]; exact View.ld_unit_zero hz inb _

/-- The upper half of a 256-row buffer, -/
theorem read_upper (mem : Memref sig .tc .vmem S256x128 .f32) (h : mem.IsWhole) (X : Vec F S256x128 .f32) :
    View.readAt (Elt F) mem.view (Rect.unit (s := S256x128) ![0, 0] S128x128.size inb_S256x128_S128x128_0_0).toLoadRect (h.unread X)
      = upper X := by
  funext z
  rw [h.readAt_unread]
  unfold upper rowsAt
  refine congrArg X (funext fun a => Fin.ext ?_)
  match a with
  | ⟨0, _⟩ => show 0 + 1 * (z 0).val = 0 + (z 0).val; omega
  | ⟨1, _⟩ => show 0 + 1 * (z 1).val = (z 1).val; omega

/-- and the lower. -/
theorem read_lower (mem : Memref sig .tc .vmem S256x128 .f32) (h : mem.IsWhole) (X : Vec F S256x128 .f32) :
    View.readAt (Elt F) mem.view (Rect.unit (s := S256x128) ![128, 0] S128x128.size inb_S256x128_S128x128_128_0).toLoadRect (h.unread X)
      = lower X := by
  funext z
  rw [h.readAt_unread]
  unfold lower rowsAt
  refine congrArg X (funext fun a => Fin.ext ?_)
  match a with
  | ⟨0, _⟩ => show 128 + 1 * (z 0).val = 128 + (z 0).val; omega
  | ⟨1, _⟩ => show 0 + 1 * (z 1).val = (z 1).val; omega

/-- The band of point `t`: rows 64·t … 64·t + 63. -/
theorem band_mem (t : Fin cfg0.N) (inb) (y : S1024x128.Idx) :
    y ∈ (Rect.unit (s := S1024x128) (k0_off1 (grid0.coords t)) S64x128.size inb).set
      ↔ 64 * t.val ≤ (y 0).val ∧ (y 0).val < 64 * t.val + 64 := by
  rw [Rect.mem_set_unit]
  obtain ⟨e0, e1⟩ := off_facts t
  constructor
  · intro h
    have h0 : k0_off1 (grid0.coords t) (0 : Fin 2) ≤ (y 0).val ∧ (y 0).val < k0_off1 (grid0.coords t) (0 : Fin 2) + 64 := h 0
    omega
  · intro h a
    match a with
    | ⟨0, _⟩ => show k0_off1 (grid0.coords t) (0 : Fin 2) ≤ (y 0).val ∧ (y 0).val < k0_off1 (grid0.coords t) (0 : Fin 2) + 64; omega
    | ⟨1, _⟩ =>
      show k0_off1 (grid0.coords t) (1 : Fin 2) ≤ (y 1).val ∧ (y 1).val < k0_off1 (grid0.coords t) (1 : Fin 2) + 128
      have h1 : (y 1).val < 128 := (y 1).isLt
      omega

/-- A place of the band is a row owned by `t`, at that place. -/
theorem own_emb (t : Fin cfg0.N) (inb) (x : S64x128.Idx) :
    own ((Rect.unit (s := S1024x128) (k0_off1 (grid0.coords t)) S64x128.size inb).emb x) = t := by
  obtain ⟨e0, e1⟩ := off_facts t
  apply Fin.ext
  show (k0_off1 (grid0.coords t) (0 : Fin 2) + 1 * (x 0).val) / 64 = t.val
  have h0 : (x 0).val < 64 := (x 0).isLt
  omega

theorem inBand_emb (t : Fin cfg0.N) (inb) (x : S64x128.Idx) :
    inBand ((Rect.unit (s := S1024x128) (k0_off1 (grid0.coords t)) S64x128.size inb).emb x) = x := by
  obtain ⟨e0, e1⟩ := off_facts t
  funext a; apply Fin.ext
  match a with
  | ⟨0, _⟩ =>
    show (k0_off1 (grid0.coords t) (0 : Fin 2) + 1 * (x 0).val) % 64 = (x 0).val
    have h0 : (x 0).val < 64 := (x 0).isLt
    omega
  | ⟨1, _⟩ =>
    show k0_off1 (grid0.coords t) (1 : Fin 2) + 1 * (x 1).val = (x 1).val
    omega

/-- The band value of point `t` at a place is the accumulator at the row it is stored to. -/
theorem accS_emb (c : Dev nD) (t : Fin cfg0.N) (inb) (x : S64x128.Idx) :
    k0_pay5 (upper (A6 m c)) (lower (A6 m c)) (blk2 m c t) (blk1 m c t) x
      = accS m c ((Rect.unit (s := S1024x128) (k0_off1 (grid0.coords t)) S64x128.size inb).emb x) := by
  unfold accS; rw [own_emb, inBand_emb]

theorem accD_emb (c : Dev nD) (t : Fin cfg0.N) (inb) (x : S64x128.Idx) :
    k0_pay1 (k0_pay6 (upper (A6 m c)) (lower (A6 m c)) (blk5 m c t) (blk4 m c t)) (k0_pay7 (F := F)) x
      = accD m c ((Rect.unit (s := S1024x128) (k0_off1 (grid0.coords t)) S64x128.size inb).emb x) := by
  unfold accD; rw [own_emb, inBand_emb]

/-! ## A point before the last -/

theorem early_band13 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : ¬ k0_cond1 (grid0.coords t) = 1#1) (b xs14 : Vec F S1024x128 .f32) :
    laid (below (64 * t.val) (accS m c) b)
      (runEarly c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b) xs14).1
      = below (64 * t.val + 64) (accS m c) b := by
  unfold runEarly; dsimp only
  refine laid_band (64 * t.val) 64 (accS m c) b _ _ (band_mem t _) (fun x => ?_)
  rw [read_upper, read_lower, read_whole, read_whole, iblk6]
  exact accS_emb m c t _ x

theorem early_band14 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : ¬ k0_cond1 (grid0.coords t) = 1#1) (xs13 b : Vec F S1024x128 .f32) :
    laid (below (64 * t.val) (accD m c) b)
      (runEarly c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) xs13 (below (64 * t.val) (accD m c) b)).2.1
      = below (64 * t.val + 64) (accD m c) b := by
  unfold runEarly; dsimp only
  unfold runEarly.sl.r_2
  refine laid_band (64 * t.val) 64 (accD m c) b _ _ (band_mem t _) (fun x => ?_)
  rw [read_upper, read_lower, read_whole, read_whole, iblk6]
  exact accD_emb m c t _ x

end Cert.Kernel.Body

end
-- ==== Proof.BodyLastPiecesW.lean ====
/-
  The last point's stores, identified.

  The last point stores its band of each accumulator like every other point, which completes them: the boundary reaches
  row 1024. It then reads them whole — so what it reads is the accumulator itself, whatever the buffers held at first —
  and the block it stores into the result's buffer, the whole [1024, 2] block, is the kernel's result.
-/
import proofs.«100680_g9603546873884_cont_9to1c4b_371_3_alg».proof.Proof.BodyPiecesW

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib Cert.KernelOutW

variable {F : FTy → Type} [FloatOps F]

variable (m : (ℓ : Loc nD τ sig) → Buf (Elt F) ℓ)

/-- One store through the whole-shape rectangle leaves its payload, whatever was there. -/
theorem laid_unit_zero {Val : EltTy → Type} {S : Shape} {e : EltTy} {off : Fin S.rank → Nat} (h : off = fun _ => 0)
    (inb : ∀ a, off a + S.size a ≤ S.size a) (Y : S.Idx → Val e) (w : S.Idx → Val e) (L : List (View.Piece Val S e)) :
    laid Y ((⟨Rect.unit off S.size inb, w⟩ : View.Piece Val S e) :: L) = w := by
  subst h; funext y
  have e := laid_cons_emb Y (Rect.whole S) w L y
  rw [Rect.emb_whole_apply] at e
  exact e

/-- The last point's band of the first accumulator, -/
theorem last_band13' (c : Dev nD) (t : Fin cfg0.N) (a2 : Memref sig .tc .vmem S1024x128 .f32) (h2 : a2.IsWhole)
    (a3 : Memref sig .tc .vmem S16384x128 .f32) (h3 : a3.IsWhole) (a7 : Memref sig .tc .vmem S256x128 .f32) (h7 : a7.IsWhole)
    (b : Vec F S1024x128 .f32) :
    laid (below (64 * t.val) (accS m c) b)
      (runLast.sl.H13_1 c (grid0.coords t) a2 h2 a3 h3 a7 h7 (iblk m c 1 t) (iblk m c 2 t) (iblk m c 6 t))
      = below (64 * t.val + 64) (accS m c) b := by
  unfold runLast.sl.H13_1
  refine laid_band (64 * t.val) 64 (accS m c) b _ _ (band_mem t _) (fun x => ?_)
  rw [read_upper, read_lower, read_whole, read_whole, iblk6]
  exact accS_emb m c t _ x

/-- and of the second. -/
theorem last_band14' (c : Dev nD) (t : Fin cfg0.N) (a5 : Memref sig .tc .vmem S1024x128 .f32) (h5 : a5.IsWhole)
    (a6 : Memref sig .tc .vmem S16384x128 .f32) (h6 : a6.IsWhole) (a7 : Memref sig .tc .vmem S256x128 .f32) (h7 : a7.IsWhole)
    (b : Vec F S1024x128 .f32) :
    laid (below (64 * t.val) (accD m c) b)
      (runLast.sl.H14_1 c (grid0.coords t) a5 h5 a6 h6 a7 h7 (iblk m c 4 t) (iblk m c 5 t) (iblk m c 6 t))
      = below (64 * t.val + 64) (accD m c) b := by
  unfold runLast.sl.H14_1 runLast.sl.r_2
  refine laid_band (64 * t.val) 64 (accD m c) b _ _ (band_mem t _) (fun x => ?_)
  rw [read_upper, read_lower, read_whole, read_whole, iblk6]
  exact accD_emb m c t _ x

theorem last_band13 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : k0_cond1 (grid0.coords t) = 1#1) (b xs14 : Vec F S1024x128 .f32) :
    laid (below (64 * t.val) (accS m c) b)
      (runLast c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b) xs14).2.1
      = below (64 * t.val + 64) (accS m c) b := by
  unfold runLast; dsimp only
  exact last_band13' m c t a2 h2 a3 h3 a7 h7 b

theorem last_band14 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : k0_cond1 (grid0.coords t) = 1#1) (xs13 b : Vec F S1024x128 .f32) :
    laid (below (64 * t.val) (accD m c) b)
      (runLast c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) xs13 (below (64 * t.val) (accD m c) b)).2.2.1
      = below (64 * t.val + 64) (accD m c) b := by
  unfold runLast; dsimp only
  exact last_band14' m c t a5 h5 a6 h6 a7 h7 b

/-- The block the last point stores is the kernel's result: both accumulators are complete when it reads them. -/
theorem last_block12 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : k0_cond1 (grid0.coords t) = 1#1) (hl : t.val = 15) (b13 b14 : Vec F S1024x128 .f32) (xo : Vec F S1024x2 .f32) :
    laid xo (runLast c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b13) (below (64 * t.val) (accD m c) b14)).1
      = outK m c := by
  unfold runLast; dsimp only
  rw [laid_unit_zero hz]
  unfold runLast.sl.r_3 runLast.sl.r_4 runLast.sl.r runLast.sl.r_1
  rw [read_upper, read_lower, read_whole, read_whole_writes, read_whole, read_whole_writes, read_upper, read_lower,
    read_whole, read_whole, read_whole]
  rw [last_band13', last_band14', below_all (by omega : 1024 ≤ 64 * t.val + 64), below_all (by omega : 1024 ≤ 64 * t.val + 64),
    iblk0, iblk3, iblk6, iblk7, iblk8, iblk9, iblk10, accS_eq, accD_eq]
  rfl

end Cert.Kernel.Body

end
-- ==== Proof.BodyObligDefsW.lean ====
/-
  The pipeline's proof data and the body obligation.

  Between points the two accumulators are the only state the kernel carries. Before point n each holds its finished rows
  below 64·n over contents nobody names — at n = 0 anything at all, at n = 16 the accumulator itself. A point before the
  last moves both boundaries by one band and leaves the result's buffer as it found it (the pipeline does not write it
  back there); the last point moves them to the end and stores the result, computed from the two complete accumulators.
-/
import proofs.«100680_g9603546873884_cont_9to1c4b_371_3_alg».proof.Proof.BodyLastPiecesW

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib Cert.KernelOutW

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers a point is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16384x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16384x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x8 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x2 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x2 .f32 := win0_11.stage (cfg0.slots t 11)
abbrev hs11 (t : Fin cfg0.N) : (ms11 t).IsWhole := hstage0_11 ((cfg0.slots t 11).cast nbuf0_11)
/-- The two accumulators: scoped buffers of the kernel's own. -/
abbrev sc13 : Memref sig .tc .vmem S1024x128 .f32 := Memref.whole cc0_scratch0
abbrev sc14 : Memref sig .tc .vmem S1024x128 .f32 := Memref.whole cc0_scratch1

/-- What the launch hands the region: both accumulators at some contents, and the generator register. -/
theorem PhiA_eq (c : Dev nD) :
    (Pipeline.ΦA spec0 c : sProp 𝕄)
      = iprop(iprop((∃ d, owns (c : Thread nD τ) sc13 fullShare d) ∗ (∃ d, owns (c : Thread nD τ) sc14 fullShare d)) ∗ (∃ r, prngReg c r)) := by
  unfold Pipeline.ΦA; rw [scopedRest0_eq]; simp only [sc13, sc14, owns_whole]; try rfl

/-- The invariant before position `n`. -/
def PhiS (c : Dev nD) (n : ℕ) : sProp 𝕄 :=
  iprop(iprop((∃ b, owns (c : Thread nD τ) sc13 fullShare (below (64 * n) (accS m c) b)) ∗ (∃ b, owns (c : Thread nD τ) sc14 fullShare (below (64 * n) (accD m c) b))) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outK m c
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outK m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem idle11 : ∀ t : Fin cfg0.N, ¬ k0_cond1 (grid0.coords t) = 1#1 → cfg0.idle 11 (grid0.coords t) = true := by decide +kernel
theorem noFlush11 : ∀ t : Fin cfg0.N, ¬ k0_cond1 (grid0.coords t) = 1#1 → (cfg0.win 11).flush t = false := by decide +kernel
theorem live11 : ∀ t : Fin cfg0.N, k0_cond1 (grid0.coords t) = 1#1 → cfg0.idle 11 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.Kernel.Body

end
-- ==== Proof.BodyObligLastW.lean ====
/-
  The body obligation at the last point: both accumulators reach their last row, and the result's staging buffer is
  left at the kernel's result.
-/
import proofs.«100680_g9603546873884_cont_9to1c4b_371_3_alg».proof.Proof.BodyObligDefsW

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib Cert.KernelOutW

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_last (c : Dev nD) (t : Fin cfg0.N) (hl : t.val = 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) from rfl, show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  unfold PhiS
  have hc : k0_cond1 (grid0.coords t) = 1#1 := (cond_iff t).mpr hl
  rw [show (dats m 0 c).leavesExact 11 t = owns (c : Thread nD τ) (ms11 t) fullShare ((dats m 0 c).after 11 t) from by
    unfold Dat.leavesExact; rw [live11 t hc], after11]
  iintro ⟨⟨⟨⟨%b13, HS13⟩, ⟨%b14, HS14⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b13) (below (64 * t.val) (accD m c) b14)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS13]; · iexact HS13
  isplitl [HS14]; · iexact HS14
  iintro ⟨H0, H1, H2, H3, H4, H5, H6, H7, H8, H9, H10, H11, HS13, HS14⟩
  ·
    isplitl [HS13 HS14 Hg]
    · isplitl [HS13 HS14]
      · isplitl [HS13]
        · iexists b13
          rw [show 64 * (t.val + 1) = 64 * t.val + 64 from by omega, ← last_band13 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc b13 (below (64 * t.val) (accD m c) b14)]
          iexact HS13
        · iexists b14
          rw [show 64 * (t.val + 1) = 64 * t.val + 64 from by omega, ← last_band14 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc (below (64 * t.val) (accS m c) b13) b14]
          iexact HS14
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [← last_block12 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc hl b13 b14 ((dats m 0 c).before 11 t d11)]
    iexact H11

end Cert.Kernel.Body

end
-- ==== Proof.BodyObligEarlyW.lean ====
/-
  The body obligation at a point before the last: both accumulators' boundaries move by one band, and the result's
  staging buffer, which the pipeline does not write back there, is handed back as it was found.
-/
import proofs.«100680_g9603546873884_cont_9to1c4b_371_3_alg».proof.Proof.BodyObligDefsW

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib Cert.KernelOutW

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_early (c : Dev nD) (t : Fin cfg0.N) (hl : ¬ t.val = 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) from rfl, show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  unfold PhiS
  have hc : ¬ k0_cond1 (grid0.coords t) = 1#1 := fun h => hl ((cond_iff t).mp h)
  rw [Dat.leavesExact_idle (dats m 0 c) 11 t (idle11 t hc) (noFlush11 t hc)]
  iintro ⟨⟨⟨⟨%b13, HS13⟩, ⟨%b14, HS14⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runEarly c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b13) (below (64 * t.val) (accD m c) b14)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS13]; · iexact HS13
  isplitl [HS14]; · iexact HS14
  iintro ⟨H0, H1, H2, H3, H4, H5, H6, H7, H8, H9, H10, H11, HS13, HS14⟩
  ·
    isplitl [HS13 HS14 Hg]
    · isplitl [HS13 HS14]
      · isplitl [HS13]
        · iexists b13
          rw [show 64 * (t.val + 1) = 64 * t.val + 64 from by omega, ← early_band13 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc b13 (below (64 * t.val) (accD m c) b14)]
          iexact HS13
        · iexists b14
          rw [show 64 * (t.val + 1) = 64 * t.val + 64 from by omega, ← early_band14 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc (below (64 * t.val) (accS m c) b13) b14]
          iexact HS14
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

end Cert.Kernel.Body

end
-- ==== Proof.BodyObligW.lean ====
/-
  The pipeline's run and the frame.

  At every point the body meets its obligation — by the last point's case at position 15 and by the other case before it —
  so the launch theorem with a point-indexed invariant runs the region: before the first point the invariant asks nothing
  of the accumulators, after the last it lets them go.
-/
import proofs.«100680_g9603546873884_cont_9to1c4b_371_3_alg».proof.Proof.BodyObligLastW
import proofs.«100680_g9603546873884_cont_9to1c4b_371_3_alg».proof.Proof.BodyObligEarlyW

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib Cert.KernelOutW

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases hl : t.val = 15
  · exact sound_last m c t hl
  · exact sound_early m c t hl

theorem body_obligation (c : Dev nD) : BodyObligation (dats (F := F) m 0 c) (defs₀ (F := F)) Variants.none () Set.univ := fun t => by
  rw [bigSep_W0, bigSep_W0]
  exact sound_body m c t

/-- Before the first point nothing is known of the accumulators. -/
theorem hin (c : Dev nD) : Pipeline.ΦA spec0 c ⊢ (dats m 0 c).Φ 0 := by
  rw [show (dats m 0 c).Φ 0 = PhiS m c 0 from rfl, PhiA_eq]; unfold PhiS
  iintro ⟨⟨⟨%d13, H13⟩, ⟨%d14, H14⟩⟩, Hg⟩
  isplitl [H13 H14]
  · isplitl [H13]
    · iexists d13; rw [show below (64 * 0) (accS m c) d13 = d13 from below_zero _ _]; iexact H13
    · iexists d14; rw [show below (64 * 0) (accD m c) d14 = d14 from below_zero _ _]; iexact H14
  · iexact Hg

/-- After the last point they are forgotten again. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨⟨%b13, H13⟩, ⟨%b14, H14⟩⟩, Hg⟩
  isplitl [H13 H14]
  · isplitl [H13]
    · iexists _; iexact H13
    · iexists _; iexact H14
  · iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Body

end
-- ==== Proof.BodyEarly.lean ====
/-
  One grid point of the kernel before the last: the body on whole staging buffers.

  At such a point the body reads its eleven input blocks, leaves them and the result's staging buffer as they were, and
  overwrites one band of 64 rows of each of its two accumulators (the second-hop means of the two sides) — nothing else.
  What each accumulator holds afterwards is therefore its earlier contents with that band laid over them.
-/
import proofs.«100680_g9603546873884_cont_9to1c4b_371_3_alg».proof.Proof.Gen.KernelIdeal.Frame
import proofs.«100680_g9603546873884_cont_9to1c4b_371_3_alg».proof.Proof.Gen.KernelIdeal.Skeleton
import proofs.«100680_g9603546873884_cont_9to1c4b_371_3_alg».proof.Proof.LibOverlay
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib

variable {F : FTy → Type} [FloatOps F]

local notation "𝕄" => MT nD τ sig Unit (Elt F) ℕ (UR sig nD τ) ℕ

set_option maxHeartbeats 4000000 in
/-- The bands a point before the last stores into the two accumulators, as the run of the body finds them, with the
    proof that from whole buffers at the given contents the body runs to a state where the inputs and the result's
    buffer are untouched and each accumulator holds its earlier contents under its band. -/
noncomputable def runEarly (c : Dev nD) (i : grid0.Coords) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : ¬ k0_cond1 i = 1#1) (x1 : Vec F S1024x128 .f32) (x2 : Vec F S1024x128 .f32) (x3 : Vec F S16384x128 .f32) (x4 : Vec F S1024x128 .f32) (x5 : Vec F S1024x128 .f32) (x6 : Vec F S16384x128 .f32) (x7 : Vec F S256x128 .f32) (x8 : Vec F S256x128 .f32) (x9 : Vec F S128x64 .f32) (x10 : Vec F S64x8 .f32) (x11 : Vec F S8x2 .f32) (xs13 xs14 : Vec F S1024x128 .f32) :
    Σ' (L13 : List (View.Piece (Elt F) S1024x128 .f32)), { L14 : List (View.Piece (Elt F) S1024x128 .f32) //
      ∀ (xo : Vec F S1024x2 .f32) (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare xo ∗ owns (c : Thread nD τ) a13 fullShare xs13 ∗ owns (c : Thread nD τ) a14 fullShare xs14
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare xo ∗ owns (c : Thread nD τ) a13 fullShare (laid xs13 L13) ∗ owns (c : Thread nD τ) a14 fullShare (laid xs14 L14)) -∗ K ⟨⟩))
          ⊢ wp frame (wpE (defs₀ (F := F)) Variants.none c none) E (cc0__body i a1 h1 a2 h2 a3 h3 a4 h4 a5 h5 a6 h6 a7 h7 a8 h8 a9 h9 a10 h10 a11 h11 a12 h12 a13 h13 a14 h14) K } := by
  refine ⟨?_, ?_, fun xo E K => ?run⟩
  case run =>
    sl_unfold [cc0__body]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr
      swap; · iexact H13
      ipureintro; rw [read_writes_eq_laid, h13.read_unread]
    iexists _; isplitr
    swap; · iexact H14
    ipureintro; rw [read_writes_eq_laid, h14.read_unread]

end Cert.KernelIdeal.Body

end
-- ==== Proof.BodyLast.lean ====
/-
  The last grid point: the body on whole staging buffers.

  Here the body first does what every point does — it overwrites its band of 64 rows of each accumulator — and then,
  the accumulators complete, reads both of them whole beside the two node-feature arrays and the weights, and stores the
  result (the whole [1024, 2] block) into the result's staging buffer.
-/
import proofs.«100680_g9603546873884_cont_9to1c4b_371_3_alg».proof.Proof.Gen.KernelIdeal.Frame
import proofs.«100680_g9603546873884_cont_9to1c4b_371_3_alg».proof.Proof.Gen.KernelIdeal.Skeleton
import proofs.«100680_g9603546873884_cont_9to1c4b_371_3_alg».proof.Proof.LibOverlay
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib

variable {F : FTy → Type} [FloatOps F]

local notation "𝕄" => MT nD τ sig Unit (Elt F) ℕ (UR sig nD τ) ℕ

set_option maxHeartbeats 4000000 in
/-- What the last point stores — the result block, and its band of each accumulator — as the run of the body finds
    them, with the proof that from whole buffers at the given contents (the result's buffer at anything) the body runs to
    a state where the inputs are untouched, each accumulator holds its earlier contents under its band, and the result's
    buffer holds its earlier contents under the stored block. -/
noncomputable def runLast (c : Dev nD) (i : grid0.Coords) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : k0_cond1 i = 1#1) (x1 : Vec F S1024x128 .f32) (x2 : Vec F S1024x128 .f32) (x3 : Vec F S16384x128 .f32) (x4 : Vec F S1024x128 .f32) (x5 : Vec F S1024x128 .f32) (x6 : Vec F S16384x128 .f32) (x7 : Vec F S256x128 .f32) (x8 : Vec F S256x128 .f32) (x9 : Vec F S128x64 .f32) (x10 : Vec F S64x8 .f32) (x11 : Vec F S8x2 .f32) (xs13 xs14 : Vec F S1024x128 .f32) :
    Σ' (L12 : List (View.Piece (Elt F) S1024x2 .f32)) (L13 : List (View.Piece (Elt F) S1024x128 .f32)), { L14 : List (View.Piece (Elt F) S1024x128 .f32) //
      ∀ (xo : Vec F S1024x2 .f32) (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare xo ∗ owns (c : Thread nD τ) a13 fullShare xs13 ∗ owns (c : Thread nD τ) a14 fullShare xs14
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (laid xo L12) ∗ owns (c : Thread nD τ) a13 fullShare (laid xs13 L13) ∗ owns (c : Thread nD τ) a14 fullShare (laid xs14 L14)) -∗ K ⟨⟩))
          ⊢ wp frame (wpE (defs₀ (F := F)) Variants.none c none) E (cc0__body i a1 h1 a2 h2 a3 h3 a4 h4 a5 h5 a6 h6 a7 h7 a8 h8 a9 h9 a10 h10 a11 h11 a12 h12 a13 h13 a14 h14) K } := by
  refine ⟨?_, ?_, ?_, fun xo E K => ?run⟩
  case run =>
    sl_unfold [cc0__body]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr
      swap; · iexact H12
      ipureintro; rw [read_writes_eq_laid, h12.read_unread]
    isplitl [H13]
    · iexists _; isplitr
      swap; · iexact H13
      ipureintro; rw [read_writes_eq_laid, h13.read_unread]
    iexists _; isplitr
    swap; · iexact H14
    ipureintro; rw [read_writes_eq_laid, h14.read_unread]

end Cert.KernelIdeal.Body

end
-- ==== Proof.KernelOut.lean ====
/-
  The kernel's result as ONE function of the eleven argument arrays.

  The grid has sixteen points. Point t reads rows 1024·t … 1024·t+1023 of the first-hop neighbour features and rows
  16384·t … 16384·t+16383 of the second-hop ones, on each side, and from them fills rows 64·t … 64·t+63 of that side's
  accumulator: the second-hop mean of the first-hop layer. The last point then reads both accumulators whole, beside
  the two node-feature arrays and the weights, and computes the result — the two-layer aggregation, the dense head
  and the row-wise softmax. So every row of an accumulator is the body's band value at the one point that owns it, and
  the result is the last point's value at the completed accumulators.
-/
import proofs.«100680_g9603546873884_cont_9to1c4b_371_3_alg».proof.Proof.Gen.KernelIdeal.Skeleton
import Idealize.ShloMosaic.Lib.ValueIdx

noncomputable section

namespace Cert.KernelOut

open Idealize.ShloMosaic Cert.KernelIdeal Cert.KernelIdeal.Gen

variable {F : FTy → Type} [FloatOps F]

/-- Rows `o … o + n - 1` of a matrix of `N` rows. -/
def rowsAt (N n C : Nat) (o : Nat) (h : o + n ≤ N) {α : Type} (X : (⟨2, ![N, C]⟩ : Shape).Idx → α) :
    (⟨2, ![n, C]⟩ : Shape).Idx → α :=
  fun y => X (ValueIdx.ix2 ⟨o + (y 0).val, by have h0 : (y 0).val < n := (y 0).isLt; omega⟩ ⟨(y 1).val, (y 1).isLt⟩)

theorem rowsAt_apply (N n C : Nat) (o : Nat) (h : o + n ≤ N) {α : Type} (X : (⟨2, ![N, C]⟩ : Shape).Idx → α)
    (p : Fin n) (q : Fin C) :
    rowsAt N n C o h X (ValueIdx.ix2 p q) = X (ValueIdx.ix2 ⟨o + p.val, by omega⟩ q) := rfl

/-- The upper half of a 256-row weight matrix (what multiplies a node's own features), -/
def upper (x : Vec F S256x128 .f32) : Vec F S128x128 .f32 := rowsAt 256 128 128 0 (by decide) x
/-- and its lower half (what multiplies the mean of its neighbours). -/
def lower (x : Vec F S256x128 .f32) : Vec F S128x128 .f32 := rowsAt 256 128 128 128 (by decide) x

/-- The point that owns row `r` of an accumulator: 64 rows to a point. -/
theorem own_lt (r : Fin 1024) : r.val / 64 < 16 := by have := r.isLt; omega

/-- One side's accumulator: row `r` is row `r % 64` of the band the body stores at point `r / 64`, computed from that
    point's block of the first-hop features `n1` and of the second-hop features `n2`. (The first stored band of the
    body; the other side's band is the second, a product with the splat 1/16 taken last.) -/
def accFirst (n1 : Vec F S16384x128 .f32) (n2 : Vec F S262144x128 .f32) (w2 : Vec F S256x128 .f32) : Vec F S1024x128 .f32 :=
  fun y => k0_pay5 (upper w2) (lower w2)
    (rowsAt 262144 16384 128 ((y 0).val / 64 * 16384) (by have h0 : (y 0).val < 1024 := (y 0).isLt; omega) n2)
    (rowsAt 16384 1024 128 ((y 0).val / 64 * 1024) (by have h0 : (y 0).val < 1024 := (y 0).isLt; omega) n1)
    (ValueIdx.ix2 ⟨(y 0).val % 64, Nat.mod_lt _ (by decide)⟩ ⟨(y 1).val, (y 1).isLt⟩)

def accSecond (n1 : Vec F S16384x128 .f32) (n2 : Vec F S262144x128 .f32) (w2 : Vec F S256x128 .f32) : Vec F S1024x128 .f32 :=
  fun y => k0_pay1 (k0_pay6 (upper w2) (lower w2)
      (rowsAt 262144 16384 128 ((y 0).val / 64 * 16384) (by have h0 : (y 0).val < 1024 := (y 0).isLt; omega) n2)
      (rowsAt 16384 1024 128 ((y 0).val / 64 * 1024) (by have h0 : (y 0).val < 1024 := (y 0).isLt; omega) n1))
    (k0_pay7 (F := F))
    (ValueIdx.ix2 ⟨(y 0).val % 64, Nat.mod_lt _ (by decide)⟩ ⟨(y 1).val, (y 1).isLt⟩)

/-- The last point's logits, from whole arrays and completed accumulators, -/
def logits (x0 : Vec F S1024x128 .f32) (x1 : Vec F S16384x128 .f32) (x2 : Vec F S262144x128 .f32)
    (x3 : Vec F S1024x128 .f32) (x4 : Vec F S16384x128 .f32) (x5 : Vec F S262144x128 .f32)
    (x6 : Vec F S256x128 .f32) (x7 : Vec F S256x128 .f32) (x8 : Vec F S128x64 .f32) (x9 : Vec F S64x8 .f32)
    (x10 : Vec F S8x2 .f32) : FVec F S1024x2 .f32 :=
  k0_pay3 (upper x6) (lower x6) x0 (accFirst x1 x2 x6) x3 (accSecond x4 x5 x6) (upper x7) (lower x7) x8 x9 x10

/-- their row maxima kept as a column, -/
def rowMaxCol (x0 : Vec F S1024x128 .f32) (x1 : Vec F S16384x128 .f32) (x2 : Vec F S262144x128 .f32)
    (x3 : Vec F S1024x128 .f32) (x4 : Vec F S16384x128 .f32) (x5 : Vec F S262144x128 .f32)
    (x6 : Vec F S256x128 .f32) (x7 : Vec F S256x128 .f32) (x8 : Vec F S128x64 .f32) (x9 : Vec F S64x8 .f32)
    (x10 : Vec F S8x2 .f32) : FVec F S1024x1 .f32 :=
  k0_pay4 (upper x6) (lower x6) x0 (accFirst x1 x2 x6) x3 (accSecond x4 x5 x6) (upper x7) (lower x7) x8 x9 x10

/-- and the result: the softmax of each row of the logits. -/
def out (x0 : Vec F S1024x128 .f32) (x1 : Vec F S16384x128 .f32) (x2 : Vec F S262144x128 .f32)
    (x3 : Vec F S1024x128 .f32) (x4 : Vec F S16384x128 .f32) (x5 : Vec F S262144x128 .f32)
    (x6 : Vec F S256x128 .f32) (x7 : Vec F S256x128 .f32) (x8 : Vec F S128x64 .f32) (x9 : Vec F S64x8 .f32)
    (x10 : Vec F S8x2 .f32) : FVec F S1024x2 .f32 :=
  k0_pay2 (logits x0 x1 x2 x3 x4 x5 x6 x7 x8 x9 x10) (rowMaxCol x0 x1 x2 x3 x4 x5 x6 x7 x8 x9 x10)

end Cert.KernelOut

end
-- ==== Proof.BodyData.lean ====
/-
  What the body's stores are, at a point of the grid, in terms of the argument arrays.

  The sixteen points are closed forms of their position: the last-point branch is taken at position 15 only, the band a
  point stores into each accumulator starts at row 64·t, a streamed window's block at point t is rows 1024·t … (first-hop)
  or 16384·t … (second-hop) of its array, and a resident window's block is its whole array. So the band stored at point t
  is rows 64·t … 64·t+63 of a matrix that does not depend on t — each side's accumulator — and, once both accumulators
  are complete, the block stored at the last point is the kernel's result.
-/
import proofs.«100680_g9603546873884_cont_9to1c4b_371_3_alg».proof.Proof.Gen.KernelIdeal.Frame
import proofs.«100680_g9603546873884_cont_9to1c4b_371_3_alg».proof.Proof.BodyEarly
import proofs.«100680_g9603546873884_cont_9to1c4b_371_3_alg».proof.Proof.BodyLast
import proofs.«100680_g9603546873884_cont_9to1c4b_371_3_alg».proof.Proof.LibBands
import proofs.«100680_g9603546873884_cont_9to1c4b_371_3_alg».proof.Proof.KernelOut
import Idealize.ShloMosaic.Lib.WholeRead
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib Cert.KernelOut

variable {F : FTy → Type} [FloatOps F]

variable (m : (ℓ : Loc nD τ sig) → Buf (Elt F) ℓ)

/-! ## Closed forms over the grid -/

theorem cond_iff : ∀ t : Fin cfg0.N, k0_cond1 (grid0.coords t) = 1#1 ↔ t.val = 15 :=
  (by decide +kernel : ∀ t : Fin grid0.N, k0_cond1 (grid0.coords t) = 1#1 ↔ t.val = 15)

theorem off_facts : ∀ t : Fin cfg0.N, k0_off1 (grid0.coords t) (0 : Fin 2) = 64 * t.val ∧ k0_off1 (grid0.coords t) (1 : Fin 2) = 0 :=
  (by decide +kernel : ∀ t : Fin grid0.N, k0_off1 (grid0.coords t) (0 : Fin 2) = 64 * t.val ∧ k0_off1 (grid0.coords t) (1 : Fin 2) = 0)

theorem idx_resident : ∀ t : Fin cfg0.N,
    win0_0.index t (0 : Fin 2) = 0 ∧ win0_0.index t (1 : Fin 2) = 0 ∧ win0_3.index t (0 : Fin 2) = 0 ∧ win0_3.index t (1 : Fin 2) = 0
    ∧ win0_6.index t (0 : Fin 2) = 0 ∧ win0_6.index t (1 : Fin 2) = 0 ∧ win0_7.index t (0 : Fin 2) = 0 ∧ win0_7.index t (1 : Fin 2) = 0
    ∧ win0_8.index t (0 : Fin 2) = 0 ∧ win0_8.index t (1 : Fin 2) = 0 ∧ win0_9.index t (0 : Fin 2) = 0 ∧ win0_9.index t (1 : Fin 2) = 0
    ∧ win0_10.index t (0 : Fin 2) = 0 ∧ win0_10.index t (1 : Fin 2) = 0 ∧ win0_11.index t (0 : Fin 2) = 0 ∧ win0_11.index t (1 : Fin 2) = 0 :=
  (by decide +kernel : ∀ t : Fin grid0.N, _)

theorem idx_streamed : ∀ t : Fin cfg0.N,
    win0_1.index t (0 : Fin 2) = t.val ∧ win0_1.index t (1 : Fin 2) = 0 ∧ win0_2.index t (0 : Fin 2) = t.val ∧ win0_2.index t (1 : Fin 2) = 0
    ∧ win0_4.index t (0 : Fin 2) = t.val ∧ win0_4.index t (1 : Fin 2) = 0 ∧ win0_5.index t (0 : Fin 2) = t.val ∧ win0_5.index t (1 : Fin 2) = 0 :=
  (by decide +kernel : ∀ t : Fin grid0.N, _)

theorem N16 : cfg0.N = 16 := N_0

/-! ## The argument arrays and the windows' blocks -/

abbrev A0 (c : Dev nD) : Vec F S1024x128 .f32 := V m c main_arg0
abbrev A1 (c : Dev nD) : Vec F S16384x128 .f32 := V m c main_arg1
abbrev A2 (c : Dev nD) : Vec F S262144x128 .f32 := V m c main_arg2
abbrev A3 (c : Dev nD) : Vec F S1024x128 .f32 := V m c main_arg3
abbrev A4 (c : Dev nD) : Vec F S16384x128 .f32 := V m c main_arg4
abbrev A5 (c : Dev nD) : Vec F S262144x128 .f32 := V m c main_arg5
abbrev A6 (c : Dev nD) : Vec F S256x128 .f32 := V m c main_arg6
abbrev A7 (c : Dev nD) : Vec F S256x128 .f32 := V m c main_arg7
abbrev A8 (c : Dev nD) : Vec F S128x64 .f32 := V m c main_arg8
abbrev A9 (c : Dev nD) : Vec F S64x8 .f32 := V m c main_arg9
abbrev A10 (c : Dev nD) : Vec F S8x2 .f32 := V m c main_arg10

/-- A resident window's block is its whole array. -/
theorem iblk0 (c : Dev nD) (t : Fin cfg0.N) : iblk m c 0 t = A0 m c := by
  funext y
  show V m c main_arg0 (((cfg0.win 0).blk t).view.emb y) = V m c main_arg0 y
  refine congrArg _ (funext fun a => Fin.ext ?_)
  obtain ⟨e0, e1, -⟩ := idx_resident t
  match a with
  | ⟨0, _⟩ => show win0_0.index t (0 : Fin 2) * 1024 + 1 * (y 0).val = (y 0).val; omega
  | ⟨1, _⟩ => show win0_0.index t (1 : Fin 2) * 128 + 1 * (y 1).val = (y 1).val; omega

theorem iblk3 (c : Dev nD) (t : Fin cfg0.N) : iblk m c 3 t = A3 m c := by
  funext y
  show V m c main_arg3 (((cfg0.win 3).blk t).view.emb y) = V m c main_arg3 y
  refine congrArg _ (funext fun a => Fin.ext ?_)
  obtain ⟨e0, e1, e2, e3, e4, e5, e6, e7, e8, e9, e10, e11, e12, e13, e14, e15⟩ := idx_resident t
  match a with
  | ⟨0, _⟩ => show win0_3.index t (0 : Fin 2) * 1024 + 1 * (y 0).val = (y 0).val; omega
  | ⟨1, _⟩ => show win0_3.index t (1 : Fin 2) * 128 + 1 * (y 1).val = (y 1).val; omega

theorem iblk6 (c : Dev nD) (t : Fin cfg0.N) : iblk m c 6 t = A6 m c := by
  funext y
  show V m c main_arg6 (((cfg0.win 6).blk t).view.emb y) = V m c main_arg6 y
  refine congrArg _ (funext fun a => Fin.ext ?_)
  obtain ⟨e0, e1, e2, e3, e4, e5, e6, e7, e8, e9, e10, e11, e12, e13, e14, e15⟩ := idx_resident t
  match a with
  | ⟨0, _⟩ => show win0_6.index t (0 : Fin 2) * 256 + 1 * (y 0).val = (y 0).val; omega
  | ⟨1, _⟩ => show win0_6.index t (1 : Fin 2) * 128 + 1 * (y 1).val = (y 1).val; omega

theorem iblk7 (c : Dev nD) (t : Fin cfg0.N) : iblk m c 7 t = A7 m c := by
  funext y
  show V m c main_arg7 (((cfg0.win 7).blk t).view.emb y) = V m c main_arg7 y
  refine congrArg _ (funext fun a => Fin.ext ?_)
  obtain ⟨e0, e1, e2, e3, e4, e5, e6, e7, e8, e9, e10, e11, e12, e13, e14, e15⟩ := idx_resident t
  match a with
  | ⟨0, _⟩ => show win0_7.index t (0 : Fin 2) * 256 + 1 * (y 0).val = (y 0).val; omega
  | ⟨1, _⟩ => show win0_7.index t (1 : Fin 2) * 128 + 1 * (y 1).val = (y 1).val; omega

theorem iblk8 (c : Dev nD) (t : Fin cfg0.N) : iblk m c 8 t = A8 m c := by
  funext y
  show V m c main_arg8 (((cfg0.win 8).blk t).view.emb y) = V m c main_arg8 y
  refine congrArg _ (funext fun a => Fin.ext ?_)
  obtain ⟨e0, e1, e2, e3, e4, e5, e6, e7, e8, e9, e10, e11, e12, e13, e14, e15⟩ := idx_resident t
  match a with
  | ⟨0, _⟩ => show win0_8.index t (0 : Fin 2) * 128 + 1 * (y 0).val = (y 0).val; omega
  | ⟨1, _⟩ => show win0_8.index t (1 : Fin 2) * 64 + 1 * (y 1).val = (y 1).val; omega

theorem iblk9 (c : Dev nD) (t : Fin cfg0.N) : iblk m c 9 t = A9 m c := by
  funext y
  show V m c main_arg9 (((cfg0.win 9).blk t).view.emb y) = V m c main_arg9 y
  refine congrArg _ (funext fun a => Fin.ext ?_)
  obtain ⟨e0, e1, e2, e3, e4, e5, e6, e7, e8, e9, e10, e11, e12, e13, e14, e15⟩ := idx_resident t
  match a with
  | ⟨0, _⟩ => show win0_9.index t (0 : Fin 2) * 64 + 1 * (y 0).val = (y 0).val; omega
  | ⟨1, _⟩ => show win0_9.index t (1 : Fin 2) * 8 + 1 * (y 1).val = (y 1).val; omega

theorem iblk10 (c : Dev nD) (t : Fin cfg0.N) : iblk m c 10 t = A10 m c := by
  funext y
  show V m c main_arg10 (((cfg0.win 10).blk t).view.emb y) = V m c main_arg10 y
  refine congrArg _ (funext fun a => Fin.ext ?_)
  obtain ⟨e0, e1, e2, e3, e4, e5, e6, e7, e8, e9, e10, e11, e12, e13, e14, e15⟩ := idx_resident t
  match a with
  | ⟨0, _⟩ => show win0_10.index t (0 : Fin 2) * 8 + 1 * (y 0).val = (y 0).val; omega
  | ⟨1, _⟩ => show win0_10.index t (1 : Fin 2) * 2 + 1 * (y 1).val = (y 1).val; omega

/-- A streamed window's block at point `t` is rows `1024·t …` of its array. -/
theorem iblk1 (c : Dev nD) (t : Fin cfg0.N) :
    iblk m c 1 t = rowsAt 16384 1024 128 (t.val * 1024) (by have h : t.val < 16 := lt_of_lt_of_eq t.isLt N16; omega) (A1 m c) := by
  funext y
  show V m c main_arg1 (((cfg0.win 1).blk t).view.emb y) = V m c main_arg1 (ValueIdx.ix2 ⟨t.val * 1024 + (y 0).val, _⟩ ⟨(y 1).val, _⟩)
  refine congrArg _ (funext fun a => Fin.ext ?_)
  obtain ⟨e0, e1, e2, e3, e4, e5, e6, e7⟩ := idx_streamed t
  match a with
  | ⟨0, _⟩ => show win0_1.index t (0 : Fin 2) * 1024 + 1 * (y 0).val = t.val * 1024 + (y 0).val; omega
  | ⟨1, _⟩ => show win0_1.index t (1 : Fin 2) * 128 + 1 * (y 1).val = (y 1).val; omega

/-- A streamed window's block at point `t` is rows `16384·t …` of its array. -/
theorem iblk2 (c : Dev nD) (t : Fin cfg0.N) :
    iblk m c 2 t = rowsAt 262144 16384 128 (t.val * 16384) (by have h : t.val < 16 := lt_of_lt_of_eq t.isLt N16; omega) (A2 m c) := by
  funext y
  show V m c main_arg2 (((cfg0.win 2).blk t).view.emb y) = V m c main_arg2 (ValueIdx.ix2 ⟨t.val * 16384 + (y 0).val, _⟩ ⟨(y 1).val, _⟩)
  refine congrArg _ (funext fun a => Fin.ext ?_)
  obtain ⟨e0, e1, e2, e3, e4, e5, e6, e7⟩ := idx_streamed t
  match a with
  | ⟨0, _⟩ => show win0_2.index t (0 : Fin 2) * 16384 + 1 * (y 0).val = t.val * 16384 + (y 0).val; omega
  | ⟨1, _⟩ => show win0_2.index t (1 : Fin 2) * 128 + 1 * (y 1).val = (y 1).val; omega

/-- A streamed window's block at point `t` is rows `1024·t …` of its array. -/
theorem iblk4 (c : Dev nD) (t : Fin cfg0.N) :
    iblk m c 4 t = rowsAt 16384 1024 128 (t.val * 1024) (by have h : t.val < 16 := lt_of_lt_of_eq t.isLt N16; omega) (A4 m c) := by
  funext y
  show V m c main_arg4 (((cfg0.win 4).blk t).view.emb y) = V m c main_arg4 (ValueIdx.ix2 ⟨t.val * 1024 + (y 0).val, _⟩ ⟨(y 1).val, _⟩)
  refine congrArg _ (funext fun a => Fin.ext ?_)
  obtain ⟨e0, e1, e2, e3, e4, e5, e6, e7⟩ := idx_streamed t
  match a with
  | ⟨0, _⟩ => show win0_4.index t (0 : Fin 2) * 1024 + 1 * (y 0).val = t.val * 1024 + (y 0).val; omega
  | ⟨1, _⟩ => show win0_4.index t (1 : Fin 2) * 128 + 1 * (y 1).val = (y 1).val; omega

/-- A streamed window's block at point `t` is rows `16384·t …` of its array. -/
theorem iblk5 (c : Dev nD) (t : Fin cfg0.N) :
    iblk m c 5 t = rowsAt 262144 16384 128 (t.val * 16384) (by have h : t.val < 16 := lt_of_lt_of_eq t.isLt N16; omega) (A5 m c) := by
  funext y
  show V m c main_arg5 (((cfg0.win 5).blk t).view.emb y) = V m c main_arg5 (ValueIdx.ix2 ⟨t.val * 16384 + (y 0).val, _⟩ ⟨(y 1).val, _⟩)
  refine congrArg _ (funext fun a => Fin.ext ?_)
  obtain ⟨e0, e1, e2, e3, e4, e5, e6, e7⟩ := idx_streamed t
  match a with
  | ⟨0, _⟩ => show win0_5.index t (0 : Fin 2) * 16384 + 1 * (y 0).val = t.val * 16384 + (y 0).val; omega
  | ⟨1, _⟩ => show win0_5.index t (1 : Fin 2) * 128 + 1 * (y 1).val = (y 1).val; omega

/-! ## The accumulators, through the windows' blocks -/

/-- The point that owns row `y 0` of an accumulator, -/
def own (y : S1024x128.Idx) : Fin cfg0.N := ⟨(y 0).val / 64, by rw [N16]; have h0 : (y 0).val < 1024 := (y 0).isLt; omega⟩
/-- and the row's place in that point's band. -/
def inBand (y : S1024x128.Idx) : S64x128.Idx := ValueIdx.ix2 ⟨(y 0).val % 64, Nat.mod_lt _ (by decide)⟩ ⟨(y 1).val, (y 1).isLt⟩

/-- The blocks a point streams, at fixed types. -/
def blk1 (c : Dev nD) (t : Fin cfg0.N) : Vec F S1024x128 .f32 := iblk m c 1 t
def blk2 (c : Dev nD) (t : Fin cfg0.N) : Vec F S16384x128 .f32 := iblk m c 2 t
def blk4 (c : Dev nD) (t : Fin cfg0.N) : Vec F S1024x128 .f32 := iblk m c 4 t
def blk5 (c : Dev nD) (t : Fin cfg0.N) : Vec F S16384x128 .f32 := iblk m c 5 t

/-- The first side's accumulator: each row the owning point's band value. -/
def accS (c : Dev nD) : Vec F S1024x128 .f32 := fun y =>
  k0_pay5 (upper (A6 m c)) (lower (A6 m c)) (blk2 m c (own y)) (blk1 m c (own y)) (inBand y)
/-- The second side's. -/
def accD (c : Dev nD) : Vec F S1024x128 .f32 := fun y =>
  k0_pay1 (k0_pay6 (upper (A6 m c)) (lower (A6 m c)) (blk5 m c (own y)) (blk4 m c (own y))) (k0_pay7 (F := F)) (inBand y)

theorem accS_eq (c : Dev nD) : accS m c = accFirst (A1 m c) (A2 m c) (A6 m c) := by
  funext y; unfold accS accFirst blk1 blk2; rw [iblk1, iblk2]; rfl

theorem accD_eq (c : Dev nD) : accD m c = accSecond (A4 m c) (A5 m c) (A6 m c) := by
  funext y; unfold accD accSecond blk4 blk5; rw [iblk4, iblk5]; rfl

/-- The kernel's result, of the arrays as the region finds them. -/
def outK (c : Dev nD) : Vec F S1024x2 .f32 :=
  out (A0 m c) (A1 m c) (A2 m c) (A3 m c) (A4 m c) (A5 m c) (A6 m c) (A7 m c) (A8 m c) (A9 m c) (A10 m c)

end Cert.KernelIdeal.Body

end
-- ==== Proof.BodyPieces.lean ====
/-
  The bands and the block the body stores, identified.

  A load of a whole buffer through the whole-shape rectangle reads its contents; through the rows 0 … 127 or 128 … 255 of a
  256-row weight buffer, the upper or lower half; and a whole load of a buffer some stores went into reads the earlier
  contents with those stores laid over them. With the closed forms of the band's offset and of the blocks, the band a
  point stores into an accumulator is that accumulator's rows 64·t … 64·t+63, so the store moves the boundary of the
  finished rows from 64·t to 64·t + 64.
-/
import proofs.«100680_g9603546873884_cont_9to1c4b_371_3_alg».proof.Proof.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib Cert.KernelOut

variable {F : FTy → Type} [FloatOps F]

variable (m : (ℓ : Loc nD τ sig) → Buf (Elt F) ℓ)

theorem hz : (![0, 0] : Fin 2 → Nat) = fun _ => 0 := funext fun a => by fin_cases a <;> rfl

/-- A whole load of a whole buffer reads its contents. -/
theorem read_whole {d : Fin 2 → Nat} (mem : Memref sig .tc .vmem (⟨2, d⟩ : Shape) .f32) (h : mem.IsWhole)
    (X : Vec F (⟨2, d⟩ : Shape) .f32) (inb : ∀ a, (![0, 0] : Fin 2 → Nat) a + (⟨2, d⟩ : Shape).size a ≤ (⟨2, d⟩ : Shape).size a) :
    View.readAt (Elt F) mem.view (Rect.unit (s := (⟨2, d⟩ : Shape)) ![0, 0] (⟨2, d⟩ : Shape).size inb).toLoadRect (h.unread X) = X := by
  rw [View.readAt_eq_ld, h.read_unread]; exact View.ld_unit_zero hz inb X

/-- After stores, the earlier contents with the stores laid over them. -/
theorem read_whole_writes {d : Fin 2 → Nat} (mem : Memref sig .tc .vmem (⟨2, d⟩ : Shape) .f32) (h : mem.IsWhole)
    (X : Vec F (⟨2, d⟩ : Shape) .f32) (L : List (View.Piece (Elt F) (⟨2, d⟩ : Shape) .f32))
    (inb : ∀ a, (![0, 0] : Fin 2 → Nat) a + (⟨2, d⟩ : Shape).size a ≤ (⟨2, d⟩ : Shape).size a) :
    View.readAt (Elt F) mem.view (Rect.unit (s := (⟨2, d⟩ : Shape)) ![0, 0] (⟨2, d⟩ : Shape).size inb).toLoadRect
      (mem.view.writes (Elt F) (h.unread X) L) = laid X L := by
  rw [View.readAt_eq_ld, read_writes_eq_laid, h.read_unread]; exact View.ld_unit_zero hz inb _

/-- The upper half of a 256-row buffer, -/
theorem read_upper (mem : Memref sig .tc .vmem S256x128 .f32) (h : mem.IsWhole) (X : Vec F S256x128 .f32) :
    View.readAt (Elt F) mem.view (Rect.unit (s := S256x128) ![0, 0] S128x128.size inb_S256x128_S128x128_0_0).toLoadRect (h.unread X)
      = upper X := by
  funext z
  rw [h.readAt_unread]
  unfold upper rowsAt
  refine congrArg X (funext fun a => Fin.ext ?_)
  match a with
  | ⟨0, _⟩ => show 0 + 1 * (z 0).val = 0 + (z 0).val; omega
  | ⟨1, _⟩ => show 0 + 1 * (z 1).val = (z 1).val; omega

/-- and the lower. -/
theorem read_lower (mem : Memref sig .tc .vmem S256x128 .f32) (h : mem.IsWhole) (X : Vec F S256x128 .f32) :
    View.readAt (Elt F) mem.view (Rect.unit (s := S256x128) ![128, 0] S128x128.size inb_S256x128_S128x128_128_0).toLoadRect (h.unread X)
      = lower X := by
  funext z
  rw [h.readAt_unread]
  unfold lower rowsAt
  refine congrArg X (funext fun a => Fin.ext ?_)
  match a with
  | ⟨0, _⟩ => show 128 + 1 * (z 0).val = 128 + (z 0).val; omega
  | ⟨1, _⟩ => show 0 + 1 * (z 1).val = (z 1).val; omega

/-- The band of point `t`: rows 64·t … 64·t + 63. -/
theorem band_mem (t : Fin cfg0.N) (inb) (y : S1024x128.Idx) :
    y ∈ (Rect.unit (s := S1024x128) (k0_off1 (grid0.coords t)) S64x128.size inb).set
      ↔ 64 * t.val ≤ (y 0).val ∧ (y 0).val < 64 * t.val + 64 := by
  rw [Rect.mem_set_unit]
  obtain ⟨e0, e1⟩ := off_facts t
  constructor
  · intro h
    have h0 : k0_off1 (grid0.coords t) (0 : Fin 2) ≤ (y 0).val ∧ (y 0).val < k0_off1 (grid0.coords t) (0 : Fin 2) + 64 := h 0
    omega
  · intro h a
    match a with
    | ⟨0, _⟩ => show k0_off1 (grid0.coords t) (0 : Fin 2) ≤ (y 0).val ∧ (y 0).val < k0_off1 (grid0.coords t) (0 : Fin 2) + 64; omega
    | ⟨1, _⟩ =>
      show k0_off1 (grid0.coords t) (1 : Fin 2) ≤ (y 1).val ∧ (y 1).val < k0_off1 (grid0.coords t) (1 : Fin 2) + 128
      have h1 : (y 1).val < 128 := (y 1).isLt
      omega

/-- A place of the band is a row owned by `t`, at that place. -/
theorem own_emb (t : Fin cfg0.N) (inb) (x : S64x128.Idx) :
    own ((Rect.unit (s := S1024x128) (k0_off1 (grid0.coords t)) S64x128.size inb).emb x) = t := by
  obtain ⟨e0, e1⟩ := off_facts t
  apply Fin.ext
  show (k0_off1 (grid0.coords t) (0 : Fin 2) + 1 * (x 0).val) / 64 = t.val
  have h0 : (x 0).val < 64 := (x 0).isLt
  omega

theorem inBand_emb (t : Fin cfg0.N) (inb) (x : S64x128.Idx) :
    inBand ((Rect.unit (s := S1024x128) (k0_off1 (grid0.coords t)) S64x128.size inb).emb x) = x := by
  obtain ⟨e0, e1⟩ := off_facts t
  funext a; apply Fin.ext
  match a with
  | ⟨0, _⟩ =>
    show (k0_off1 (grid0.coords t) (0 : Fin 2) + 1 * (x 0).val) % 64 = (x 0).val
    have h0 : (x 0).val < 64 := (x 0).isLt
    omega
  | ⟨1, _⟩ =>
    show k0_off1 (grid0.coords t) (1 : Fin 2) + 1 * (x 1).val = (x 1).val
    omega

/-- The band value of point `t` at a place is the accumulator at the row it is stored to. -/
theorem accS_emb (c : Dev nD) (t : Fin cfg0.N) (inb) (x : S64x128.Idx) :
    k0_pay5 (upper (A6 m c)) (lower (A6 m c)) (blk2 m c t) (blk1 m c t) x
      = accS m c ((Rect.unit (s := S1024x128) (k0_off1 (grid0.coords t)) S64x128.size inb).emb x) := by
  unfold accS; rw [own_emb, inBand_emb]

theorem accD_emb (c : Dev nD) (t : Fin cfg0.N) (inb) (x : S64x128.Idx) :
    k0_pay1 (k0_pay6 (upper (A6 m c)) (lower (A6 m c)) (blk5 m c t) (blk4 m c t)) (k0_pay7 (F := F)) x
      = accD m c ((Rect.unit (s := S1024x128) (k0_off1 (grid0.coords t)) S64x128.size inb).emb x) := by
  unfold accD; rw [own_emb, inBand_emb]

/-! ## A point before the last -/

theorem early_band13 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : ¬ k0_cond1 (grid0.coords t) = 1#1) (b xs14 : Vec F S1024x128 .f32) :
    laid (below (64 * t.val) (accS m c) b)
      (runEarly c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b) xs14).1
      = below (64 * t.val + 64) (accS m c) b := by
  unfold runEarly; dsimp only
  refine laid_band (64 * t.val) 64 (accS m c) b _ _ (band_mem t _) (fun x => ?_)
  rw [read_upper, read_lower, read_whole, read_whole, iblk6]
  exact accS_emb m c t _ x

theorem early_band14 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : ¬ k0_cond1 (grid0.coords t) = 1#1) (xs13 b : Vec F S1024x128 .f32) :
    laid (below (64 * t.val) (accD m c) b)
      (runEarly c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) xs13 (below (64 * t.val) (accD m c) b)).2.1
      = below (64 * t.val + 64) (accD m c) b := by
  unfold runEarly; dsimp only
  unfold runEarly.sl.r_2
  refine laid_band (64 * t.val) 64 (accD m c) b _ _ (band_mem t _) (fun x => ?_)
  rw [read_upper, read_lower, read_whole, read_whole, iblk6]
  exact accD_emb m c t _ x

end Cert.KernelIdeal.Body

end
-- ==== Proof.BodyLastPieces.lean ====
/-
  The last point's stores, identified.

  The last point stores its band of each accumulator like every other point, which completes them: the boundary reaches
  row 1024. It then reads them whole — so what it reads is the accumulator itself, whatever the buffers held at first —
  and the block it stores into the result's buffer, the whole [1024, 2] block, is the kernel's result.
-/
import proofs.«100680_g9603546873884_cont_9to1c4b_371_3_alg».proof.Proof.BodyPieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib Cert.KernelOut

variable {F : FTy → Type} [FloatOps F]

variable (m : (ℓ : Loc nD τ sig) → Buf (Elt F) ℓ)

/-- One store through the whole-shape rectangle leaves its payload, whatever was there. -/
theorem laid_unit_zero {Val : EltTy → Type} {S : Shape} {e : EltTy} {off : Fin S.rank → Nat} (h : off = fun _ => 0)
    (inb : ∀ a, off a + S.size a ≤ S.size a) (Y : S.Idx → Val e) (w : S.Idx → Val e) (L : List (View.Piece Val S e)) :
    laid Y ((⟨Rect.unit off S.size inb, w⟩ : View.Piece Val S e) :: L) = w := by
  subst h; funext y
  have e := laid_cons_emb Y (Rect.whole S) w L y
  rw [Rect.emb_whole_apply] at e
  exact e

/-- The last point's band of the first accumulator, -/
theorem last_band13' (c : Dev nD) (t : Fin cfg0.N) (a2 : Memref sig .tc .vmem S1024x128 .f32) (h2 : a2.IsWhole)
    (a3 : Memref sig .tc .vmem S16384x128 .f32) (h3 : a3.IsWhole) (a7 : Memref sig .tc .vmem S256x128 .f32) (h7 : a7.IsWhole)
    (b : Vec F S1024x128 .f32) :
    laid (below (64 * t.val) (accS m c) b)
      (runLast.sl.H13_1 c (grid0.coords t) a2 h2 a3 h3 a7 h7 (iblk m c 1 t) (iblk m c 2 t) (iblk m c 6 t))
      = below (64 * t.val + 64) (accS m c) b := by
  unfold runLast.sl.H13_1
  refine laid_band (64 * t.val) 64 (accS m c) b _ _ (band_mem t _) (fun x => ?_)
  rw [read_upper, read_lower, read_whole, read_whole, iblk6]
  exact accS_emb m c t _ x

/-- and of the second. -/
theorem last_band14' (c : Dev nD) (t : Fin cfg0.N) (a5 : Memref sig .tc .vmem S1024x128 .f32) (h5 : a5.IsWhole)
    (a6 : Memref sig .tc .vmem S16384x128 .f32) (h6 : a6.IsWhole) (a7 : Memref sig .tc .vmem S256x128 .f32) (h7 : a7.IsWhole)
    (b : Vec F S1024x128 .f32) :
    laid (below (64 * t.val) (accD m c) b)
      (runLast.sl.H14_1 c (grid0.coords t) a5 h5 a6 h6 a7 h7 (iblk m c 4 t) (iblk m c 5 t) (iblk m c 6 t))
      = below (64 * t.val + 64) (accD m c) b := by
  unfold runLast.sl.H14_1 runLast.sl.r_2
  refine laid_band (64 * t.val) 64 (accD m c) b _ _ (band_mem t _) (fun x => ?_)
  rw [read_upper, read_lower, read_whole, read_whole, iblk6]
  exact accD_emb m c t _ x

theorem last_band13 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : k0_cond1 (grid0.coords t) = 1#1) (b xs14 : Vec F S1024x128 .f32) :
    laid (below (64 * t.val) (accS m c) b)
      (runLast c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b) xs14).2.1
      = below (64 * t.val + 64) (accS m c) b := by
  unfold runLast; dsimp only
  exact last_band13' m c t a2 h2 a3 h3 a7 h7 b

theorem last_band14 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : k0_cond1 (grid0.coords t) = 1#1) (xs13 b : Vec F S1024x128 .f32) :
    laid (below (64 * t.val) (accD m c) b)
      (runLast c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) xs13 (below (64 * t.val) (accD m c) b)).2.2.1
      = below (64 * t.val + 64) (accD m c) b := by
  unfold runLast; dsimp only
  exact last_band14' m c t a5 h5 a6 h6 a7 h7 b

/-- The block the last point stores is the kernel's result: both accumulators are complete when it reads them. -/
theorem last_block12 (c : Dev nD) (t : Fin cfg0.N) (a1 : Memref sig .tc .vmem S1024x128 .f32) (h1 : a1.IsWhole) (a2 : Memref sig .tc .vmem S1024x128 .f32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (a6 : Memref sig .tc .vmem S16384x128 .f32) (h6 : a6.IsWhole) (a7 : Memref sig .tc .vmem S256x128 .f32) (h7 : a7.IsWhole) (a8 : Memref sig .tc .vmem S256x128 .f32) (h8 : a8.IsWhole) (a9 : Memref sig .tc .vmem S128x64 .f32) (h9 : a9.IsWhole) (a10 : Memref sig .tc .vmem S64x8 .f32) (h10 : a10.IsWhole) (a11 : Memref sig .tc .vmem S8x2 .f32) (h11 : a11.IsWhole) (a12 : Memref sig .tc .vmem S1024x2 .f32) (h12 : a12.IsWhole) (a13 : Memref sig .tc .vmem S1024x128 .f32) (h13 : a13.IsWhole) (a14 : Memref sig .tc .vmem S1024x128 .f32) (h14 : a14.IsWhole)
    (hc : k0_cond1 (grid0.coords t) = 1#1) (hl : t.val = 15) (b13 b14 : Vec F S1024x128 .f32) (xo : Vec F S1024x2 .f32) :
    laid xo (runLast c (grid0.coords t) a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b13) (below (64 * t.val) (accD m c) b14)).1
      = outK m c := by
  unfold runLast; dsimp only
  rw [laid_unit_zero hz]
  unfold runLast.sl.r_3 runLast.sl.r_4 runLast.sl.r runLast.sl.r_1
  rw [read_upper, read_lower, read_whole, read_whole_writes, read_whole, read_whole_writes, read_upper, read_lower,
    read_whole, read_whole, read_whole]
  rw [last_band13', last_band14', below_all (by omega : 1024 ≤ 64 * t.val + 64), below_all (by omega : 1024 ≤ 64 * t.val + 64),
    iblk0, iblk3, iblk6, iblk7, iblk8, iblk9, iblk10, accS_eq, accD_eq]
  rfl

end Cert.KernelIdeal.Body

end
-- ==== Proof.BodyObligDefs.lean ====
/-
  The pipeline's proof data and the body obligation.

  Between points the two accumulators are the only state the kernel carries. Before point n each holds its finished rows
  below 64·n over contents nobody names — at n = 0 anything at all, at n = 16 the accumulator itself. A point before the
  last moves both boundaries by one band and leaves the result's buffer as it found it (the pipeline does not write it
  back there); the last point moves them to the end and stores the result, computed from the two complete accumulators.
-/
import proofs.«100680_g9603546873884_cont_9to1c4b_371_3_alg».proof.Proof.BodyLastPieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib Cert.KernelOut

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers a point is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16384x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16384x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x8 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x2 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x2 .f32 := win0_11.stage (cfg0.slots t 11)
abbrev hs11 (t : Fin cfg0.N) : (ms11 t).IsWhole := hstage0_11 ((cfg0.slots t 11).cast nbuf0_11)
/-- The two accumulators: scoped buffers of the kernel's own. -/
abbrev sc13 : Memref sig .tc .vmem S1024x128 .f32 := Memref.whole cc0_scratch0
abbrev sc14 : Memref sig .tc .vmem S1024x128 .f32 := Memref.whole cc0_scratch1

/-- What the launch hands the region: both accumulators at some contents, and the generator register. -/
theorem PhiA_eq (c : Dev nD) :
    (Pipeline.ΦA spec0 c : sProp 𝕄)
      = iprop(iprop((∃ d, owns (c : Thread nD τ) sc13 fullShare d) ∗ (∃ d, owns (c : Thread nD τ) sc14 fullShare d)) ∗ (∃ r, prngReg c r)) := by
  unfold Pipeline.ΦA; rw [scopedRest0_eq]; simp only [sc13, sc14, owns_whole]; try rfl

/-- The invariant before position `n`. -/
def PhiS (c : Dev nD) (n : ℕ) : sProp 𝕄 :=
  iprop(iprop((∃ b, owns (c : Thread nD τ) sc13 fullShare (below (64 * n) (accS m c) b)) ∗ (∃ b, owns (c : Thread nD τ) sc14 fullShare (below (64 * n) (accD m c) b))) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outK m c
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outK m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem idle11 : ∀ t : Fin cfg0.N, ¬ k0_cond1 (grid0.coords t) = 1#1 → cfg0.idle 11 (grid0.coords t) = true := by decide +kernel
theorem noFlush11 : ∀ t : Fin cfg0.N, ¬ k0_cond1 (grid0.coords t) = 1#1 → (cfg0.win 11).flush t = false := by decide +kernel
theorem live11 : ∀ t : Fin cfg0.N, k0_cond1 (grid0.coords t) = 1#1 → cfg0.idle 11 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.KernelIdeal.Body

end
-- ==== Proof.BodyObligLast.lean ====
/-
  The body obligation at the last point: both accumulators reach their last row, and the result's staging buffer is
  left at the kernel's result.
-/
import proofs.«100680_g9603546873884_cont_9to1c4b_371_3_alg».proof.Proof.BodyObligDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib Cert.KernelOut

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_last (c : Dev nD) (t : Fin cfg0.N) (hl : t.val = 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) from rfl, show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  unfold PhiS
  have hc : k0_cond1 (grid0.coords t) = 1#1 := (cond_iff t).mpr hl
  rw [show (dats m 0 c).leavesExact 11 t = owns (c : Thread nD τ) (ms11 t) fullShare ((dats m 0 c).after 11 t) from by
    unfold Dat.leavesExact; rw [live11 t hc], after11]
  iintro ⟨⟨⟨⟨%b13, HS13⟩, ⟨%b14, HS14⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b13) (below (64 * t.val) (accD m c) b14)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS13]; · iexact HS13
  isplitl [HS14]; · iexact HS14
  iintro ⟨H0, H1, H2, H3, H4, H5, H6, H7, H8, H9, H10, H11, HS13, HS14⟩
  ·
    isplitl [HS13 HS14 Hg]
    · isplitl [HS13 HS14]
      · isplitl [HS13]
        · iexists b13
          rw [show 64 * (t.val + 1) = 64 * t.val + 64 from by omega, ← last_band13 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc b13 (below (64 * t.val) (accD m c) b14)]
          iexact HS13
        · iexists b14
          rw [show 64 * (t.val + 1) = 64 * t.val + 64 from by omega, ← last_band14 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc (below (64 * t.val) (accS m c) b13) b14]
          iexact HS14
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [← last_block12 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc hl b13 b14 ((dats m 0 c).before 11 t d11)]
    iexact H11

end Cert.KernelIdeal.Body

end
-- ==== Proof.BodyObligEarly.lean ====
/-
  The body obligation at a point before the last: both accumulators' boundaries move by one band, and the result's
  staging buffer, which the pipeline does not write back there, is handed back as it was found.
-/
import proofs.«100680_g9603546873884_cont_9to1c4b_371_3_alg».proof.Proof.BodyObligDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib Cert.KernelOut

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_early (c : Dev nD) (t : Fin cfg0.N) (hl : ¬ t.val = 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) from rfl, show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  unfold PhiS
  have hc : ¬ k0_cond1 (grid0.coords t) = 1#1 := fun h => hl ((cond_iff t).mp h)
  rw [Dat.leavesExact_idle (dats m 0 c) 11 t (idle11 t hc) (noFlush11 t hc)]
  iintro ⟨⟨⟨⟨%b13, HS13⟩, ⟨%b14, HS14⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runEarly c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (below (64 * t.val) (accS m c) b13) (below (64 * t.val) (accD m c) b14)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS13]; · iexact HS13
  isplitl [HS14]; · iexact HS14
  iintro ⟨H0, H1, H2, H3, H4, H5, H6, H7, H8, H9, H10, H11, HS13, HS14⟩
  ·
    isplitl [HS13 HS14 Hg]
    · isplitl [HS13 HS14]
      · isplitl [HS13]
        · iexists b13
          rw [show 64 * (t.val + 1) = 64 * t.val + 64 from by omega, ← early_band13 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc b13 (below (64 * t.val) (accD m c) b14)]
          iexact HS13
        · iexists b14
          rw [show 64 * (t.val + 1) = 64 * t.val + 64 from by omega, ← early_band14 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc13 (Memref.isWhole_whole _) sc14 (Memref.isWhole_whole _) hc (below (64 * t.val) (accS m c) b13) b14]
          iexact HS14
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

end Cert.KernelIdeal.Body

end
-- ==== Proof.BodyOblig.lean ====
/-
  The pipeline's run and the frame.

  At every point the body meets its obligation — by the last point's case at position 15 and by the other case before it —
  so the launch theorem with a point-indexed invariant runs the region: before the first point the invariant asks nothing
  of the accumulators, after the last it lets them go.
-/
import proofs.«100680_g9603546873884_cont_9to1c4b_371_3_alg».proof.Proof.BodyObligLast
import proofs.«100680_g9603546873884_cont_9to1c4b_371_3_alg».proof.Proof.BodyObligEarly

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib Cert.KernelOut

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases hl : t.val = 15
  · exact sound_last m c t hl
  · exact sound_early m c t hl

theorem body_obligation (c : Dev nD) : BodyObligation (dats (F := F) m 0 c) (defs₀ (F := F)) Variants.none () Set.univ := fun t => by
  rw [bigSep_W0, bigSep_W0]
  exact sound_body m c t

/-- Before the first point nothing is known of the accumulators. -/
theorem hin (c : Dev nD) : Pipeline.ΦA spec0 c ⊢ (dats m 0 c).Φ 0 := by
  rw [show (dats m 0 c).Φ 0 = PhiS m c 0 from rfl, PhiA_eq]; unfold PhiS
  iintro ⟨⟨⟨%d13, H13⟩, ⟨%d14, H14⟩⟩, Hg⟩
  isplitl [H13 H14]
  · isplitl [H13]
    · iexists d13; rw [show below (64 * 0) (accS m c) d13 = d13 from below_zero _ _]; iexact H13
    · iexists d14; rw [show below (64 * 0) (accD m c) d14 = d14 from below_zero _ _]; iexact H14
  · iexact Hg

/-- After the last point they are forgotten again. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨⟨%b13, H13⟩, ⟨%b14, H14⟩⟩, Hg⟩
  isplitl [H13 H14]
  · isplitl [H13]
    · iexists _; iexact H13
    · iexists _; iexact H14
  · iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Body

end
-- ==== Proof.KernelValue.lean ====
/-
  The result array after the run.

  The result's window is written back once, at the last point, and its block there is the whole [1024, 2] array; what the
  body left in the staging buffer at that point is the kernel's result. So the array ends holding it, entry by entry.
-/
import proofs.«100680_g9603546873884_cont_9to1c4b_371_3_alg».proof.Proof.BodyOblig

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib Cert.KernelOut

variable {F : FTy → Type} [FloatOps F]

variable (m : (ℓ : Loc nD τ sig) → Buf (Elt F) ℓ) (ρ : Dev nD → PrngReg)

/-- What the last point writes back is the whole result. -/
theorem flushed11 (c : Dev nD) (t : Fin cfg0.N) :
    (dats m 0 c).flushed 11 t = ((cfg0.win 11).blk t).view.read (Elt F) (outK m c) := by
  show (cfg0.win 11).cut (grid0.coords t) ((dats m 0 c).after 11 t) = _
  rw [after11]
  funext y
  show outK m c y = outK m c (((cfg0.win 11).blk t).view.emb y)
  refine congrArg _ (funext fun a => Fin.ext ?_)
  obtain ⟨e0, e1, e2, e3, e4, e5, e6, e7, e8, e9, e10, e11, e12, e13, e14, e15⟩ := idx_resident t
  match a with
  | ⟨0, _⟩ => show (y 0).val = win0_11.index t (0 : Fin 2) * 1024 + 1 * (y 0).val; omega
  | ⟨1, _⟩ => show (y 1).val = win0_11.index t (1 : Fin 2) * 2 + 1 * (y 1).val; omega

/-- The last point. -/
def tLast : Fin cfg0.N := ⟨15, by rw [N16]; decide⟩

/-- Every entry of the result is in the last point's block. -/
theorem cover11 (i : S1024x2.Idx) :
    ∃ t : Fin cfg0.N, (cfg0.win 11).flush t = true ∧ i ∈ ((cfg0.win 11).blk t).view.set := by
  refine ⟨tLast, (flush0_11 tLast).mpr rfl, ?_⟩
  show i ∈ ((View.whole main_v0).slice (win0_11.rect tLast)).set
  rw [View.set_slice_whole, Rect.mem_set_unit]
  obtain ⟨e0, e1, e2, e3, e4, e5, e6, e7, e8, e9, e10, e11, e12, e13, e14, e15⟩ := idx_resident tLast
  intro a
  match a with
  | ⟨0, _⟩ =>
    show win0_11.index tLast (0 : Fin 2) * 1024 ≤ (i 0).val ∧ (i 0).val < win0_11.index tLast (0 : Fin 2) * 1024 + 1024
    have h0 : (i 0).val < 1024 := (i 0).isLt
    omega
  | ⟨1, _⟩ =>
    show win0_11.index tLast (1 : Fin 2) * 2 ≤ (i 1).val ∧ (i 1).val < win0_11.index tLast (1 : Fin 2) * 2 + 2
    have h1 : (i 1).val < 2 := (i 1).isLt
    omega

theorem final11 (c : Dev nD) : (dats m 0 c).arrAt 11 cfg0.N = outK m c :=
  (dats m 0 c).arrAt_eq_of_cover 11 (outK m c) (fun t _ => flushed11 m c t) cover11

/-- The run, with the result named: the result array ends at the kernel's result of the argument arrays, the arguments
    unchanged. -/
theorem run_value : θ_run defs (onTc (τ := τ) (main (F := F))) ⟨m, fun _ => 0, ρ⟩ (fun r => ∀ c : Dev nD,
      r.2.mem ((c.tc : Thread nD τ).loc main_v0) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.KernelIdeal.Body

end
-- ==== Proof.RefRead.lean ====
/-
  The reference program one host operation at a time: `val_<buffer>` is the value an operation writes, as a function of
  the argument arrays it depends on, and `val_<buffer>_apply` reads it at an index from its operands at an index — a
  reshape at the row-major position, a broadcast at the source index, an elementwise operation at the same index, and,
  on the extended reals, a product of matrices as the sum over the contracted index and a sum along an axis as the
  initial value plus the sum of the entries. The five concatenations and the row maximum are read where they are used.
-/
import proofs.«100680_g9603546873884_cont_9to1c4b_371_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg5 : (tensor<262144x128xf32>) -> tensor<16384x16x128xf32>
def val_main_v0 (x5 : (⟨S262144x128, .f32⟩ : BufTy).Contents (Elt F)) : (⟨S16384x16x128, .f32⟩ : BufTy).Contents (Elt F) :=
  shapeCast _ (x5) shapeCasts_S262144x128_S16384x16x128
abbrev idx_main_v0 (i : S16384x16x128.Idx) : S262144x128.Idx := fun a => match a with
  | ⟨0, _⟩ => ⟨(((i 0).val * 16 + (i 1).val) * 128 + (i 2).val) / 128, by have h0 : (i 0).val < 16384 := (i 0).isLt; have h1 : (i 1).val < 16 := (i 1).isLt; have h2 : (i 2).val < 128 := (i 2).isLt; show (((i 0).val * 16 + (i 1).val) * 128 + (i 2).val) / 128 < 262144; omega⟩
  | ⟨1, _⟩ => ⟨(((i 0).val * 16 + (i 1).val) * 128 + (i 2).val) % 128, by have h0 : (i 0).val < 16384 := (i 0).isLt; have h1 : (i 1).val < 16 := (i 1).isLt; have h2 : (i 2).val < 128 := (i 2).isLt; show (((i 0).val * 16 + (i 1).val) * 128 + (i 2).val) % 128 < 128; omega⟩
theorem val_main_v0_apply (x5 : (⟨S262144x128, .f32⟩ : BufTy).Contents (Elt F)) (i : S16384x16x128.Idx) :
    val_main_v0 (F := F) x5 i = x5 (idx_main_v0 i) := by
  unfold val_main_v0
  exact shapeCast_apply x5 shapeCasts_S262144x128_S16384x16x128 i (idx_main_v0 i)
    (by rewrite [Shape.rowMajor_val_two, Shape.rowMajor_val_three]; have h0 : (i 0).val < 16384 := (i 0).isLt; have h1 : (i 1).val < 16 := (i 1).isLt; have h2 : (i 2).val < 128 := (i 2).isLt; show (((i 0).val * 16 + (i 1).val) * 128 + (i 2).val) / 128 * 128 + (((i 0).val * 16 + (i 1).val) * 128 + (i 2).val) % 128 = ((i 0).val * 16 + (i 1).val) * 128 + (i 2).val; omega)

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %1 = stablehlo.reduce(%0 init: %cst) applies stablehlo.add across dimensions = [1] : (tensor<16384x16x128xf32>, tensor<f32>) -> tensor<16384x128xf32> {
def val_main_v1 (x5 : (⟨S262144x128, .f32⟩ : BufTy).Contents (Elt F)) : (⟨S16384x128, .f32⟩ : BufTy).Contents (Elt F) :=
  Host.reduceAdd (val_main_v0 (F := F) x5) (val_main_cst (F := F)) reducesTo_S16384x16x128_S16384x128_d1 h_S_
abbrev idx_main_v1 (i : S16384x128.Idx) (k : Fin 16) : S16384x16x128.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v1_apply (x5 : (⟨S262144x128, .f32⟩ : BufTy).Contents (Elt Ideal)) (i : S16384x128.Idx) :
    val_main_v1 (F := Ideal) x5 i = (val_main_cst (F := Ideal)) (Shape.Idx.first h_S_) + ∑ k : Fin 16, (val_main_v0 (F := Ideal) x5) (idx_main_v1 i k) := by
  unfold val_main_v1
  generalize val_main_v0 (F := Ideal) x5 = y0
  simp only [Host.reduceAdd, Ideal.hostReduceAdd_def]
  rw [Ideal.hostReduceAdd_single reducesTo_S16384x16x128_S16384x128_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %cst_0 = stablehlo.constant dense<1.600000e+01> : tensor<f32>
def val_main_cst_0 : (⟨S_, .f32⟩ : BufTy).Contents (Elt F) :=
  constant S_ .f32 0x41800000#32
theorem val_main_cst_0_apply (i : S_.Idx) :
    val_main_cst_0 (F := F) i = FloatOps.ofBits .f32 0x41800000#32 := rfl

-- %2 = stablehlo.broadcast_in_dim %cst_0, dims = [] : (tensor<f32>) -> tensor<16384x128xf32>
def val_main_v2 : (⟨S16384x128, .f32⟩ : BufTy).Contents (Elt F) :=
  broadcastInDim S16384x128 ![] bcast_S_S16384x128 (val_main_cst_0 (F := F))
abbrev idx_main_v2 (i : S16384x128.Idx) : S_.Idx := fun a => a.elim0
theorem val_main_v2_apply (i : S16384x128.Idx) :
    val_main_v2 (F := F) i = val_main_cst_0 (F := F) (idx_main_v2 i) := by
  unfold val_main_v2
  generalize val_main_cst_0 (F := F) = y
  exact broadcastInDim_apply _ bcast_S_S16384x128 y i (idx_main_v2 i) (fun a => a.elim0)

-- %3 = stablehlo.divide %1, %2 : tensor<16384x128xf32>
def val_main_v3 (x5 : (⟨S262144x128, .f32⟩ : BufTy).Contents (Elt F)) : (⟨S16384x128, .f32⟩ : BufTy).Contents (Elt F) :=
  Host.divf (val_main_v1 (F := F) x5) (val_main_v2 (F := F))
theorem val_main_v3_apply (x5 : (⟨S262144x128, .f32⟩ : BufTy).Contents (Elt F)) (i : S16384x128.Idx) :
    val_main_v3 (F := F) x5 i = FloatOps.hostDivf (val_main_v1 (F := F) x5 i) (val_main_v2 (F := F) i) := rfl

-- %4 = stablehlo.reshape %arg2 : (tensor<262144x128xf32>) -> tensor<16384x16x128xf32>
def val_main_v4 (x2 : (⟨S262144x128, .f32⟩ : BufTy).Contents (Elt F)) : (⟨S16384x16x128, .f32⟩ : BufTy).Contents (Elt F) :=
  shapeCast _ (x2) shapeCasts_S262144x128_S16384x16x128
abbrev idx_main_v4 (i : S16384x16x128.Idx) : S262144x128.Idx := fun a => match a with
  | ⟨0, _⟩ => ⟨(((i 0).val * 16 + (i 1).val) * 128 + (i 2).val) / 128, by have h0 : (i 0).val < 16384 := (i 0).isLt; have h1 : (i 1).val < 16 := (i 1).isLt; have h2 : (i 2).val < 128 := (i 2).isLt; show (((i 0).val * 16 + (i 1).val) * 128 + (i 2).val) / 128 < 262144; omega⟩
  | ⟨1, _⟩ => ⟨(((i 0).val * 16 + (i 1).val) * 128 + (i 2).val) % 128, by have h0 : (i 0).val < 16384 := (i 0).isLt; have h1 : (i 1).val < 16 := (i 1).isLt; have h2 : (i 2).val < 128 := (i 2).isLt; show (((i 0).val * 16 + (i 1).val) * 128 + (i 2).val) % 128 < 128; omega⟩
theorem val_main_v4_apply (x2 : (⟨S262144x128, .f32⟩ : BufTy).Contents (Elt F)) (i : S16384x16x128.Idx) :
    val_main_v4 (F := F) x2 i = x2 (idx_main_v4 i) := by
  unfold val_main_v4
  exact shapeCast_apply x2 shapeCasts_S262144x128_S16384x16x128 i (idx_main_v4 i)
    (by rewrite [Shape.rowMajor_val_two, Shape.rowMajor_val_three]; have h0 : (i 0).val < 16384 := (i 0).isLt; have h1 : (i 1).val < 16 := (i 1).isLt; have h2 : (i 2).val < 128 := (i 2).isLt; show (((i 0).val * 16 + (i 1).val) * 128 + (i 2).val) / 128 * 128 + (((i 0).val * 16 + (i 1).val) * 128 + (i 2).val) % 128 = ((i 0).val * 16 + (i 1).val) * 128 + (i 2).val; omega)

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %5 = stablehlo.reduce(%4 init: %cst_1) applies stablehlo.add across dimensions = [1] : (tensor<16384x16x128xf32>, tensor<f32>) -> tensor<16384x128xf32> {
def val_main_v5 (x2 : (⟨S262144x128, .f32⟩ : BufTy).Contents (Elt F)) : (⟨S16384x128, .f32⟩ : BufTy).Contents (Elt F) :=
  Host.reduceAdd (val_main_v4 (F := F) x2) (val_main_cst_1 (F := F)) reducesTo_S16384x16x128_S16384x128_d1 h_S_
abbrev idx_main_v5 (i : S16384x128.Idx) (k : Fin 16) : S16384x16x128.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v5_apply (x2 : (⟨S262144x128, .f32⟩ : BufTy).Contents (Elt Ideal)) (i : S16384x128.Idx) :
    val_main_v5 (F := Ideal) x2 i = (val_main_cst_1 (F := Ideal)) (Shape.Idx.first h_S_) + ∑ k : Fin 16, (val_main_v4 (F := Ideal) x2) (idx_main_v5 i k) := by
  unfold val_main_v5
  generalize val_main_v4 (F := Ideal) x2 = y0
  simp only [Host.reduceAdd, Ideal.hostReduceAdd_def]
  rw [Ideal.hostReduceAdd_single reducesTo_S16384x16x128_S16384x128_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %cst_2 = stablehlo.constant dense<1.600000e+01> : tensor<f32>
def val_main_cst_2 : (⟨S_, .f32⟩ : BufTy).Contents (Elt F) :=
  constant S_ .f32 0x41800000#32
theorem val_main_cst_2_apply (i : S_.Idx) :
    val_main_cst_2 (F := F) i = FloatOps.ofBits .f32 0x41800000#32 := rfl

-- %6 = stablehlo.broadcast_in_dim %cst_2, dims = [] : (tensor<f32>) -> tensor<16384x128xf32>
def val_main_v6 : (⟨S16384x128, .f32⟩ : BufTy).Contents (Elt F) :=
  broadcastInDim S16384x128 ![] bcast_S_S16384x128 (val_main_cst_2 (F := F))
abbrev idx_main_v6 (i : S16384x128.Idx) : S_.Idx := fun a => a.elim0
theorem val_main_v6_apply (i : S16384x128.Idx) :
    val_main_v6 (F := F) i = val_main_cst_2 (F := F) (idx_main_v6 i) := by
  unfold val_main_v6
  generalize val_main_cst_2 (F := F) = y
  exact broadcastInDim_apply _ bcast_S_S16384x128 y i (idx_main_v6 i) (fun a => a.elim0)

-- %7 = stablehlo.divide %5, %6 : tensor<16384x128xf32>
def val_main_v7 (x2 : (⟨S262144x128, .f32⟩ : BufTy).Contents (Elt F)) : (⟨S16384x128, .f32⟩ : BufTy).Contents (Elt F) :=
  Host.divf (val_main_v5 (F := F) x2) (val_main_v6 (F := F))
theorem val_main_v7_apply (x2 : (⟨S262144x128, .f32⟩ : BufTy).Contents (Elt F)) (i : S16384x128.Idx) :
    val_main_v7 (F := F) x2 i = FloatOps.hostDivf (val_main_v5 (F := F) x2 i) (val_main_v6 (F := F) i) := rfl

-- %8 = stablehlo.concatenate %arg4, %3, dim = 1 : (tensor<16384x128xf32>, tensor<16384x128xf32>) -> tensor<16384x256xf32>
def val_main_v8 (x4 : (⟨S16384x128, .f32⟩ : BufTy).Contents (Elt F)) (x5 : (⟨S262144x128, .f32⟩ : BufTy).Contents (Elt F)) : (⟨S16384x256, .f32⟩ : BufTy).Contents (Elt F) :=
  concatenate S16384x256 1 [⟨S16384x128, (x4)⟩, ⟨S16384x128, (val_main_v3 (F := F) x5)⟩] concatenates_S16384x128_S16384x128_S16384x256_d1

-- %9 = stablehlo.concatenate %arg1, %7, dim = 1 : (tensor<16384x128xf32>, tensor<16384x128xf32>) -> tensor<16384x256xf32>
def val_main_v9 (x1 : (⟨S16384x128, .f32⟩ : BufTy).Contents (Elt F)) (x2 : (⟨S262144x128, .f32⟩ : BufTy).Contents (Elt F)) : (⟨S16384x256, .f32⟩ : BufTy).Contents (Elt F) :=
  concatenate S16384x256 1 [⟨S16384x128, (x1)⟩, ⟨S16384x128, (val_main_v7 (F := F) x2)⟩] concatenates_S16384x128_S16384x128_S16384x256_d1

-- %10 = stablehlo.dot_general %9, %arg6, contracting_dims = [1] x [0], precision = [DEFAULT, DEFAULT] : (tensor<16384x256xf32>, tensor<256x128xf32>) -> tensor<16384x128xf32>
def val_main_v10 (x1 : (⟨S16384x128, .f32⟩ : BufTy).Contents (Elt F)) (x2 : (⟨S262144x128, .f32⟩ : BufTy).Contents (Elt F)) (x6 : (⟨S256x128, .f32⟩ : BufTy).Contents (Elt F)) : (⟨S16384x128, .f32⟩ : BufTy).Contents (Elt F) :=
  Host.dotGeneral dot_S16384x256_S256x128_S16384x128_1_0_0_1_n_n none (val_main_v9 (F := F) x1 x2) (x6)
theorem lhs_main_v10_0 (i : S16384x128.Idx) (q : dot_S16384x256_S256x128_S16384x128_1_0_0_1_n_n.contr.Idx) :
    (dot_S16384x256_S256x128_S16384x128_1_0_0_1_n_n.lhsIdx i q 0).val = (i 0).val := by
  unfold DotDims.lhsIdx
  rw [dif_neg (show ¬(0 : Fin S16384x256.rank) ∈ dot_S16384x256_S256x128_S16384x128_1_0_0_1_n_n.lhsBatch by decide), dif_pos (show (0 : Fin S16384x256.rank) ∈ dot_S16384x256_S256x128_S16384x128_1_0_0_1_n_n.lhsNonContracting by decide)]
  rfl
theorem lhs_main_v10_1 (i : S16384x128.Idx) (q : dot_S16384x256_S256x128_S16384x128_1_0_0_1_n_n.contr.Idx) :
    (dot_S16384x256_S256x128_S16384x128_1_0_0_1_n_n.lhsIdx i q 1).val = (q ⟨0, by decide⟩).val :=
  dot_S16384x256_S256x128_S16384x128_1_0_0_1_n_n.lhsIdx_val_of_single rfl i q
theorem rhs_main_v10_0 (i : S16384x128.Idx) (q : dot_S16384x256_S256x128_S16384x128_1_0_0_1_n_n.contr.Idx) :
    (dot_S16384x256_S256x128_S16384x128_1_0_0_1_n_n.rhsIdx i q 0).val = (q ⟨0, by decide⟩).val :=
  dot_S16384x256_S256x128_S16384x128_1_0_0_1_n_n.rhsIdx_val_of_single rfl i q
theorem rhs_main_v10_1 (i : S16384x128.Idx) (q : dot_S16384x256_S256x128_S16384x128_1_0_0_1_n_n.contr.Idx) :
    (dot_S16384x256_S256x128_S16384x128_1_0_0_1_n_n.rhsIdx i q 1).val = (i 1).val := by
  unfold DotDims.rhsIdx
  rw [dif_neg (show ¬(1 : Fin S256x128.rank) ∈ dot_S16384x256_S256x128_S16384x128_1_0_0_1_n_n.rhsBatch by decide), dif_pos (show (1 : Fin S256x128.rank) ∈ dot_S16384x256_S256x128_S16384x128_1_0_0_1_n_n.rhsNonContracting by decide)]
  rfl
abbrev lidx_main_v10 (i : S16384x128.Idx) (k : Fin 256) : S16384x256.Idx := fun a => match a with
  | ⟨0, _⟩ => ⟨(i 0).val, (i 0).isLt⟩
  | ⟨1, _⟩ => ⟨k.val, k.isLt⟩
abbrev ridx_main_v10 (i : S16384x128.Idx) (k : Fin 256) : S256x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v10_apply (x1 : (⟨S16384x128, .f32⟩ : BufTy).Contents (Elt Ideal)) (x2 : (⟨S262144x128, .f32⟩ : BufTy).Contents (Elt Ideal)) (x6 : (⟨S256x128, .f32⟩ : BufTy).Contents (Elt Ideal)) (i : S16384x128.Idx) :
    val_main_v10 (F := Ideal) x1 x2 x6 i = ∑ k : Fin 256, (val_main_v9 (F := Ideal) x1 x2) (lidx_main_v10 i k) * x6 (ridx_main_v10 i k) := by
  unfold val_main_v10
  generalize val_main_v9 (F := Ideal) x1 x2 = y0
  simp only [Host.dotGeneral]
  rw [Ideal.dotGeneral_apply, ← Equiv.sum_comp (ValueIdx.contrEquiv1 dot_S16384x256_S256x128_S16384x128_1_0_0_1_n_n 256 rfl rfl).symm]
  refine Finset.sum_congr rfl fun k _ => ?_
  have hk := ValueIdx.contrEquiv1_symm_val dot_S16384x256_S256x128_S16384x128_1_0_0_1_n_n 256 rfl rfl k
  have el : dot_S16384x256_S256x128_S16384x128_1_0_0_1_n_n.lhsIdx i ((ValueIdx.contrEquiv1 dot_S16384x256_S256x128_S16384x128_1_0_0_1_n_n 256 rfl rfl).symm k) = lidx_main_v10 i k := funext fun a => Fin.ext (by
    match a with
    | ⟨0, _⟩ => exact lhs_main_v10_0 _ _
    | ⟨1, _⟩ => exact (lhs_main_v10_1 _ _).trans hk)
  have er : dot_S16384x256_S256x128_S16384x128_1_0_0_1_n_n.rhsIdx i ((ValueIdx.contrEquiv1 dot_S16384x256_S256x128_S16384x128_1_0_0_1_n_n 256 rfl rfl).symm k) = ridx_main_v10 i k := funext fun a => Fin.ext (by
    match a with
    | ⟨0, _⟩ => exact (rhs_main_v10_0 _ _).trans hk
    | ⟨1, _⟩ => exact rhs_main_v10_1 _ _)
  rw [el, er]

-- %11 = stablehlo.dot_general %8, %arg6, contracting_dims = [1] x [0], precision = [DEFAULT, DEFAULT] : (tensor<16384x256xf32>, tensor<256x128xf32>) -> tensor<16384x128xf32>
def val_main_v11 (x4 : (⟨S16384x128, .f32⟩ : BufTy).Contents (Elt F)) (x5 : (⟨S262144x128, .f32⟩ : BufTy).Contents (Elt F)) (x6 : (⟨S256x128, .f32⟩ : BufTy).Contents (Elt F)) : (⟨S16384x128, .f32⟩ : BufTy).Contents (Elt F) :=
  Host.dotGeneral dot_S16384x256_S256x128_S16384x128_1_0_0_1_n_n none (val_main_v8 (F := F) x4 x5) (x6)
theorem lhs_main_v11_0 (i : S16384x128.Idx) (q : dot_S16384x256_S256x128_S16384x128_1_0_0_1_n_n.contr.Idx) :
    (dot_S16384x256_S256x128_S16384x128_1_0_0_1_n_n.lhsIdx i q 0).val = (i 0).val := by
  unfold DotDims.lhsIdx
  rw [dif_neg (show ¬(0 : Fin S16384x256.rank) ∈ dot_S16384x256_S256x128_S16384x128_1_0_0_1_n_n.lhsBatch by decide), dif_pos (show (0 : Fin S16384x256.rank) ∈ dot_S16384x256_S256x128_S16384x128_1_0_0_1_n_n.lhsNonContracting by decide)]
  rfl
theorem lhs_main_v11_1 (i : S16384x128.Idx) (q : dot_S16384x256_S256x128_S16384x128_1_0_0_1_n_n.contr.Idx) :
    (dot_S16384x256_S256x128_S16384x128_1_0_0_1_n_n.lhsIdx i q 1).val = (q ⟨0, by decide⟩).val :=
  dot_S16384x256_S256x128_S16384x128_1_0_0_1_n_n.lhsIdx_val_of_single rfl i q
theorem rhs_main_v11_0 (i : S16384x128.Idx) (q : dot_S16384x256_S256x128_S16384x128_1_0_0_1_n_n.contr.Idx) :
    (dot_S16384x256_S256x128_S16384x128_1_0_0_1_n_n.rhsIdx i q 0).val = (q ⟨0, by decide⟩).val :=
  dot_S16384x256_S256x128_S16384x128_1_0_0_1_n_n.rhsIdx_val_of_single rfl i q
theorem rhs_main_v11_1 (i : S16384x128.Idx) (q : dot_S16384x256_S256x128_S16384x128_1_0_0_1_n_n.contr.Idx) :
    (dot_S16384x256_S256x128_S16384x128_1_0_0_1_n_n.rhsIdx i q 1).val = (i 1).val := by
  unfold DotDims.rhsIdx
  rw [dif_neg (show ¬(1 : Fin S256x128.rank) ∈ dot_S16384x256_S256x128_S16384x128_1_0_0_1_n_n.rhsBatch by decide), dif_pos (show (1 : Fin S256x128.rank) ∈ dot_S16384x256_S256x128_S16384x128_1_0_0_1_n_n.rhsNonContracting by decide)]
  rfl
abbrev lidx_main_v11 (i : S16384x128.Idx) (k : Fin 256) : S16384x256.Idx := fun a => match a with
  | ⟨0, _⟩ => ⟨(i 0).val, (i 0).isLt⟩
  | ⟨1, _⟩ => ⟨k.val, k.isLt⟩
abbrev ridx_main_v11 (i : S16384x128.Idx) (k : Fin 256) : S256x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v11_apply (x4 : (⟨S16384x128, .f32⟩ : BufTy).Contents (Elt Ideal)) (x5 : (⟨S262144x128, .f32⟩ : BufTy).Contents (Elt Ideal)) (x6 : (⟨S256x128, .f32⟩ : BufTy).Contents (Elt Ideal)) (i : S16384x128.Idx) :
    val_main_v11 (F := Ideal) x4 x5 x6 i = ∑ k : Fin 256, (val_main_v8 (F := Ideal) x4 x5) (lidx_main_v11 i k) * x6 (ridx_main_v11 i k) := by
  unfold val_main_v11
  generalize val_main_v8 (F := Ideal) x4 x5 = y0
  simp only [Host.dotGeneral]
  rw [Ideal.dotGeneral_apply, ← Equiv.sum_comp (ValueIdx.contrEquiv1 dot_S16384x256_S256x128_S16384x128_1_0_0_1_n_n 256 rfl rfl).symm]
  refine Finset.sum_congr rfl fun k _ => ?_
  have hk := ValueIdx.contrEquiv1_symm_val dot_S16384x256_S256x128_S16384x128_1_0_0_1_n_n 256 rfl rfl k
  have el : dot_S16384x256_S256x128_S16384x128_1_0_0_1_n_n.lhsIdx i ((ValueIdx.contrEquiv1 dot_S16384x256_S256x128_S16384x128_1_0_0_1_n_n 256 rfl rfl).symm k) = lidx_main_v11 i k := funext fun a => Fin.ext (by
    match a with
    | ⟨0, _⟩ => exact lhs_main_v11_0 _ _
    | ⟨1, _⟩ => exact (lhs_main_v11_1 _ _).trans hk)
  have er : dot_S16384x256_S256x128_S16384x128_1_0_0_1_n_n.rhsIdx i ((ValueIdx.contrEquiv1 dot_S16384x256_S256x128_S16384x128_1_0_0_1_n_n 256 rfl rfl).symm k) = ridx_main_v11 i k := funext fun a => Fin.ext (by
    match a with
    | ⟨0, _⟩ => exact (rhs_main_v11_0 _ _).trans hk
    | ⟨1, _⟩ => exact rhs_main_v11_1 _ _)
  rw [el, er]

-- %12 = stablehlo.reshape %11 : (tensor<16384x128xf32>) -> tensor<1024x16x128xf32>
def val_main_v12 (x4 : (⟨S16384x128, .f32⟩ : BufTy).Contents (Elt F)) (x5 : (⟨S262144x128, .f32⟩ : BufTy).Contents (Elt F)) (x6 : (⟨S256x128, .f32⟩ : BufTy).Contents (Elt F)) : (⟨S1024x16x128, .f32⟩ : BufTy).Contents (Elt F) :=
  shapeCast _ (val_main_v11 (F := F) x4 x5 x6) shapeCasts_S16384x128_S1024x16x128
abbrev idx_main_v12 (i : S1024x16x128.Idx) : S16384x128.Idx := fun a => match a with
  | ⟨0, _⟩ => ⟨(((i 0).val * 16 + (i 1).val) * 128 + (i 2).val) / 128, by have h0 : (i 0).val < 1024 := (i 0).isLt; have h1 : (i 1).val < 16 := (i 1).isLt; have h2 : (i 2).val < 128 := (i 2).isLt; show (((i 0).val * 16 + (i 1).val) * 128 + (i 2).val) / 128 < 16384; omega⟩
  | ⟨1, _⟩ => ⟨(((i 0).val * 16 + (i 1).val) * 128 + (i 2).val) % 128, by have h0 : (i 0).val < 1024 := (i 0).isLt; have h1 : (i 1).val < 16 := (i 1).isLt; have h2 : (i 2).val < 128 := (i 2).isLt; show (((i 0).val * 16 + (i 1).val) * 128 + (i 2).val) % 128 < 128; omega⟩
theorem val_main_v12_apply (x4 : (⟨S16384x128, .f32⟩ : BufTy).Contents (Elt F)) (x5 : (⟨S262144x128, .f32⟩ : BufTy).Contents (Elt F)) (x6 : (⟨S256x128, .f32⟩ : BufTy).Contents (Elt F)) (i : S1024x16x128.Idx) :
    val_main_v12 (F := F) x4 x5 x6 i = val_main_v11 (F := F) x4 x5 x6 (idx_main_v12 i) := by
  unfold val_main_v12
  generalize val_main_v11 (F := F) x4 x5 x6 = y
  exact shapeCast_apply y shapeCasts_S16384x128_S1024x16x128 i (idx_main_v12 i)
    (by rewrite [Shape.rowMajor_val_two, Shape.rowMajor_val_three]; have h0 : (i 0).val < 1024 := (i 0).isLt; have h1 : (i 1).val < 16 := (i 1).isLt; have h2 : (i 2).val < 128 := (i 2).isLt; show (((i 0).val * 16 + (i 1).val) * 128 + (i 2).val) / 128 * 128 + (((i 0).val * 16 + (i 1).val) * 128 + (i 2).val) % 128 = ((i 0).val * 16 + (i 1).val) * 128 + (i 2).val; omega)

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %13 = stablehlo.reduce(%12 init: %cst_3) applies stablehlo.add across dimensions = [1] : (tensor<1024x16x128xf32>, tensor<f32>) -> tensor<1024x128xf32> {
def val_main_v13 (x4 : (⟨S16384x128, .f32⟩ : BufTy).Contents (Elt F)) (x5 : (⟨S262144x128, .f32⟩ : BufTy).Contents (Elt F)) (x6 : (⟨S256x128, .f32⟩ : BufTy).Contents (Elt F)) : (⟨S1024x128, .f32⟩ : BufTy).Contents (Elt F) :=
  Host.reduceAdd (val_main_v12 (F := F) x4 x5 x6) (val_main_cst_3 (F := F)) reducesTo_S1024x16x128_S1024x128_d1 h_S_
abbrev idx_main_v13 (i : S1024x128.Idx) (k : Fin 16) : S1024x16x128.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v13_apply (x4 : (⟨S16384x128, .f32⟩ : BufTy).Contents (Elt Ideal)) (x5 : (⟨S262144x128, .f32⟩ : BufTy).Contents (Elt Ideal)) (x6 : (⟨S256x128, .f32⟩ : BufTy).Contents (Elt Ideal)) (i : S1024x128.Idx) :
    val_main_v13 (F := Ideal) x4 x5 x6 i = (val_main_cst_3 (F := Ideal)) (Shape.Idx.first h_S_) + ∑ k : Fin 16, (val_main_v12 (F := Ideal) x4 x5 x6) (idx_main_v13 i k) := by
  unfold val_main_v13
  generalize val_main_v12 (F := Ideal) x4 x5 x6 = y0
  simp only [Host.reduceAdd, Ideal.hostReduceAdd_def]
  rw [Ideal.hostReduceAdd_single reducesTo_S1024x16x128_S1024x128_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %cst_4 = stablehlo.constant dense<1.600000e+01> : tensor<f32>
def val_main_cst_4 : (⟨S_, .f32⟩ : BufTy).Contents (Elt F) :=
  constant S_ .f32 0x41800000#32
theorem val_main_cst_4_apply (i : S_.Idx) :
    val_main_cst_4 (F := F) i = FloatOps.ofBits .f32 0x41800000#32 := rfl

-- %14 = stablehlo.broadcast_in_dim %cst_4, dims = [] : (tensor<f32>) -> tensor<1024x128xf32>
def val_main_v14 : (⟨S1024x128, .f32⟩ : BufTy).Contents (Elt F) :=
  broadcastInDim S1024x128 ![] bcast_S_S1024x128 (val_main_cst_4 (F := F))
abbrev idx_main_v14 (i : S1024x128.Idx) : S_.Idx := fun a => a.elim0
theorem val_main_v14_apply (i : S1024x128.Idx) :
    val_main_v14 (F := F) i = val_main_cst_4 (F := F) (idx_main_v14 i) := by
  unfold val_main_v14
  generalize val_main_cst_4 (F := F) = y
  exact broadcastInDim_apply _ bcast_S_S1024x128 y i (idx_main_v14 i) (fun a => a.elim0)

-- %15 = stablehlo.divide %13, %14 : tensor<1024x128xf32>
def val_main_v15 (x4 : (⟨S16384x128, .f32⟩ : BufTy).Contents (Elt F)) (x5 : (⟨S262144x128, .f32⟩ : BufTy).Contents (Elt F)) (x6 : (⟨S256x128, .f32⟩ : BufTy).Contents (Elt F)) : (⟨S1024x128, .f32⟩ : BufTy).Contents (Elt F) :=
  Host.divf (val_main_v13 (F := F) x4 x5 x6) (val_main_v14 (F := F))
theorem val_main_v15_apply (x4 : (⟨S16384x128, .f32⟩ : BufTy).Contents (Elt F)) (x5 : (⟨S262144x128, .f32⟩ : BufTy).Contents (Elt F)) (x6 : (⟨S256x128, .f32⟩ : BufTy).Contents (Elt F)) (i : S1024x128.Idx) :
    val_main_v15 (F := F) x4 x5 x6 i = FloatOps.hostDivf (val_main_v13 (F := F) x4 x5 x6 i) (val_main_v14 (F := F) i) := rfl

-- %16 = stablehlo.reshape %10 : (tensor<16384x128xf32>) -> tensor<1024x16x128xf32>
def val_main_v16 (x1 : (⟨S16384x128, .f32⟩ : BufTy).Contents (Elt F)) (x2 : (⟨S262144x128, .f32⟩ : BufTy).Contents (Elt F)) (x6 : (⟨S256x128, .f32⟩ : BufTy).Contents (Elt F)) : (⟨S1024x16x128, .f32⟩ : BufTy).Contents (Elt F) :=
  shapeCast _ (val_main_v10 (F := F) x1 x2 x6) shapeCasts_S16384x128_S1024x16x128
abbrev idx_main_v16 (i : S1024x16x128.Idx) : S16384x128.Idx := fun a => match a with
  | ⟨0, _⟩ => ⟨(((i 0).val * 16 + (i 1).val) * 128 + (i 2).val) / 128, by have h0 : (i 0).val < 1024 := (i 0).isLt; have h1 : (i 1).val < 16 := (i 1).isLt; have h2 : (i 2).val < 128 := (i 2).isLt; show (((i 0).val * 16 + (i 1).val) * 128 + (i 2).val) / 128 < 16384; omega⟩
  | ⟨1, _⟩ => ⟨(((i 0).val * 16 + (i 1).val) * 128 + (i 2).val) % 128, by have h0 : (i 0).val < 1024 := (i 0).isLt; have h1 : (i 1).val < 16 := (i 1).isLt; have h2 : (i 2).val < 128 := (i 2).isLt; show (((i 0).val * 16 + (i 1).val) * 128 + (i 2).val) % 128 < 128; omega⟩
theorem val_main_v16_apply (x1 : (⟨S16384x128, .f32⟩ : BufTy).Contents (Elt F)) (x2 : (⟨S262144x128, .f32⟩ : BufTy).Contents (Elt F)) (x6 : (⟨S256x128, .f32⟩ : BufTy).Contents (Elt F)) (i : S1024x16x128.Idx) :
    val_main_v16 (F := F) x1 x2 x6 i = val_main_v10 (F := F) x1 x2 x6 (idx_main_v16 i) := by
  unfold val_main_v16
  generalize val_main_v10 (F := F) x1 x2 x6 = y
  exact shapeCast_apply y shapeCasts_S16384x128_S1024x16x128 i (idx_main_v16 i)
    (by rewrite [Shape.rowMajor_val_two, Shape.rowMajor_val_three]; have h0 : (i 0).val < 1024 := (i 0).isLt; have h1 : (i 1).val < 16 := (i 1).isLt; have h2 : (i 2).val < 128 := (i 2).isLt; show (((i 0).val * 16 + (i 1).val) * 128 + (i 2).val) / 128 * 128 + (((i 0).val * 16 + (i 1).val) * 128 + (i 2).val) % 128 = ((i 0).val * 16 + (i 1).val) * 128 + (i 2).val; omega)

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %17 = stablehlo.reduce(%16 init: %cst_5) applies stablehlo.add across dimensions = [1] : (tensor<1024x16x128xf32>, tensor<f32>) -> tensor<1024x128xf32> {
def val_main_v17 (x1 : (⟨S16384x128, .f32⟩ : BufTy).Contents (Elt F)) (x2 : (⟨S262144x128, .f32⟩ : BufTy).Contents (Elt F)) (x6 : (⟨S256x128, .f32⟩ : BufTy).Contents (Elt F)) : (⟨S1024x128, .f32⟩ : BufTy).Contents (Elt F) :=
  Host.reduceAdd (val_main_v16 (F := F) x1 x2 x6) (val_main_cst_5 (F := F)) reducesTo_S1024x16x128_S1024x128_d1 h_S_
abbrev idx_main_v17 (i : S1024x128.Idx) (k : Fin 16) : S1024x16x128.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v17_apply (x1 : (⟨S16384x128, .f32⟩ : BufTy).Contents (Elt Ideal)) (x2 : (⟨S262144x128, .f32⟩ : BufTy).Contents (Elt Ideal)) (x6 : (⟨S256x128, .f32⟩ : BufTy).Contents (Elt Ideal)) (i : S1024x128.Idx) :
    val_main_v17 (F := Ideal) x1 x2 x6 i = (val_main_cst_5 (F := Ideal)) (Shape.Idx.first h_S_) + ∑ k : Fin 16, (val_main_v16 (F := Ideal) x1 x2 x6) (idx_main_v17 i k) := by
  unfold val_main_v17
  generalize val_main_v16 (F := Ideal) x1 x2 x6 = y0
  simp only [Host.reduceAdd, Ideal.hostReduceAdd_def]
  rw [Ideal.hostReduceAdd_single reducesTo_S1024x16x128_S1024x128_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %cst_6 = stablehlo.constant dense<1.600000e+01> : tensor<f32>
def val_main_cst_6 : (⟨S_, .f32⟩ : BufTy).Contents (Elt F) :=
  constant S_ .f32 0x41800000#32
theorem val_main_cst_6_apply (i : S_.Idx) :
    val_main_cst_6 (F := F) i = FloatOps.ofBits .f32 0x41800000#32 := rfl

-- %18 = stablehlo.broadcast_in_dim %cst_6, dims = [] : (tensor<f32>) -> tensor<1024x128xf32>
def val_main_v18 : (⟨S1024x128, .f32⟩ : BufTy).Contents (Elt F) :=
  broadcastInDim S1024x128 ![] bcast_S_S1024x128 (val_main_cst_6 (F := F))
abbrev idx_main_v18 (i : S1024x128.Idx) : S_.Idx := fun a => a.elim0
theorem val_main_v18_apply (i : S1024x128.Idx) :
    val_main_v18 (F := F) i = val_main_cst_6 (F := F) (idx_main_v18 i) := by
  unfold val_main_v18
  generalize val_main_cst_6 (F := F) = y
  exact broadcastInDim_apply _ bcast_S_S1024x128 y i (idx_main_v18 i) (fun a => a.elim0)

-- %19 = stablehlo.divide %17, %18 : tensor<1024x128xf32>
def val_main_v19 (x1 : (⟨S16384x128, .f32⟩ : BufTy).Contents (Elt F)) (x2 : (⟨S262144x128, .f32⟩ : BufTy).Contents (Elt F)) (x6 : (⟨S256x128, .f32⟩ : BufTy).Contents (Elt F)) : (⟨S1024x128, .f32⟩ : BufTy).Contents (Elt F) :=
  Host.divf (val_main_v17 (F := F) x1 x2 x6) (val_main_v18 (F := F))
theorem val_main_v19_apply (x1 : (⟨S16384x128, .f32⟩ : BufTy).Contents (Elt F)) (x2 : (⟨S262144x128, .f32⟩ : BufTy).Contents (Elt F)) (x6 : (⟨S256x128, .f32⟩ : BufTy).Contents (Elt F)) (i : S1024x128.Idx) :
    val_main_v19 (F := F) x1 x2 x6 i = FloatOps.hostDivf (val_main_v17 (F := F) x1 x2 x6 i) (val_main_v18 (F := F) i) := rfl

-- %20 = stablehlo.concatenate %arg3, %15, dim = 1 : (tensor<1024x128xf32>, tensor<1024x128xf32>) -> tensor<1024x256xf32>
def val_main_v20 (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) : (⟨S1024x256, .f32⟩ : BufTy).Contents (Elt F) :=
  concatenate S1024x256 1 [⟨S1024x128, (x3)⟩, ⟨S1024x128, (val_main_v15 (F := F) x4 x5 x6)⟩] concatenates_S1024x128_S1024x128_S1024x256_d1

-- %21 = stablehlo.concatenate %arg0, %19, dim = 1 : (tensor<1024x128xf32>, tensor<1024x128xf32>) -> tensor<1024x256xf32>
def val_main_v21 (x0 : (⟨S1024x128, .f32⟩ : BufTy).Contents (Elt F)) (x1 : (⟨S16384x128, .f32⟩ : BufTy).Contents (Elt F)) (x2 : (⟨S262144x128, .f32⟩ : BufTy).Contents (Elt F)) (x6 : (⟨S256x128, .f32⟩ : BufTy).Contents (Elt F)) : (⟨S1024x256, .f32⟩ : BufTy).Contents (Elt F) :=
  concatenate S1024x256 1 [⟨S1024x128, (x0)⟩, ⟨S1024x128, (val_main_v19 (F := F) x1 x2 x6)⟩] concatenates_S1024x128_S1024x128_S1024x256_d1

-- %22 = stablehlo.dot_general %21, %arg6, contracting_dims = [1] x [0], precision = [DEFAULT, DEFAULT] : (tensor<1024x256xf32>, tensor<256x128xf32>) -> tensor<1024x128xf32>
def val_main_v22 (x0 : (⟨S1024x128, .f32⟩ : BufTy).Contents (Elt F)) (x1 : (⟨S16384x128, .f32⟩ : BufTy).Contents (Elt F)) (x2 : (⟨S262144x128, .f32⟩ : BufTy).Contents (Elt F)) (x6 : (⟨S256x128, .f32⟩ : BufTy).Contents (Elt F)) : (⟨S1024x128, .f32⟩ : BufTy).Contents (Elt F) :=
  Host.dotGeneral dot_S1024x256_S256x128_S1024x128_1_0_0_1_n_n none (val_main_v21 (F := F) x0 x1 x2 x6) (x6)
theorem lhs_main_v22_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_main_v22_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_main_v22_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_main_v22_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
abbrev lidx_main_v22 (i : S1024x128.Idx) (k : Fin 256) : S1024x256.Idx := fun a => match a with
  | ⟨0, _⟩ => ⟨(i 0).val, (i 0).isLt⟩
  | ⟨1, _⟩ => ⟨k.val, k.isLt⟩
abbrev ridx_main_v22 (i : S1024x128.Idx) (k : Fin 256) : S256x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v22_apply (x0 : (⟨S1024x128, .f32⟩ : BufTy).Contents (Elt Ideal)) (x1 : (⟨S16384x128, .f32⟩ : BufTy).Contents (Elt Ideal)) (x2 : (⟨S262144x128, .f32⟩ : BufTy).Contents (Elt Ideal)) (x6 : (⟨S256x128, .f32⟩ : BufTy).Contents (Elt Ideal)) (i : S1024x128.Idx) :
    val_main_v22 (F := Ideal) x0 x1 x2 x6 i = ∑ k : Fin 256, (val_main_v21 (F := Ideal) x0 x1 x2 x6) (lidx_main_v22 i k) * x6 (ridx_main_v22 i k) := by
  unfold val_main_v22
  generalize val_main_v21 (F := Ideal) x0 x1 x2 x6 = y0
  simp only [Host.dotGeneral]
  rw [Ideal.dotGeneral_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx i ((ValueIdx.contrEquiv1 dot_S1024x256_S256x128_S1024x128_1_0_0_1_n_n 256 rfl rfl).symm k) = lidx_main_v22 i k := funext fun a => Fin.ext (by
    match a with
    | ⟨0, _⟩ => exact lhs_main_v22_0 _ _
    | ⟨1, _⟩ => exact (lhs_main_v22_1 _ _).trans hk)
  have er : dot_S1024x256_S256x128_S1024x128_1_0_0_1_n_n.rhsIdx i ((ValueIdx.contrEquiv1 dot_S1024x256_S256x128_S1024x128_1_0_0_1_n_n 256 rfl rfl).symm k) = ridx_main_v22 i k := funext fun a => Fin.ext (by
    match a with
    | ⟨0, _⟩ => exact (rhs_main_v22_0 _ _).trans hk
    | ⟨1, _⟩ => exact rhs_main_v22_1 _ _)
  rw [el, er]

-- %23 = stablehlo.dot_general %20, %arg6, contracting_dims = [1] x [0], precision = [DEFAULT, DEFAULT] : (tensor<1024x256xf32>, tensor<256x128xf32>) -> tensor<1024x128xf32>
def val_main_v23 (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) : (⟨S1024x128, .f32⟩ : BufTy).Contents (Elt F) :=
  Host.dotGeneral dot_S1024x256_S256x128_S1024x128_1_0_0_1_n_n none (val_main_v20 (F := F) x3 x4 x5 x6) (x6)
theorem lhs_main_v23_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_main_v23_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_main_v23_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_main_v23_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
abbrev lidx_main_v23 (i : S1024x128.Idx) (k : Fin 256) : S1024x256.Idx := fun a => match a with
  | ⟨0, _⟩ => ⟨(i 0).val, (i 0).isLt⟩
  | ⟨1, _⟩ => ⟨k.val, k.isLt⟩
abbrev ridx_main_v23 (i : S1024x128.Idx) (k : Fin 256) : S256x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v23_apply (x3 : (⟨S1024x128, .f32⟩ : BufTy).Contents (Elt Ideal)) (x4 : (⟨S16384x128, .f32⟩ : BufTy).Contents (Elt Ideal)) (x5 : (⟨S262144x128, .f32⟩ : BufTy).Contents (Elt Ideal)) (x6 : (⟨S256x128, .f32⟩ : BufTy).Contents (Elt Ideal)) (i : S1024x128.Idx) :
    val_main_v23 (F := Ideal) x3 x4 x5 x6 i = ∑ k : Fin 256, (val_main_v20 (F := Ideal) x3 x4 x5 x6) (lidx_main_v23 i k) * x6 (ridx_main_v23 i k) := by
  unfold val_main_v23
  generalize val_main_v20 (F := Ideal) x3 x4 x5 x6 = y0
  simp only [Host.dotGeneral]
  rw [Ideal.dotGeneral_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx i ((ValueIdx.contrEquiv1 dot_S1024x256_S256x128_S1024x128_1_0_0_1_n_n 256 rfl rfl).symm k) = lidx_main_v23 i k := funext fun a => Fin.ext (by
    match a with
    | ⟨0, _⟩ => exact lhs_main_v23_0 _ _
    | ⟨1, _⟩ => exact (lhs_main_v23_1 _ _).trans hk)
  have er : dot_S1024x256_S256x128_S1024x128_1_0_0_1_n_n.rhsIdx i ((ValueIdx.contrEquiv1 dot_S1024x256_S256x128_S1024x128_1_0_0_1_n_n 256 rfl rfl).symm k) = ridx_main_v23 i k := funext fun a => Fin.ext (by
    match a with
    | ⟨0, _⟩ => exact (rhs_main_v23_0 _ _).trans hk
    | ⟨1, _⟩ => exact rhs_main_v23_1 _ _)
  rw [el, er]

-- %24 = stablehlo.concatenate %22, %23, dim = 1 : (tensor<1024x128xf32>, tensor<1024x128xf32>) -> tensor<1024x256xf32>
def val_main_v24 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) : (⟨S1024x256, .f32⟩ : BufTy).Contents (Elt F) :=
  concatenate S1024x256 1 [⟨S1024x128, (val_main_v22 (F := F) x0 x1 x2 x6)⟩, ⟨S1024x128, (val_main_v23 (F := F) x3 x4 x5 x6)⟩] concatenates_S1024x128_S1024x128_S1024x256_d1

-- %25 = stablehlo.dot_general %24, %arg7, contracting_dims = [1] x [0], precision = [DEFAULT, DEFAULT] : (tensor<1024x256xf32>, tensor<256x128xf32>) -> tensor<1024x128xf32>
def val_main_v25 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) : (⟨S1024x128, .f32⟩ : BufTy).Contents (Elt F) :=
  Host.dotGeneral dot_S1024x256_S256x128_S1024x128_1_0_0_1_n_n none (val_main_v24 (F := F) x0 x1 x2 x3 x4 x5 x6) (x7)
theorem lhs_main_v25_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_main_v25_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_main_v25_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_main_v25_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
abbrev lidx_main_v25 (i : S1024x128.Idx) (k : Fin 256) : S1024x256.Idx := fun a => match a with
  | ⟨0, _⟩ => ⟨(i 0).val, (i 0).isLt⟩
  | ⟨1, _⟩ => ⟨k.val, k.isLt⟩
abbrev ridx_main_v25 (i : S1024x128.Idx) (k : Fin 256) : S256x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v25_apply (x0 : (⟨S1024x128, .f32⟩ : BufTy).Contents (Elt Ideal)) (x1 : (⟨S16384x128, .f32⟩ : BufTy).Contents (Elt Ideal)) (x2 : (⟨S262144x128, .f32⟩ : BufTy).Contents (Elt Ideal)) (x3 : (⟨S1024x128, .f32⟩ : BufTy).Contents (Elt Ideal)) (x4 : (⟨S16384x128, .f32⟩ : BufTy).Contents (Elt Ideal)) (x5 : (⟨S262144x128, .f32⟩ : BufTy).Contents (Elt Ideal)) (x6 x7 : (⟨S256x128, .f32⟩ : BufTy).Contents (Elt Ideal)) (i : S1024x128.Idx) :
    val_main_v25 (F := Ideal) x0 x1 x2 x3 x4 x5 x6 x7 i = ∑ k : Fin 256, (val_main_v24 (F := Ideal) x0 x1 x2 x3 x4 x5 x6) (lidx_main_v25 i k) * x7 (ridx_main_v25 i k) := by
  unfold val_main_v25
  generalize val_main_v24 (F := Ideal) x0 x1 x2 x3 x4 x5 x6 = y0
  simp only [Host.dotGeneral]
  rw [Ideal.dotGeneral_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx i ((ValueIdx.contrEquiv1 dot_S1024x256_S256x128_S1024x128_1_0_0_1_n_n 256 rfl rfl).symm k) = lidx_main_v25 i k := funext fun a => Fin.ext (by
    match a with
    | ⟨0, _⟩ => exact lhs_main_v25_0 _ _
    | ⟨1, _⟩ => exact (lhs_main_v25_1 _ _).trans hk)
  have er : dot_S1024x256_S256x128_S1024x128_1_0_0_1_n_n.rhsIdx i ((ValueIdx.contrEquiv1 dot_S1024x256_S256x128_S1024x128_1_0_0_1_n_n 256 rfl rfl).symm k) = ridx_main_v25 i k := funext fun a => Fin.ext (by
    match a with
    | ⟨0, _⟩ => exact (rhs_main_v25_0 _ _).trans hk
    | ⟨1, _⟩ => exact rhs_main_v25_1 _ _)
  rw [el, er]

-- @relu's %cst = stablehlo.constant dense<0.000000e+00> : tensor<f32>, in %26 = func.call @relu(…) (record main_call0)
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

-- @relu's %0 = stablehlo.broadcast_in_dim %cst, dims = [] : (tensor<f32>) -> tensor<1024x128xf32>, in %26 = func.call @relu(…) (record main_call0)
def val_main_call0_v0 : (⟨S1024x128, .f32⟩ : BufTy).Contents (Elt F) :=
  broadcastInDim S1024x128 ![] bcast_S_S1024x128 (val_main_call0_cst (F := F))
abbrev idx_main_call0_v0 (i : S1024x128.Idx) : S_.Idx := fun a => a.elim0
theorem val_main_call0_v0_apply (i : S1024x128.Idx) :
    val_main_call0_v0 (F := F) i = val_main_call0_cst (F := F) (idx_main_call0_v0 i) := by
  unfold val_main_call0_v0
  generalize val_main_call0_cst (F := F) = y
  exact broadcastInDim_apply _ bcast_S_S1024x128 y i (idx_main_call0_v0 i) (fun a => a.elim0)

-- %26 = func.call @relu(…) (record main_call0) result 0: @relu's %1 = stablehlo.maximum %arg0, %0 : tensor<1024x128xf32>
def val_main_v26 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) : (⟨S1024x128, .f32⟩ : BufTy).Contents (Elt F) :=
  maximumf (val_main_v25 (F := F) x0 x1 x2 x3 x4 x5 x6 x7) (val_main_call0_v0 (F := F))
theorem val_main_v26_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (i : S1024x128.Idx) :
    val_main_v26 (F := F) x0 x1 x2 x3 x4 x5 x6 x7 i = FloatOps.maximumf (val_main_v25 (F := F) x0 x1 x2 x3 x4 x5 x6 x7 i) (val_main_call0_v0 (F := F) i) := rfl

-- %27 = stablehlo.dot_general %26, %arg8, contracting_dims = [1] x [0], precision = [DEFAULT, DEFAULT] : (tensor<1024x128xf32>, tensor<128x64xf32>) -> tensor<1024x64xf32>
def val_main_v27 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) : (⟨S1024x64, .f32⟩ : BufTy).Contents (Elt F) :=
  Host.dotGeneral dot_S1024x128_S128x64_S1024x64_1_0_0_1_n_n none (val_main_v26 (F := F) x0 x1 x2 x3 x4 x5 x6 x7) (x8)
theorem lhs_main_v27_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_main_v27_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_main_v27_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_main_v27_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl
abbrev lidx_main_v27 (i : S1024x64.Idx) (k : Fin 128) : S1024x128.Idx := fun a => match a with
  | ⟨0, _⟩ => ⟨(i 0).val, (i 0).isLt⟩
  | ⟨1, _⟩ => ⟨k.val, k.isLt⟩
abbrev ridx_main_v27 (i : S1024x64.Idx) (k : Fin 128) : S128x64.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v27_apply (x0 : (⟨S1024x128, .f32⟩ : BufTy).Contents (Elt Ideal)) (x1 : (⟨S16384x128, .f32⟩ : BufTy).Contents (Elt Ideal)) (x2 : (⟨S262144x128, .f32⟩ : BufTy).Contents (Elt Ideal)) (x3 : (⟨S1024x128, .f32⟩ : BufTy).Contents (Elt Ideal)) (x4 : (⟨S16384x128, .f32⟩ : BufTy).Contents (Elt Ideal)) (x5 : (⟨S262144x128, .f32⟩ : BufTy).Contents (Elt Ideal)) (x6 x7 : (⟨S256x128, .f32⟩ : BufTy).Contents (Elt Ideal)) (x8 : (⟨S128x64, .f32⟩ : BufTy).Contents (Elt Ideal)) (i : S1024x64.Idx) :
    val_main_v27 (F := Ideal) x0 x1 x2 x3 x4 x5 x6 x7 x8 i = ∑ k : Fin 128, (val_main_v26 (F := Ideal) x0 x1 x2 x3 x4 x5 x6 x7) (lidx_main_v27 i k) * x8 (ridx_main_v27 i k) := by
  unfold val_main_v27
  generalize val_main_v26 (F := Ideal) x0 x1 x2 x3 x4 x5 x6 x7 = y0
  simp only [Host.dotGeneral]
  rw [Ideal.dotGeneral_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx i ((ValueIdx.contrEquiv1 dot_S1024x128_S128x64_S1024x64_1_0_0_1_n_n 128 rfl rfl).symm k) = lidx_main_v27 i k := funext fun a => Fin.ext (by
    match a with
    | ⟨0, _⟩ => exact lhs_main_v27_0 _ _
    | ⟨1, _⟩ => exact (lhs_main_v27_1 _ _).trans hk)
  have er : dot_S1024x128_S128x64_S1024x64_1_0_0_1_n_n.rhsIdx i ((ValueIdx.contrEquiv1 dot_S1024x128_S128x64_S1024x64_1_0_0_1_n_n 128 rfl rfl).symm k) = ridx_main_v27 i k := funext fun a => Fin.ext (by
    match a with
    | ⟨0, _⟩ => exact (rhs_main_v27_0 _ _).trans hk
    | ⟨1, _⟩ => exact rhs_main_v27_1 _ _)
  rw [el, er]

-- @relu_0's %cst = stablehlo.constant dense<0.000000e+00> : tensor<f32>, in %28 = func.call @relu_0(…) (record main_call1)
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

-- @relu_0's %0 = stablehlo.broadcast_in_dim %cst, dims = [] : (tensor<f32>) -> tensor<1024x64xf32>, in %28 = func.call @relu_0(…) (record main_call1)
def val_main_call1_v0 : (⟨S1024x64, .f32⟩ : BufTy).Contents (Elt F) :=
  broadcastInDim S1024x64 ![] bcast_S_S1024x64 (val_main_call1_cst (F := F))
abbrev idx_main_call1_v0 (i : S1024x64.Idx) : S_.Idx := fun a => a.elim0
theorem val_main_call1_v0_apply (i : S1024x64.Idx) :
    val_main_call1_v0 (F := F) i = val_main_call1_cst (F := F) (idx_main_call1_v0 i) := by
  unfold val_main_call1_v0
  generalize val_main_call1_cst (F := F) = y
  exact broadcastInDim_apply _ bcast_S_S1024x64 y i (idx_main_call1_v0 i) (fun a => a.elim0)

-- %28 = func.call @relu_0(…) (record main_call1) result 0: @relu_0's %1 = stablehlo.maximum %arg0, %0 : tensor<1024x64xf32>
def val_main_v28 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) : (⟨S1024x64, .f32⟩ : BufTy).Contents (Elt F) :=
  maximumf (val_main_v27 (F := F) x0 x1 x2 x3 x4 x5 x6 x7 x8) (val_main_call1_v0 (F := F))
theorem val_main_v28_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (i : S1024x64.Idx) :
    val_main_v28 (F := F) x0 x1 x2 x3 x4 x5 x6 x7 x8 i = FloatOps.maximumf (val_main_v27 (F := F) x0 x1 x2 x3 x4 x5 x6 x7 x8 i) (val_main_call1_v0 (F := F) i) := rfl

-- %29 = stablehlo.dot_general %28, %arg9, contracting_dims = [1] x [0], precision = [DEFAULT, DEFAULT] : (tensor<1024x64xf32>, tensor<64x8xf32>) -> tensor<1024x8xf32>
def val_main_v29 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) : (⟨S1024x8, .f32⟩ : BufTy).Contents (Elt F) :=
  Host.dotGeneral dot_S1024x64_S64x8_S1024x8_1_0_0_1_n_n none (val_main_v28 (F := F) x0 x1 x2 x3 x4 x5 x6 x7 x8) (x9)
theorem lhs_main_v29_0 (i : S1024x8.Idx) (q : dot_S1024x64_S64x8_S1024x8_1_0_0_1_n_n.contr.Idx) :
    (dot_S1024x64_S64x8_S1024x8_1_0_0_1_n_n.lhsIdx i q 0).val = (i 0).val := by
  unfold DotDims.lhsIdx
  rw [dif_neg (show ¬(0 : Fin S1024x64.rank) ∈ dot_S1024x64_S64x8_S1024x8_1_0_0_1_n_n.lhsBatch by decide), dif_pos (show (0 : Fin S1024x64.rank) ∈ dot_S1024x64_S64x8_S1024x8_1_0_0_1_n_n.lhsNonContracting by decide)]
  rfl
theorem lhs_main_v29_1 (i : S1024x8.Idx) (q : dot_S1024x64_S64x8_S1024x8_1_0_0_1_n_n.contr.Idx) :
    (dot_S1024x64_S64x8_S1024x8_1_0_0_1_n_n.lhsIdx i q 1).val = (q ⟨0, by decide⟩).val :=
  dot_S1024x64_S64x8_S1024x8_1_0_0_1_n_n.lhsIdx_val_of_single rfl i q
theorem rhs_main_v29_0 (i : S1024x8.Idx) (q : dot_S1024x64_S64x8_S1024x8_1_0_0_1_n_n.contr.Idx) :
    (dot_S1024x64_S64x8_S1024x8_1_0_0_1_n_n.rhsIdx i q 0).val = (q ⟨0, by decide⟩).val :=
  dot_S1024x64_S64x8_S1024x8_1_0_0_1_n_n.rhsIdx_val_of_single rfl i q
theorem rhs_main_v29_1 (i : S1024x8.Idx) (q : dot_S1024x64_S64x8_S1024x8_1_0_0_1_n_n.contr.Idx) :
    (dot_S1024x64_S64x8_S1024x8_1_0_0_1_n_n.rhsIdx i q 1).val = (i 1).val := by
  unfold DotDims.rhsIdx
  rw [dif_neg (show ¬(1 : Fin S64x8.rank) ∈ dot_S1024x64_S64x8_S1024x8_1_0_0_1_n_n.rhsBatch by decide), dif_pos (show (1 : Fin S64x8.rank) ∈ dot_S1024x64_S64x8_S1024x8_1_0_0_1_n_n.rhsNonContracting by decide)]
  rfl
abbrev lidx_main_v29 (i : S1024x8.Idx) (k : Fin 64) : S1024x64.Idx := fun a => match a with
  | ⟨0, _⟩ => ⟨(i 0).val, (i 0).isLt⟩
  | ⟨1, _⟩ => ⟨k.val, k.isLt⟩
abbrev ridx_main_v29 (i : S1024x8.Idx) (k : Fin 64) : S64x8.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v29_apply (x0 : (⟨S1024x128, .f32⟩ : BufTy).Contents (Elt Ideal)) (x1 : (⟨S16384x128, .f32⟩ : BufTy).Contents (Elt Ideal)) (x2 : (⟨S262144x128, .f32⟩ : BufTy).Contents (Elt Ideal)) (x3 : (⟨S1024x128, .f32⟩ : BufTy).Contents (Elt Ideal)) (x4 : (⟨S16384x128, .f32⟩ : BufTy).Contents (Elt Ideal)) (x5 : (⟨S262144x128, .f32⟩ : BufTy).Contents (Elt Ideal)) (x6 x7 : (⟨S256x128, .f32⟩ : BufTy).Contents (Elt Ideal)) (x8 : (⟨S128x64, .f32⟩ : BufTy).Contents (Elt Ideal)) (x9 : (⟨S64x8, .f32⟩ : BufTy).Contents (Elt Ideal)) (i : S1024x8.Idx) :
    val_main_v29 (F := Ideal) x0 x1 x2 x3 x4 x5 x6 x7 x8 x9 i = ∑ k : Fin 64, (val_main_v28 (F := Ideal) x0 x1 x2 x3 x4 x5 x6 x7 x8) (lidx_main_v29 i k) * x9 (ridx_main_v29 i k) := by
  unfold val_main_v29
  generalize val_main_v28 (F := Ideal) x0 x1 x2 x3 x4 x5 x6 x7 x8 = y0
  simp only [Host.dotGeneral]
  rw [Ideal.dotGeneral_apply, ← Equiv.sum_comp (ValueIdx.contrEquiv1 dot_S1024x64_S64x8_S1024x8_1_0_0_1_n_n 64 rfl rfl).symm]
  refine Finset.sum_congr rfl fun k _ => ?_
  have hk := ValueIdx.contrEquiv1_symm_val dot_S1024x64_S64x8_S1024x8_1_0_0_1_n_n 64 rfl rfl k
  have el : dot_S1024x64_S64x8_S1024x8_1_0_0_1_n_n.lhsIdx i ((ValueIdx.contrEquiv1 dot_S1024x64_S64x8_S1024x8_1_0_0_1_n_n 64 rfl rfl).symm k) = lidx_main_v29 i k := funext fun a => Fin.ext (by
    match a with
    | ⟨0, _⟩ => exact lhs_main_v29_0 _ _
    | ⟨1, _⟩ => exact (lhs_main_v29_1 _ _).trans hk)
  have er : dot_S1024x64_S64x8_S1024x8_1_0_0_1_n_n.rhsIdx i ((ValueIdx.contrEquiv1 dot_S1024x64_S64x8_S1024x8_1_0_0_1_n_n 64 rfl rfl).symm k) = ridx_main_v29 i k := funext fun a => Fin.ext (by
    match a with
    | ⟨0, _⟩ => exact (rhs_main_v29_0 _ _).trans hk
    | ⟨1, _⟩ => exact rhs_main_v29_1 _ _)
  rw [el, er]

-- @relu_1's %cst = stablehlo.constant dense<0.000000e+00> : tensor<f32>, in %30 = func.call @relu_1(…) (record main_call2)
def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

-- @relu_1's %0 = stablehlo.broadcast_in_dim %cst, dims = [] : (tensor<f32>) -> tensor<1024x8xf32>, in %30 = func.call @relu_1(…) (record main_call2)
def val_main_call2_v0 : (⟨S1024x8, .f32⟩ : BufTy).Contents (Elt F) :=
  broadcastInDim S1024x8 ![] bcast_S_S1024x8 (val_main_call2_cst (F := F))
abbrev idx_main_call2_v0 (i : S1024x8.Idx) : S_.Idx := fun a => a.elim0
theorem val_main_call2_v0_apply (i : S1024x8.Idx) :
    val_main_call2_v0 (F := F) i = val_main_call2_cst (F := F) (idx_main_call2_v0 i) := by
  unfold val_main_call2_v0
  generalize val_main_call2_cst (F := F) = y
  exact broadcastInDim_apply _ bcast_S_S1024x8 y i (idx_main_call2_v0 i) (fun a => a.elim0)

-- %30 = func.call @relu_1(…) (record main_call2) result 0: @relu_1's %1 = stablehlo.maximum %arg0, %0 : tensor<1024x8xf32>
def val_main_v30 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) : (⟨S1024x8, .f32⟩ : BufTy).Contents (Elt F) :=
  maximumf (val_main_v29 (F := F) x0 x1 x2 x3 x4 x5 x6 x7 x8 x9) (val_main_call2_v0 (F := F))
theorem val_main_v30_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (i : S1024x8.Idx) :
    val_main_v30 (F := F) x0 x1 x2 x3 x4 x5 x6 x7 x8 x9 i = FloatOps.maximumf (val_main_v29 (F := F) x0 x1 x2 x3 x4 x5 x6 x7 x8 x9 i) (val_main_call2_v0 (F := F) i) := rfl

-- %31 = stablehlo.dot_general %30, %arg10, contracting_dims = [1] x [0], precision = [DEFAULT, DEFAULT] : (tensor<1024x8xf32>, tensor<8x2xf32>) -> tensor<1024x2xf32>
def val_main_v31 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024x2, .f32⟩ : BufTy).Contents (Elt F) :=
  Host.dotGeneral dot_S1024x8_S8x2_S1024x2_1_0_0_1_n_n none (val_main_v30 (F := F) x0 x1 x2 x3 x4 x5 x6 x7 x8 x9) (x10)
theorem lhs_main_v31_0 (i : S1024x2.Idx) (q : dot_S1024x8_S8x2_S1024x2_1_0_0_1_n_n.contr.Idx) :
    (dot_S1024x8_S8x2_S1024x2_1_0_0_1_n_n.lhsIdx i q 0).val = (i 0).val := by
  unfold DotDims.lhsIdx
  rw [dif_neg (show ¬(0 : Fin S1024x8.rank) ∈ dot_S1024x8_S8x2_S1024x2_1_0_0_1_n_n.lhsBatch by decide), dif_pos (show (0 : Fin S1024x8.rank) ∈ dot_S1024x8_S8x2_S1024x2_1_0_0_1_n_n.lhsNonContracting by decide)]
  rfl
theorem lhs_main_v31_1 (i : S1024x2.Idx) (q : dot_S1024x8_S8x2_S1024x2_1_0_0_1_n_n.contr.Idx) :
    (dot_S1024x8_S8x2_S1024x2_1_0_0_1_n_n.lhsIdx i q 1).val = (q ⟨0, by decide⟩).val :=
  dot_S1024x8_S8x2_S1024x2_1_0_0_1_n_n.lhsIdx_val_of_single rfl i q
theorem rhs_main_v31_0 (i : S1024x2.Idx) (q : dot_S1024x8_S8x2_S1024x2_1_0_0_1_n_n.contr.Idx) :
    (dot_S1024x8_S8x2_S1024x2_1_0_0_1_n_n.rhsIdx i q 0).val = (q ⟨0, by decide⟩).val :=
  dot_S1024x8_S8x2_S1024x2_1_0_0_1_n_n.rhsIdx_val_of_single rfl i q
theorem rhs_main_v31_1 (i : S1024x2.Idx) (q : dot_S1024x8_S8x2_S1024x2_1_0_0_1_n_n.contr.Idx) :
    (dot_S1024x8_S8x2_S1024x2_1_0_0_1_n_n.rhsIdx i q 1).val = (i 1).val := by
  unfold DotDims.rhsIdx
  rw [dif_neg (show ¬(1 : Fin S8x2.rank) ∈ dot_S1024x8_S8x2_S1024x2_1_0_0_1_n_n.rhsBatch by decide), dif_pos (show (1 : Fin S8x2.rank) ∈ dot_S1024x8_S8x2_S1024x2_1_0_0_1_n_n.rhsNonContracting by decide)]
  rfl
abbrev lidx_main_v31 (i : S1024x2.Idx) (k : Fin 8) : S1024x8.Idx := fun a => match a with
  | ⟨0, _⟩ => ⟨(i 0).val, (i 0).isLt⟩
  | ⟨1, _⟩ => ⟨k.val, k.isLt⟩
abbrev ridx_main_v31 (i : S1024x2.Idx) (k : Fin 8) : S8x2.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v31_apply (x0 : (⟨S1024x128, .f32⟩ : BufTy).Contents (Elt Ideal)) (x1 : (⟨S16384x128, .f32⟩ : BufTy).Contents (Elt Ideal)) (x2 : (⟨S262144x128, .f32⟩ : BufTy).Contents (Elt Ideal)) (x3 : (⟨S1024x128, .f32⟩ : BufTy).Contents (Elt Ideal)) (x4 : (⟨S16384x128, .f32⟩ : BufTy).Contents (Elt Ideal)) (x5 : (⟨S262144x128, .f32⟩ : BufTy).Contents (Elt Ideal)) (x6 x7 : (⟨S256x128, .f32⟩ : BufTy).Contents (Elt Ideal)) (x8 : (⟨S128x64, .f32⟩ : BufTy).Contents (Elt Ideal)) (x9 : (⟨S64x8, .f32⟩ : BufTy).Contents (Elt Ideal)) (x10 : (⟨S8x2, .f32⟩ : BufTy).Contents (Elt Ideal)) (i : S1024x2.Idx) :
    val_main_v31 (F := Ideal) x0 x1 x2 x3 x4 x5 x6 x7 x8 x9 x10 i = ∑ k : Fin 8, (val_main_v30 (F := Ideal) x0 x1 x2 x3 x4 x5 x6 x7 x8 x9) (lidx_main_v31 i k) * x10 (ridx_main_v31 i k) := by
  unfold val_main_v31
  generalize val_main_v30 (F := Ideal) x0 x1 x2 x3 x4 x5 x6 x7 x8 x9 = y0
  simp only [Host.dotGeneral]
  rw [Ideal.dotGeneral_apply, ← Equiv.sum_comp (ValueIdx.contrEquiv1 dot_S1024x8_S8x2_S1024x2_1_0_0_1_n_n 8 rfl rfl).symm]
  refine Finset.sum_congr rfl fun k _ => ?_
  have hk := ValueIdx.contrEquiv1_symm_val dot_S1024x8_S8x2_S1024x2_1_0_0_1_n_n 8 rfl rfl k
  have el : dot_S1024x8_S8x2_S1024x2_1_0_0_1_n_n.lhsIdx i ((ValueIdx.contrEquiv1 dot_S1024x8_S8x2_S1024x2_1_0_0_1_n_n 8 rfl rfl).symm k) = lidx_main_v31 i k := funext fun a => Fin.ext (by
    match a with
    | ⟨0, _⟩ => exact lhs_main_v31_0 _ _
    | ⟨1, _⟩ => exact (lhs_main_v31_1 _ _).trans hk)
  have er : dot_S1024x8_S8x2_S1024x2_1_0_0_1_n_n.rhsIdx i ((ValueIdx.contrEquiv1 dot_S1024x8_S8x2_S1024x2_1_0_0_1_n_n 8 rfl rfl).symm k) = ridx_main_v31 i k := funext fun a => Fin.ext (by
    match a with
    | ⟨0, _⟩ => exact (rhs_main_v31_0 _ _).trans hk
    | ⟨1, _⟩ => exact rhs_main_v31_1 _ _)
  rw [el, er]

-- %cst_7 = stablehlo.constant dense<0xFF800000> : tensor<f32>
def val_main_cst_7 : (⟨S_, .f32⟩ : BufTy).Contents (Elt F) :=
  constant S_ .f32 0xFF800000#32
theorem val_main_cst_7_apply (i : S_.Idx) :
    val_main_cst_7 (F := F) i = FloatOps.ofBits .f32 0xFF800000#32 := rfl

-- %32 = stablehlo.reduce(%31 init: %cst_7) applies stablehlo.maximum across dimensions = [1] : (tensor<1024x2xf32>, tensor<f32>) -> tensor<1024xf32> {
def val_main_v32 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024, .f32⟩ : BufTy).Contents (Elt F) :=
  Host.reduce FloatOps.maximumf (val_main_v31 (F := F) x0 x1 x2 x3 x4 x5 x6 x7 x8 x9 x10) (val_main_cst_7 (F := F)) reducesTo_S1024x2_S1024_d1 h_S_

-- %cst_8 = stablehlo.constant dense<0xFF800000> : tensor<f32>
def val_main_cst_8 : (⟨S_, .f32⟩ : BufTy).Contents (Elt F) :=
  constant S_ .f32 0xFF800000#32
theorem val_main_cst_8_apply (i : S_.Idx) :
    val_main_cst_8 (F := F) i = FloatOps.ofBits .f32 0xFF800000#32 := rfl

-- %33 = stablehlo.broadcast_in_dim %cst_8, dims = [] : (tensor<f32>) -> tensor<1024xf32>
def val_main_v33 : (⟨S1024, .f32⟩ : BufTy).Contents (Elt F) :=
  broadcastInDim S1024 ![] bcast_S_S1024 (val_main_cst_8 (F := F))
abbrev idx_main_v33 (i : S1024.Idx) : S_.Idx := fun a => a.elim0
theorem val_main_v33_apply (i : S1024.Idx) :
    val_main_v33 (F := F) i = val_main_cst_8 (F := F) (idx_main_v33 i) := by
  unfold val_main_v33
  generalize val_main_cst_8 (F := F) = y
  exact broadcastInDim_apply _ bcast_S_S1024 y i (idx_main_v33 i) (fun a => a.elim0)

-- %34 = stablehlo.maximum %33, %32 : tensor<1024xf32>
def val_main_v34 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024, .f32⟩ : BufTy).Contents (Elt F) :=
  maximumf (val_main_v33 (F := F)) (val_main_v32 (F := F) x0 x1 x2 x3 x4 x5 x6 x7 x8 x9 x10)
theorem val_main_v34_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (i : S1024.Idx) :
    val_main_v34 (F := F) x0 x1 x2 x3 x4 x5 x6 x7 x8 x9 x10 i = FloatOps.maximumf (val_main_v33 (F := F) i) (val_main_v32 (F := F) x0 x1 x2 x3 x4 x5 x6 x7 x8 x9 x10 i) := rfl

-- %35 = stablehlo.broadcast_in_dim %34, dims = [0] : (tensor<1024xf32>) -> tensor<1024x1xf32>
def val_main_v35 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024x1, .f32⟩ : BufTy).Contents (Elt F) :=
  broadcastInDim S1024x1 ![0] bcast_S1024_S1024x1_0 (val_main_v34 (F := F) x0 x1 x2 x3 x4 x5 x6 x7 x8 x9 x10)
abbrev idx_main_v35 (i : S1024x1.Idx) : S1024.Idx := fun a => match a with
  | ⟨0, _⟩ => ⟨(i 0).val, (i 0).isLt⟩
theorem val_main_v35_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (i : S1024x1.Idx) :
    val_main_v35 (F := F) x0 x1 x2 x3 x4 x5 x6 x7 x8 x9 x10 i = val_main_v34 (F := F) x0 x1 x2 x3 x4 x5 x6 x7 x8 x9 x10 (idx_main_v35 i) := by
  unfold val_main_v35
  generalize val_main_v34 (F := F) x0 x1 x2 x3 x4 x5 x6 x7 x8 x9 x10 = y
  exact broadcastInDim_apply _ bcast_S1024_S1024x1_0 y i (idx_main_v35 i) (fun a => match a with
    | ⟨0, _⟩ => by show (i 0).val = if (1024 : Nat) = 1 then 0 else (i 0).val; rw [if_neg (by decide)])

-- %36 = stablehlo.broadcast_in_dim %35, dims = [0, 1] : (tensor<1024x1xf32>) -> tensor<1024x2xf32>
def val_main_v36 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024x2, .f32⟩ : BufTy).Contents (Elt F) :=
  broadcastInDim S1024x2 ![0, 1] bcast_S1024x1_S1024x2_0_1 (val_main_v35 (F := F) x0 x1 x2 x3 x4 x5 x6 x7 x8 x9 x10)
abbrev idx_main_v36 (i : S1024x2.Idx) : S1024x1.Idx := fun a => match a with
  | ⟨0, _⟩ => ⟨(i 0).val, (i 0).isLt⟩
  | ⟨1, _⟩ => ⟨0, Nat.one_pos⟩
theorem val_main_v36_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (i : S1024x2.Idx) :
    val_main_v36 (F := F) x0 x1 x2 x3 x4 x5 x6 x7 x8 x9 x10 i = val_main_v35 (F := F) x0 x1 x2 x3 x4 x5 x6 x7 x8 x9 x10 (idx_main_v36 i) := by
  unfold val_main_v36
  generalize val_main_v35 (F := F) x0 x1 x2 x3 x4 x5 x6 x7 x8 x9 x10 = y
  exact broadcastInDim_apply _ bcast_S1024x1_S1024x2_0_1 y i (idx_main_v36 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

-- %37 = stablehlo.subtract %31, %36 : tensor<1024x2xf32>
def val_main_v37 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024x2, .f32⟩ : BufTy).Contents (Elt F) :=
  subf (val_main_v31 (F := F) x0 x1 x2 x3 x4 x5 x6 x7 x8 x9 x10) (val_main_v36 (F := F) x0 x1 x2 x3 x4 x5 x6 x7 x8 x9 x10)
theorem val_main_v37_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (i : S1024x2.Idx) :
    val_main_v37 (F := F) x0 x1 x2 x3 x4 x5 x6 x7 x8 x9 x10 i = FloatOps.subf (val_main_v31 (F := F) x0 x1 x2 x3 x4 x5 x6 x7 x8 x9 x10 i) (val_main_v36 (F := F) x0 x1 x2 x3 x4 x5 x6 x7 x8 x9 x10 i) := rfl

-- %38 = stablehlo.exponential %37 : tensor<1024x2xf32>
def val_main_v38 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024x2, .f32⟩ : BufTy).Contents (Elt F) :=
  Host.exp (val_main_v37 (F := F) x0 x1 x2 x3 x4 x5 x6 x7 x8 x9 x10)
theorem val_main_v38_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (i : S1024x2.Idx) :
    val_main_v38 (F := F) x0 x1 x2 x3 x4 x5 x6 x7 x8 x9 x10 i = FloatOps.hostUnary .exp (val_main_v37 (F := F) x0 x1 x2 x3 x4 x5 x6 x7 x8 x9 x10 i) := rfl

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %39 = stablehlo.reduce(%38 init: %cst_9) applies stablehlo.add across dimensions = [1] : (tensor<1024x2xf32>, tensor<f32>) -> tensor<1024xf32> {
def val_main_v39 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024, .f32⟩ : BufTy).Contents (Elt F) :=
  Host.reduceAdd (val_main_v38 (F := F) x0 x1 x2 x3 x4 x5 x6 x7 x8 x9 x10) (val_main_cst_9 (F := F)) reducesTo_S1024x2_S1024_d1 h_S_
abbrev idx_main_v39 (i : S1024.Idx) (k : Fin 2) : S1024x2.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v39_apply (x0 : (⟨S1024x128, .f32⟩ : BufTy).Contents (Elt Ideal)) (x1 : (⟨S16384x128, .f32⟩ : BufTy).Contents (Elt Ideal)) (x2 : (⟨S262144x128, .f32⟩ : BufTy).Contents (Elt Ideal)) (x3 : (⟨S1024x128, .f32⟩ : BufTy).Contents (Elt Ideal)) (x4 : (⟨S16384x128, .f32⟩ : BufTy).Contents (Elt Ideal)) (x5 : (⟨S262144x128, .f32⟩ : BufTy).Contents (Elt Ideal)) (x6 x7 : (⟨S256x128, .f32⟩ : BufTy).Contents (Elt Ideal)) (x8 : (⟨S128x64, .f32⟩ : BufTy).Contents (Elt Ideal)) (x9 : (⟨S64x8, .f32⟩ : BufTy).Contents (Elt Ideal)) (x10 : (⟨S8x2, .f32⟩ : BufTy).Contents (Elt Ideal)) (i : S1024.Idx) :
    val_main_v39 (F := Ideal) x0 x1 x2 x3 x4 x5 x6 x7 x8 x9 x10 i = (val_main_cst_9 (F := Ideal)) (Shape.Idx.first h_S_) + ∑ k : Fin 2, (val_main_v38 (F := Ideal) x0 x1 x2 x3 x4 x5 x6 x7 x8 x9 x10) (idx_main_v39 i k) := by
  unfold val_main_v39
  generalize val_main_v38 (F := Ideal) x0 x1 x2 x3 x4 x5 x6 x7 x8 x9 x10 = y0
  simp only [Host.reduceAdd, Ideal.hostReduceAdd_def]
  rw [Ideal.hostReduceAdd_single reducesTo_S1024x2_S1024_d1 (by decide)]
  refine congrArg (_ + ·) (Finset.sum_congr rfl fun k _ => ?_)
  exact congrArg y0 (funext fun a => Fin.ext (by match a with | ⟨0, _⟩ => rfl | ⟨1, _⟩ => rfl))

-- %40 = stablehlo.broadcast_in_dim %39, dims = [0] : (tensor<1024xf32>) -> tensor<1024x1xf32>
def val_main_v40 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024x1, .f32⟩ : BufTy).Contents (Elt F) :=
  broadcastInDim S1024x1 ![0] bcast_S1024_S1024x1_0 (val_main_v39 (F := F) x0 x1 x2 x3 x4 x5 x6 x7 x8 x9 x10)
abbrev idx_main_v40 (i : S1024x1.Idx) : S1024.Idx := fun a => match a with
  | ⟨0, _⟩ => ⟨(i 0).val, (i 0).isLt⟩
theorem val_main_v40_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (i : S1024x1.Idx) :
    val_main_v40 (F := F) x0 x1 x2 x3 x4 x5 x6 x7 x8 x9 x10 i = val_main_v39 (F := F) x0 x1 x2 x3 x4 x5 x6 x7 x8 x9 x10 (idx_main_v40 i) := by
  unfold val_main_v40
  generalize val_main_v39 (F := F) x0 x1 x2 x3 x4 x5 x6 x7 x8 x9 x10 = y
  exact broadcastInDim_apply _ bcast_S1024_S1024x1_0 y i (idx_main_v40 i) (fun a => match a with
    | ⟨0, _⟩ => by show (i 0).val = if (1024 : Nat) = 1 then 0 else (i 0).val; rw [if_neg (by decide)])

-- %41 = stablehlo.broadcast_in_dim %40, dims = [0, 1] : (tensor<1024x1xf32>) -> tensor<1024x2xf32>
def val_main_v41 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024x2, .f32⟩ : BufTy).Contents (Elt F) :=
  broadcastInDim S1024x2 ![0, 1] bcast_S1024x1_S1024x2_0_1 (val_main_v40 (F := F) x0 x1 x2 x3 x4 x5 x6 x7 x8 x9 x10)
abbrev idx_main_v41 (i : S1024x2.Idx) : S1024x1.Idx := fun a => match a with
  | ⟨0, _⟩ => ⟨(i 0).val, (i 0).isLt⟩
  | ⟨1, _⟩ => ⟨0, Nat.one_pos⟩
theorem val_main_v41_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (i : S1024x2.Idx) :
    val_main_v41 (F := F) x0 x1 x2 x3 x4 x5 x6 x7 x8 x9 x10 i = val_main_v40 (F := F) x0 x1 x2 x3 x4 x5 x6 x7 x8 x9 x10 (idx_main_v41 i) := by
  unfold val_main_v41
  generalize val_main_v40 (F := F) x0 x1 x2 x3 x4 x5 x6 x7 x8 x9 x10 = y
  exact broadcastInDim_apply _ bcast_S1024x1_S1024x2_0_1 y i (idx_main_v41 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

-- %42 = stablehlo.divide %38, %41 : tensor<1024x2xf32>
def val_main_v42 (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : (⟨S1024x2, .f32⟩ : BufTy).Contents (Elt F) :=
  Host.divf (val_main_v38 (F := F) x0 x1 x2 x3 x4 x5 x6 x7 x8 x9 x10) (val_main_v41 (F := F) x0 x1 x2 x3 x4 x5 x6 x7 x8 x9 x10)
theorem val_main_v42_apply (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (i : S1024x2.Idx) :
    val_main_v42 (F := F) x0 x1 x2 x3 x4 x5 x6 x7 x8 x9 x10 i = FloatOps.hostDivf (val_main_v38 (F := F) x0 x1 x2 x3 x4 x5 x6 x7 x8 x9 x10 i) (val_main_v41 (F := F) x0 x1 x2 x3 x4 x5 x6 x7 x8 x9 x10 i) := rfl

end Cert.RefRead

end
-- ==== Proof.RefOps.lean ====
/-
  The reference program as a list of host operations.

  Its @main is a straight line of sixty host operations (the three calls of the rectifier standing as their three
  operations each). The list is also cut into five consecutive stretches, so that what the buffers hold after the whole
  line can be read stretch by stretch.
-/
import proofs.«100680_g9603546873884_cont_9to1c4b_371_3_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 60 operations, in order (a called function's operations stand in its call's place, spelt `TRef.…`). -/
abbrev ops : List (HloOp τ sig (Elt F)) :=
  [ reshape main_arg5 main_v0 rfl shapeCasts_S262144x128_S16384x16x128,
    nullary main_cst (constant S_ .f32 0x00000000#32),
    binary main_v0 main_cst main_v1 ((fun x v => Host.reduceAdd x v reducesTo_S16384x16x128_S16384x128_d1 h_S_) : (⟨S16384x16x128, .f32⟩ : BufTy).Contents (Elt F) → (⟨S_, .f32⟩ : BufTy).Contents (Elt F) → (⟨S16384x128, .f32⟩ : BufTy).Contents (Elt F)),
    nullary main_cst_0 (constant S_ .f32 0x41800000#32),
    unary main_cst_0 main_v2 (broadcastInDim S16384x128 ![] bcast_S_S16384x128 : (⟨S_, .f32⟩ : BufTy).Contents (Elt F) → (⟨S16384x128, .f32⟩ : BufTy).Contents (Elt F)),
    binary main_v1 main_v2 main_v3 (Host.divf : (⟨S16384x128, .f32⟩ : BufTy).Contents (Elt F) → (⟨S16384x128, .f32⟩ : BufTy).Contents (Elt F) → (⟨S16384x128, .f32⟩ : BufTy).Contents (Elt F)),
    reshape main_arg2 main_v4 rfl shapeCasts_S262144x128_S16384x16x128,
    nullary main_cst_1 (constant S_ .f32 0x00000000#32),
    binary main_v4 main_cst_1 main_v5 ((fun x v => Host.reduceAdd x v reducesTo_S16384x16x128_S16384x128_d1 h_S_) : (⟨S16384x16x128, .f32⟩ : BufTy).Contents (Elt F) → (⟨S_, .f32⟩ : BufTy).Contents (Elt F) → (⟨S16384x128, .f32⟩ : BufTy).Contents (Elt F)),
    nullary main_cst_2 (constant S_ .f32 0x41800000#32),
    unary main_cst_2 main_v6 (broadcastInDim S16384x128 ![] bcast_S_S16384x128 : (⟨S_, .f32⟩ : BufTy).Contents (Elt F) → (⟨S16384x128, .f32⟩ : BufTy).Contents (Elt F)),
    binary main_v5 main_v6 main_v7 (Host.divf : (⟨S16384x128, .f32⟩ : BufTy).Contents (Elt F) → (⟨S16384x128, .f32⟩ : BufTy).Contents (Elt F) → (⟨S16384x128, .f32⟩ : BufTy).Contents (Elt F)),
    binary main_arg4 main_v3 main_v8 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_arg1 main_v7 main_v9 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v9 main_arg6 main_v10 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    binary main_v8 main_arg6 main_v11 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    reshape main_v11 main_v12 rfl shapeCasts_S16384x128_S1024x16x128,
    nullary main_cst_3 (constant S_ .f32 0x00000000#32),
    binary main_v12 main_cst_3 main_v13 ((fun x v => Host.reduceAdd x v reducesTo_S1024x16x128_S1024x128_d1 h_S_) : (⟨S1024x16x128, .f32⟩ : BufTy).Contents (Elt F) → (⟨S_, .f32⟩ : BufTy).Contents (Elt F) → (⟨S1024x128, .f32⟩ : BufTy).Contents (Elt F)),
    nullary main_cst_4 (constant S_ .f32 0x41800000#32),
    unary main_cst_4 main_v14 (broadcastInDim S1024x128 ![] bcast_S_S1024x128 : (⟨S_, .f32⟩ : BufTy).Contents (Elt F) → (⟨S1024x128, .f32⟩ : BufTy).Contents (Elt F)),
    binary main_v13 main_v14 main_v15 (Host.divf : (⟨S1024x128, .f32⟩ : BufTy).Contents (Elt F) → (⟨S1024x128, .f32⟩ : BufTy).Contents (Elt F) → (⟨S1024x128, .f32⟩ : BufTy).Contents (Elt F)),
    reshape main_v10 main_v16 rfl shapeCasts_S16384x128_S1024x16x128,
    nullary main_cst_5 (constant S_ .f32 0x00000000#32),
    binary main_v16 main_cst_5 main_v17 ((fun x v => Host.reduceAdd x v reducesTo_S1024x16x128_S1024x128_d1 h_S_) : (⟨S1024x16x128, .f32⟩ : BufTy).Contents (Elt F) → (⟨S_, .f32⟩ : BufTy).Contents (Elt F) → (⟨S1024x128, .f32⟩ : BufTy).Contents (Elt F)),
    nullary main_cst_6 (constant S_ .f32 0x41800000#32),
    unary main_cst_6 main_v18 (broadcastInDim S1024x128 ![] bcast_S_S1024x128 : (⟨S_, .f32⟩ : BufTy).Contents (Elt F) → (⟨S1024x128, .f32⟩ : BufTy).Contents (Elt F)),
    binary main_v17 main_v18 main_v19 (Host.divf : (⟨S1024x128, .f32⟩ : BufTy).Contents (Elt F) → (⟨S1024x128, .f32⟩ : BufTy).Contents (Elt F) → (⟨S1024x128, .f32⟩ : BufTy).Contents (Elt F)),
    binary main_arg3 main_v15 main_v20 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_arg0 main_v19 main_v21 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v21 main_arg6 main_v22 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    binary main_v20 main_arg6 main_v23 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    binary main_v22 main_v23 main_v24 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v24 main_arg7 main_v25 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1024x128, .f32⟩) main_call0_v0) (broadcastInDim S1024x128 ![] bcast_S_S1024x128),
    TRef.binary (TRef.of (T := ⟨S1024x128, .f32⟩) main_v25) (TRef.of (T := ⟨S1024x128, .f32⟩) main_call0_v0) (TRef.of (T := ⟨S1024x128, .f32⟩) main_v26) maximumf,
    binary main_v26 main_arg8 main_v27 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x64, .f32⟩) main_call1_v0) (broadcastInDim S1024x64 ![] bcast_S_S1024x64),
    TRef.binary (TRef.of (T := ⟨S1024x64, .f32⟩) main_v27) (TRef.of (T := ⟨S1024x64, .f32⟩) main_call1_v0) (TRef.of (T := ⟨S1024x64, .f32⟩) main_v28) maximumf,
    binary main_v28 main_arg9 main_v29 ((fun l r => Host.dotGeneral dot_S1024x64_S64x8_S1024x8_1_0_0_1_n_n none l r) : (⟨S1024x64, .f32⟩ : BufTy).Contents (Elt F) → (⟨S64x8, .f32⟩ : BufTy).Contents (Elt F) → (⟨S1024x8, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x8, .f32⟩) main_call2_v0) (broadcastInDim S1024x8 ![] bcast_S_S1024x8),
    TRef.binary (TRef.of (T := ⟨S1024x8, .f32⟩) main_v29) (TRef.of (T := ⟨S1024x8, .f32⟩) main_call2_v0) (TRef.of (T := ⟨S1024x8, .f32⟩) main_v30) maximumf,
    binary main_v30 main_arg10 main_v31 ((fun l r => Host.dotGeneral dot_S1024x8_S8x2_S1024x2_1_0_0_1_n_n none l r) : (⟨S1024x8, .f32⟩ : BufTy).Contents (Elt F) → (⟨S8x2, .f32⟩ : BufTy).Contents (Elt F) → (⟨S1024x2, .f32⟩ : BufTy).Contents (Elt F)),
    nullary main_cst_7 (constant S_ .f32 0xFF800000#32),
    binary main_v31 main_cst_7 main_v32 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)),
    nullary main_cst_8 (constant S_ .f32 0xFF800000#32),
    unary main_cst_8 main_v33 (broadcastInDim S1024 ![] bcast_S_S1024 : (⟨S_, .f32⟩ : BufTy).Contents (Elt F) → (⟨S1024, .f32⟩ : BufTy).Contents (Elt F)),
    binary main_v33 main_v32 main_v34 (maximumf : (⟨S1024, .f32⟩ : BufTy).Contents (Elt F) → (⟨S1024, .f32⟩ : BufTy).Contents (Elt F) → (⟨S1024, .f32⟩ : BufTy).Contents (Elt F)),
    unary main_v34 main_v35 (broadcastInDim S1024x1 ![0] bcast_S1024_S1024x1_0 : (⟨S1024, .f32⟩ : BufTy).Contents (Elt F) → (⟨S1024x1, .f32⟩ : BufTy).Contents (Elt F)),
    unary main_v35 main_v36 (broadcastInDim S1024x2 ![0, 1] bcast_S1024x1_S1024x2_0_1 : (⟨S1024x1, .f32⟩ : BufTy).Contents (Elt F) → (⟨S1024x2, .f32⟩ : BufTy).Contents (Elt F)),
    binary main_v31 main_v36 main_v37 (subf : (⟨S1024x2, .f32⟩ : BufTy).Contents (Elt F) → (⟨S1024x2, .f32⟩ : BufTy).Contents (Elt F) → (⟨S1024x2, .f32⟩ : BufTy).Contents (Elt F)),
    unary main_v37 main_v38 (Host.exp : (⟨S1024x2, .f32⟩ : BufTy).Contents (Elt F) → (⟨S1024x2, .f32⟩ : BufTy).Contents (Elt F)),
    nullary main_cst_9 (constant S_ .f32 0x00000000#32),
    binary main_v38 main_cst_9 main_v39 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    unary main_v39 main_v40 (broadcastInDim S1024x1 ![0] bcast_S1024_S1024x1_0 : (⟨S1024, .f32⟩ : BufTy).Contents (Elt F) → (⟨S1024x1, .f32⟩ : BufTy).Contents (Elt F)),
    unary main_v40 main_v41 (broadcastInDim S1024x2 ![0, 1] bcast_S1024x1_S1024x2_0_1 : (⟨S1024x1, .f32⟩ : BufTy).Contents (Elt F) → (⟨S1024x2, .f32⟩ : BufTy).Contents (Elt F)),
    binary main_v38 main_v41 main_v42 (Host.divf : (⟨S1024x2, .f32⟩ : BufTy).Contents (Elt F) → (⟨S1024x2, .f32⟩ : BufTy).Contents (Elt F) → (⟨S1024x2, .f32⟩ : BufTy).Contents (Elt F)) ]

/-- The first-hop layers of the two sides (operations 1–16): on each side the mean of the sixteen second-hop rows under each
    first-hop row, set beside the first-hop features, times the weights. -/
abbrev ops1 : List (HloOp τ sig (Elt F)) :=
  [ reshape main_arg5 main_v0 rfl shapeCasts_S262144x128_S16384x16x128,
    nullary main_cst (constant S_ .f32 0x00000000#32),
    binary main_v0 main_cst main_v1 ((fun x v => Host.reduceAdd x v reducesTo_S16384x16x128_S16384x128_d1 h_S_) : (⟨S16384x16x128, .f32⟩ : BufTy).Contents (Elt F) → (⟨S_, .f32⟩ : BufTy).Contents (Elt F) → (⟨S16384x128, .f32⟩ : BufTy).Contents (Elt F)),
    nullary main_cst_0 (constant S_ .f32 0x41800000#32),
    unary main_cst_0 main_v2 (broadcastInDim S16384x128 ![] bcast_S_S16384x128 : (⟨S_, .f32⟩ : BufTy).Contents (Elt F) → (⟨S16384x128, .f32⟩ : BufTy).Contents (Elt F)),
    binary main_v1 main_v2 main_v3 (Host.divf : (⟨S16384x128, .f32⟩ : BufTy).Contents (Elt F) → (⟨S16384x128, .f32⟩ : BufTy).Contents (Elt F) → (⟨S16384x128, .f32⟩ : BufTy).Contents (Elt F)),
    reshape main_arg2 main_v4 rfl shapeCasts_S262144x128_S16384x16x128,
    nullary main_cst_1 (constant S_ .f32 0x00000000#32),
    binary main_v4 main_cst_1 main_v5 ((fun x v => Host.reduceAdd x v reducesTo_S16384x16x128_S16384x128_d1 h_S_) : (⟨S16384x16x128, .f32⟩ : BufTy).Contents (Elt F) → (⟨S_, .f32⟩ : BufTy).Contents (Elt F) → (⟨S16384x128, .f32⟩ : BufTy).Contents (Elt F)),
    nullary main_cst_2 (constant S_ .f32 0x41800000#32),
    unary main_cst_2 main_v6 (broadcastInDim S16384x128 ![] bcast_S_S16384x128 : (⟨S_, .f32⟩ : BufTy).Contents (Elt F) → (⟨S16384x128, .f32⟩ : BufTy).Contents (Elt F)),
    binary main_v5 main_v6 main_v7 (Host.divf : (⟨S16384x128, .f32⟩ : BufTy).Contents (Elt F) → (⟨S16384x128, .f32⟩ : BufTy).Contents (Elt F) → (⟨S16384x128, .f32⟩ : BufTy).Contents (Elt F)),
    binary main_arg4 main_v3 main_v8 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_arg1 main_v7 main_v9 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v9 main_arg6 main_v10 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    binary main_v8 main_arg6 main_v11 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)) ]

/-- The second-hop means of the two sides (operations 17–28): the mean of the sixteen first-hop rows under each node. -/
abbrev ops2 : List (HloOp τ sig (Elt F)) :=
  [ reshape main_v11 main_v12 rfl shapeCasts_S16384x128_S1024x16x128,
    nullary main_cst_3 (constant S_ .f32 0x00000000#32),
    binary main_v12 main_cst_3 main_v13 ((fun x v => Host.reduceAdd x v reducesTo_S1024x16x128_S1024x128_d1 h_S_) : (⟨S1024x16x128, .f32⟩ : BufTy).Contents (Elt F) → (⟨S_, .f32⟩ : BufTy).Contents (Elt F) → (⟨S1024x128, .f32⟩ : BufTy).Contents (Elt F)),
    nullary main_cst_4 (constant S_ .f32 0x41800000#32),
    unary main_cst_4 main_v14 (broadcastInDim S1024x128 ![] bcast_S_S1024x128 : (⟨S_, .f32⟩ : BufTy).Contents (Elt F) → (⟨S1024x128, .f32⟩ : BufTy).Contents (Elt F)),
    binary main_v13 main_v14 main_v15 (Host.divf : (⟨S1024x128, .f32⟩ : BufTy).Contents (Elt F) → (⟨S1024x128, .f32⟩ : BufTy).Contents (Elt F) → (⟨S1024x128, .f32⟩ : BufTy).Contents (Elt F)),
    reshape main_v10 main_v16 rfl shapeCasts_S16384x128_S1024x16x128,
    nullary main_cst_5 (constant S_ .f32 0x00000000#32),
    binary main_v16 main_cst_5 main_v17 ((fun x v => Host.reduceAdd x v reducesTo_S1024x16x128_S1024x128_d1 h_S_) : (⟨S1024x16x128, .f32⟩ : BufTy).Contents (Elt F) → (⟨S_, .f32⟩ : BufTy).Contents (Elt F) → (⟨S1024x128, .f32⟩ : BufTy).Contents (Elt F)),
    nullary main_cst_6 (constant S_ .f32 0x41800000#32),
    unary main_cst_6 main_v18 (broadcastInDim S1024x128 ![] bcast_S_S1024x128 : (⟨S_, .f32⟩ : BufTy).Contents (Elt F) → (⟨S1024x128, .f32⟩ : BufTy).Contents (Elt F)),
    binary main_v17 main_v18 main_v19 (Host.divf : (⟨S1024x128, .f32⟩ : BufTy).Contents (Elt F) → (⟨S1024x128, .f32⟩ : BufTy).Contents (Elt F) → (⟨S1024x128, .f32⟩ : BufTy).Contents (Elt F)) ]

/-- The second layer (operations 29–34): each side's mean set beside its node features, times the weights, the two results
    set side by side, times the next weights. -/
abbrev ops3 : List (HloOp τ sig (Elt F)) :=
  [ binary main_arg3 main_v15 main_v20 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_arg0 main_v19 main_v21 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v21 main_arg6 main_v22 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    binary main_v20 main_arg6 main_v23 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    binary main_v22 main_v23 main_v24 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v24 main_arg7 main_v25 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)) ]

/-- The dense head (operations 35–46): three times a rectifier — the maximum with a zero array — and a product. -/
abbrev ops4 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S1024x128, .f32⟩) main_call0_v0) (broadcastInDim S1024x128 ![] bcast_S_S1024x128),
    TRef.binary (TRef.of (T := ⟨S1024x128, .f32⟩) main_v25) (TRef.of (T := ⟨S1024x128, .f32⟩) main_call0_v0) (TRef.of (T := ⟨S1024x128, .f32⟩) main_v26) maximumf,
    binary main_v26 main_arg8 main_v27 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x64, .f32⟩) main_call1_v0) (broadcastInDim S1024x64 ![] bcast_S_S1024x64),
    TRef.binary (TRef.of (T := ⟨S1024x64, .f32⟩) main_v27) (TRef.of (T := ⟨S1024x64, .f32⟩) main_call1_v0) (TRef.of (T := ⟨S1024x64, .f32⟩) main_v28) maximumf,
    binary main_v28 main_arg9 main_v29 ((fun l r => Host.dotGeneral dot_S1024x64_S64x8_S1024x8_1_0_0_1_n_n none l r) : (⟨S1024x64, .f32⟩ : BufTy).Contents (Elt F) → (⟨S64x8, .f32⟩ : BufTy).Contents (Elt F) → (⟨S1024x8, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x8, .f32⟩) main_call2_v0) (broadcastInDim S1024x8 ![] bcast_S_S1024x8),
    TRef.binary (TRef.of (T := ⟨S1024x8, .f32⟩) main_v29) (TRef.of (T := ⟨S1024x8, .f32⟩) main_call2_v0) (TRef.of (T := ⟨S1024x8, .f32⟩) main_v30) maximumf,
    binary main_v30 main_arg10 main_v31 ((fun l r => Host.dotGeneral dot_S1024x8_S8x2_S1024x2_1_0_0_1_n_n none l r) : (⟨S1024x8, .f32⟩ : BufTy).Contents (Elt F) → (⟨S8x2, .f32⟩ : BufTy).Contents (Elt F) → (⟨S1024x2, .f32⟩ : BufTy).Contents (Elt F)) ]

/-- The row-wise softmax (operations 47–60). -/
abbrev ops5 : List (HloOp τ sig (Elt F)) :=
  [ nullary main_cst_7 (constant S_ .f32 0xFF800000#32),
    binary main_v31 main_cst_7 main_v32 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)),
    nullary main_cst_8 (constant S_ .f32 0xFF800000#32),
    unary main_cst_8 main_v33 (broadcastInDim S1024 ![] bcast_S_S1024 : (⟨S_, .f32⟩ : BufTy).Contents (Elt F) → (⟨S1024, .f32⟩ : BufTy).Contents (Elt F)),
    binary main_v33 main_v32 main_v34 (maximumf : (⟨S1024, .f32⟩ : BufTy).Contents (Elt F) → (⟨S1024, .f32⟩ : BufTy).Contents (Elt F) → (⟨S1024, .f32⟩ : BufTy).Contents (Elt F)),
    unary main_v34 main_v35 (broadcastInDim S1024x1 ![0] bcast_S1024_S1024x1_0 : (⟨S1024, .f32⟩ : BufTy).Contents (Elt F) → (⟨S1024x1, .f32⟩ : BufTy).Contents (Elt F)),
    unary main_v35 main_v36 (broadcastInDim S1024x2 ![0, 1] bcast_S1024x1_S1024x2_0_1 : (⟨S1024x1, .f32⟩ : BufTy).Contents (Elt F) → (⟨S1024x2, .f32⟩ : BufTy).Contents (Elt F)),
    binary main_v31 main_v36 main_v37 (subf : (⟨S1024x2, .f32⟩ : BufTy).Contents (Elt F) → (⟨S1024x2, .f32⟩ : BufTy).Contents (Elt F) → (⟨S1024x2, .f32⟩ : BufTy).Contents (Elt F)),
    unary main_v37 main_v38 (Host.exp : (⟨S1024x2, .f32⟩ : BufTy).Contents (Elt F) → (⟨S1024x2, .f32⟩ : BufTy).Contents (Elt F)),
    nullary main_cst_9 (constant S_ .f32 0x00000000#32),
    binary main_v38 main_cst_9 main_v39 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    unary main_v39 main_v40 (broadcastInDim S1024x1 ![0] bcast_S1024_S1024x1_0 : (⟨S1024, .f32⟩ : BufTy).Contents (Elt F) → (⟨S1024x1, .f32⟩ : BufTy).Contents (Elt F)),
    unary main_v40 main_v41 (broadcastInDim S1024x2 ![0, 1] bcast_S1024x1_S1024x2_0_1 : (⟨S1024x1, .f32⟩ : BufTy).Contents (Elt F) → (⟨S1024x2, .f32⟩ : BufTy).Contents (Elt F)),
    binary main_v38 main_v41 main_v42 (Host.divf : (⟨S1024x2, .f32⟩ : BufTy).Contents (Elt F) → (⟨S1024x2, .f32⟩ : BufTy).Contents (Elt F) → (⟨S1024x2, .f32⟩ : BufTy).Contents (Elt F)) ]

/-- The line is its five stretches one after the other. -/
theorem ops_split : (ops : List (HloOp τ sig (Elt F))) = ops1 ++ (ops2 ++ (ops3 ++ (ops4 ++ ops5))) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., binary_bufs_sub .., nullary_bufs_sub .., unary_bufs_sub .., binary_bufs_sub .., reshape_bufs_sub .., nullary_bufs_sub .., binary_bufs_sub .., nullary_bufs_sub .., unary_bufs_sub .., binary_bufs_sub .., binary_bufs_sub .., binary_bufs_sub .., binary_bufs_sub .., binary_bufs_sub .., reshape_bufs_sub .., nullary_bufs_sub .., binary_bufs_sub .., nullary_bufs_sub .., unary_bufs_sub .., binary_bufs_sub .., reshape_bufs_sub .., nullary_bufs_sub .., binary_bufs_sub .., nullary_bufs_sub .., unary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

end Cert.RefRun

end
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.RefRun.lean ====
/-
  The reference program's run.

  Its @main is a straight line of sixty host operations, so every weakly fair execution ends with each buffer at the
  composed value of the operations before it: the result at the last stage, the arguments untouched. The line is read
  in five stretches. A stretch writes none of the argument arrays; from contents that hold the argument arrays and the
  values of the earlier stages it reads, it leaves the values of its own last stages: the first-hop layers, then the
  second-hop means, then the second layer, then the logits of the dense head, then their row-wise softmax.
-/
import proofs.«100680_g9603546873884_cont_9to1c4b_371_3_alg».proof.Proof.RefRead
import proofs.«100680_g9603546873884_cont_9to1c4b_371_3_alg».proof.Proof.RefOps
import proofs.«100680_g9603546873884_cont_9to1c4b_371_3_alg».proof.Proof.LibAfterAppend
import proofs.«100680_g9603546873884_cont_9to1c4b_371_3_alg».proof.Proof.LibTypedRefs

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Buffer contents that hold the eleven argument arrays `x0 … x10`. -/
structure Args (W : Valuation τ sig (Elt F)) (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) (x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10

/-! ## No stretch writes an argument array -/

theorem Args.after1 {W : Valuation τ sig (Elt F)} {x0 x1 x2 x3 x4 x5 x6 x7 x8 x9 x10 : _} (h : Args W x0 x1 x2 x3 x4 x5 x6 x7 x8 x9 x10) :
    Args (after (ops1 (F := F)) W) x0 x1 x2 x3 x4 x5 x6 x7 x8 x9 x10 :=
  ⟨(show after (ops1 (F := F)) W (Proc.devRef .tc main_arg0) = W (Proc.devRef .tc main_arg0) by after_results_simp).trans h.a0,
   (show after (ops1 (F := F)) W (Proc.devRef .tc main_arg1) = W (Proc.devRef .tc main_arg1) by after_results_simp).trans h.a1,
   (show after (ops1 (F := F)) W (Proc.devRef .tc main_arg2) = W (Proc.devRef .tc main_arg2) by after_results_simp).trans h.a2,
   (show after (ops1 (F := F)) W (Proc.devRef .tc main_arg3) = W (Proc.devRef .tc main_arg3) by after_results_simp).trans h.a3,
   (show after (ops1 (F := F)) W (Proc.devRef .tc main_arg4) = W (Proc.devRef .tc main_arg4) by after_results_simp).trans h.a4,
   (show after (ops1 (F := F)) W (Proc.devRef .tc main_arg5) = W (Proc.devRef .tc main_arg5) by after_results_simp).trans h.a5,
   (show after (ops1 (F := F)) W (Proc.devRef .tc main_arg6) = W (Proc.devRef .tc main_arg6) by after_results_simp).trans h.a6,
   (show after (ops1 (F := F)) W (Proc.devRef .tc main_arg7) = W (Proc.devRef .tc main_arg7) by after_results_simp).trans h.a7,
   (show after (ops1 (F := F)) W (Proc.devRef .tc main_arg8) = W (Proc.devRef .tc main_arg8) by after_results_simp).trans h.a8,
   (show after (ops1 (F := F)) W (Proc.devRef .tc main_arg9) = W (Proc.devRef .tc main_arg9) by after_results_simp).trans h.a9,
   (show after (ops1 (F := F)) W (Proc.devRef .tc main_arg10) = W (Proc.devRef .tc main_arg10) by after_results_simp).trans h.a10⟩

theorem Args.after2 {W : Valuation τ sig (Elt F)} {x0 x1 x2 x3 x4 x5 x6 x7 x8 x9 x10 : _} (h : Args W x0 x1 x2 x3 x4 x5 x6 x7 x8 x9 x10) :
    Args (after (ops2 (F := F)) W) x0 x1 x2 x3 x4 x5 x6 x7 x8 x9 x10 :=
  ⟨(show after (ops2 (F := F)) W (Proc.devRef .tc main_arg0) = W (Proc.devRef .tc main_arg0) by after_results_simp).trans h.a0,
   (show after (ops2 (F := F)) W (Proc.devRef .tc main_arg1) = W (Proc.devRef .tc main_arg1) by after_results_simp).trans h.a1,
   (show after (ops2 (F := F)) W (Proc.devRef .tc main_arg2) = W (Proc.devRef .tc main_arg2) by after_results_simp).trans h.a2,
   (show after (ops2 (F := F)) W (Proc.devRef .tc main_arg3) = W (Proc.devRef .tc main_arg3) by after_results_simp).trans h.a3,
   (show after (ops2 (F := F)) W (Proc.devRef .tc main_arg4) = W (Proc.devRef .tc main_arg4) by after_results_simp).trans h.a4,
   (show after (ops2 (F := F)) W (Proc.devRef .tc main_arg5) = W (Proc.devRef .tc main_arg5) by after_results_simp).trans h.a5,
   (show after (ops2 (F := F)) W (Proc.devRef .tc main_arg6) = W (Proc.devRef .tc main_arg6) by after_results_simp).trans h.a6,
   (show after (ops2 (F := F)) W (Proc.devRef .tc main_arg7) = W (Proc.devRef .tc main_arg7) by after_results_simp).trans h.a7,
   (show after (ops2 (F := F)) W (Proc.devRef .tc main_arg8) = W (Proc.devRef .tc main_arg8) by after_results_simp).trans h.a8,
   (show after (ops2 (F := F)) W (Proc.devRef .tc main_arg9) = W (Proc.devRef .tc main_arg9) by after_results_simp).trans h.a9,
   (show after (ops2 (F := F)) W (Proc.devRef .tc main_arg10) = W (Proc.devRef .tc main_arg10) by after_results_simp).trans h.a10⟩

theorem Args.after3 {W : Valuation τ sig (Elt F)} {x0 x1 x2 x3 x4 x5 x6 x7 x8 x9 x10 : _} (h : Args W x0 x1 x2 x3 x4 x5 x6 x7 x8 x9 x10) :
    Args (after (ops3 (F := F)) W) x0 x1 x2 x3 x4 x5 x6 x7 x8 x9 x10 :=
  ⟨(show after (ops3 (F := F)) W (Proc.devRef .tc main_arg0) = W (Proc.devRef .tc main_arg0) by after_results_simp).trans h.a0,
   (show after (ops3 (F := F)) W (Proc.devRef .tc main_arg1) = W (Proc.devRef .tc main_arg1) by after_results_simp).trans h.a1,
   (show after (ops3 (F := F)) W (Proc.devRef .tc main_arg2) = W (Proc.devRef .tc main_arg2) by after_results_simp).trans h.a2,
   (show after (ops3 (F := F)) W (Proc.devRef .tc main_arg3) = W (Proc.devRef .tc main_arg3) by after_results_simp).trans h.a3,
   (show after (ops3 (F := F)) W (Proc.devRef .tc main_arg4) = W (Proc.devRef .tc main_arg4) by after_results_simp).trans h.a4,
   (show after (ops3 (F := F)) W (Proc.devRef .tc main_arg5) = W (Proc.devRef .tc main_arg5) by after_results_simp).trans h.a5,
   (show after (ops3 (F := F)) W (Proc.devRef .tc main_arg6) = W (Proc.devRef .tc main_arg6) by after_results_simp).trans h.a6,
   (show after (ops3 (F := F)) W (Proc.devRef .tc main_arg7) = W (Proc.devRef .tc main_arg7) by after_results_simp).trans h.a7,
   (show after (ops3 (F := F)) W (Proc.devRef .tc main_arg8) = W (Proc.devRef .tc main_arg8) by after_results_simp).trans h.a8,
   (show after (ops3 (F := F)) W (Proc.devRef .tc main_arg9) = W (Proc.devRef .tc main_arg9) by after_results_simp).trans h.a9,
   (show after (ops3 (F := F)) W (Proc.devRef .tc main_arg10) = W (Proc.devRef .tc main_arg10) by after_results_simp).trans h.a10⟩

theorem Args.after4 {W : Valuation τ sig (Elt F)} {x0 x1 x2 x3 x4 x5 x6 x7 x8 x9 x10 : _} (h : Args W x0 x1 x2 x3 x4 x5 x6 x7 x8 x9 x10) :
    Args (after (ops4 (F := F)) W) x0 x1 x2 x3 x4 x5 x6 x7 x8 x9 x10 :=
  ⟨(show after (ops4 (F := F)) W (Proc.devRef .tc main_arg0) = W (Proc.devRef .tc main_arg0) by after_results_simp).trans h.a0,
   (show after (ops4 (F := F)) W (Proc.devRef .tc main_arg1) = W (Proc.devRef .tc main_arg1) by after_results_simp).trans h.a1,
   (show after (ops4 (F := F)) W (Proc.devRef .tc main_arg2) = W (Proc.devRef .tc main_arg2) by after_results_simp).trans h.a2,
   (show after (ops4 (F := F)) W (Proc.devRef .tc main_arg3) = W (Proc.devRef .tc main_arg3) by after_results_simp).trans h.a3,
   (show after (ops4 (F := F)) W (Proc.devRef .tc main_arg4) = W (Proc.devRef .tc main_arg4) by after_results_simp).trans h.a4,
   (show after (ops4 (F := F)) W (Proc.devRef .tc main_arg5) = W (Proc.devRef .tc main_arg5) by after_results_simp).trans h.a5,
   (show after (ops4 (F := F)) W (Proc.devRef .tc main_arg6) = W (Proc.devRef .tc main_arg6) by after_results_simp).trans h.a6,
   (show after (ops4 (F := F)) W (Proc.devRef .tc main_arg7) = W (Proc.devRef .tc main_arg7) by after_results_simp).trans h.a7,
   (show after (ops4 (F := F)) W (Proc.devRef .tc main_arg8) = W (Proc.devRef .tc main_arg8) by after_results_simp).trans h.a8,
   (show after (ops4 (F := F)) W (Proc.devRef .tc main_arg9) = W (Proc.devRef .tc main_arg9) by after_results_simp).trans h.a9,
   (show after (ops4 (F := F)) W (Proc.devRef .tc main_arg10) = W (Proc.devRef .tc main_arg10) by after_results_simp).trans h.a10⟩

theorem Args.after5 {W : Valuation τ sig (Elt F)} {x0 x1 x2 x3 x4 x5 x6 x7 x8 x9 x10 : _} (h : Args W x0 x1 x2 x3 x4 x5 x6 x7 x8 x9 x10) :
    Args (after (ops5 (F := F)) W) x0 x1 x2 x3 x4 x5 x6 x7 x8 x9 x10 :=
  ⟨(show after (ops5 (F := F)) W (Proc.devRef .tc main_arg0) = W (Proc.devRef .tc main_arg0) by after_results_simp).trans h.a0,
   (show after (ops5 (F := F)) W (Proc.devRef .tc main_arg1) = W (Proc.devRef .tc main_arg1) by after_results_simp).trans h.a1,
   (show after (ops5 (F := F)) W (Proc.devRef .tc main_arg2) = W (Proc.devRef .tc main_arg2) by after_results_simp).trans h.a2,
   (show after (ops5 (F := F)) W (Proc.devRef .tc main_arg3) = W (Proc.devRef .tc main_arg3) by after_results_simp).trans h.a3,
   (show after (ops5 (F := F)) W (Proc.devRef .tc main_arg4) = W (Proc.devRef .tc main_arg4) by after_results_simp).trans h.a4,
   (show after (ops5 (F := F)) W (Proc.devRef .tc main_arg5) = W (Proc.devRef .tc main_arg5) by after_results_simp).trans h.a5,
   (show after (ops5 (F := F)) W (Proc.devRef .tc main_arg6) = W (Proc.devRef .tc main_arg6) by after_results_simp).trans h.a6,
   (show after (ops5 (F := F)) W (Proc.devRef .tc main_arg7) = W (Proc.devRef .tc main_arg7) by after_results_simp).trans h.a7,
   (show after (ops5 (F := F)) W (Proc.devRef .tc main_arg8) = W (Proc.devRef .tc main_arg8) by after_results_simp).trans h.a8,
   (show after (ops5 (F := F)) W (Proc.devRef .tc main_arg9) = W (Proc.devRef .tc main_arg9) by after_results_simp).trans h.a9,
   (show after (ops5 (F := F)) W (Proc.devRef .tc main_arg10) = W (Proc.devRef .tc main_arg10) by after_results_simp).trans h.a10⟩

/-! ## What each stretch leaves -/

/-- The first side's first-hop layer, -/
theorem first_v10 (W : Valuation τ sig (Elt F)) (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) (x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (h : Args W x0 x1 x2 x3 x4 x5 x6 x7 x8 x9 x10) :
    after (ops1 (F := F)) W (Proc.devRef .tc main_v10) = Cert.RefRead.val_main_v10 (F := F) x1 x2 x6 := by
  after_results
  rw [h.a1, h.a2, h.a6]
  rfl

/-- and the second side's. -/
theorem first_v11 (W : Valuation τ sig (Elt F)) (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) (x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (h : Args W x0 x1 x2 x3 x4 x5 x6 x7 x8 x9 x10) :
    after (ops1 (F := F)) W (Proc.devRef .tc main_v11) = Cert.RefRead.val_main_v11 (F := F) x4 x5 x6 := by
  after_results
  rw [h.a4, h.a5, h.a6]
  rfl

/-- The second side's second-hop mean, from its first-hop layer, -/
theorem second_v15 (W : Valuation τ sig (Elt F)) (x4 : (⟨S16384x128, .f32⟩ : BufTy).Contents (Elt F)) (x5 : (⟨S262144x128, .f32⟩ : BufTy).Contents (Elt F)) (x6 : (⟨S256x128, .f32⟩ : BufTy).Contents (Elt F))
    (h11 : W (Proc.devRef .tc main_v11) = Cert.RefRead.val_main_v11 (F := F) x4 x5 x6) :
    after (ops2 (F := F)) W (Proc.devRef .tc main_v15) = Cert.RefRead.val_main_v15 (F := F) x4 x5 x6 := by
  after_results_simp
  rw [h11]
  rfl

/-- and the first side's. -/
theorem second_v19 (W : Valuation τ sig (Elt F)) (x1 : (⟨S16384x128, .f32⟩ : BufTy).Contents (Elt F)) (x2 : (⟨S262144x128, .f32⟩ : BufTy).Contents (Elt F)) (x6 : (⟨S256x128, .f32⟩ : BufTy).Contents (Elt F))
    (h10 : W (Proc.devRef .tc main_v10) = Cert.RefRead.val_main_v10 (F := F) x1 x2 x6) :
    after (ops2 (F := F)) W (Proc.devRef .tc main_v19) = Cert.RefRead.val_main_v19 (F := F) x1 x2 x6 := by
  after_results_simp
  rw [h10]
  rfl

/-- The second layer, from the two means. -/
theorem third_v25 (W : Valuation τ sig (Elt F)) (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) (x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (h : Args W x0 x1 x2 x3 x4 x5 x6 x7 x8 x9 x10)
    (h15 : W (Proc.devRef .tc main_v15) = Cert.RefRead.val_main_v15 (F := F) x4 x5 x6)
    (h19 : W (Proc.devRef .tc main_v19) = Cert.RefRead.val_main_v19 (F := F) x1 x2 x6) :
    after (ops3 (F := F)) W (Proc.devRef .tc main_v25) = Cert.RefRead.val_main_v25 (F := F) x0 x1 x2 x3 x4 x5 x6 x7 := by
  after_results
  rw [h15, h19, h.a0, h.a3, h.a6, h.a7]
  rfl

/-- The logits, from the second layer. -/
theorem fourth_v31 (W : Valuation τ sig (Elt F)) (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) (x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (h : Args W x0 x1 x2 x3 x4 x5 x6 x7 x8 x9 x10)
    (h25 : W (Proc.devRef .tc main_v25) = Cert.RefRead.val_main_v25 (F := F) x0 x1 x2 x3 x4 x5 x6 x7) :
    after (ops4 (F := F)) W (Proc.devRef .tc main_v31) = Cert.RefRead.val_main_v31 (F := F) x0 x1 x2 x3 x4 x5 x6 x7 x8 x9 x10 := by
  after_results_simp
  simp only [Cert.Lib.ofBuf_toBuf]
  rw [h25, h.a8, h.a9, h.a10]
  rfl

/-- The result, from the logits. -/
theorem fifth_v42 (W : Valuation τ sig (Elt F)) (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) (x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F))
    (h31 : W (Proc.devRef .tc main_v31) = Cert.RefRead.val_main_v31 (F := F) x0 x1 x2 x3 x4 x5 x6 x7 x8 x9 x10) :
    after (ops5 (F := F)) W (Proc.devRef .tc main_v42) = Cert.RefRead.val_main_v42 (F := F) x0 x1 x2 x3 x4 x5 x6 x7 x8 x9 x10 := by
  after_results_simp
  rw [h31]
  rfl

/-! ## The whole line -/

/-- After the whole line, from contents that hold the argument arrays: the result buffer holds the last stage's value of
    them, and the argument arrays are still held. -/
theorem after_ops (V : Valuation τ sig (Elt F)) (x0 : (⟨S1024x128, .f32⟩ : BufTy).Contents (Elt F)) (x1 : (⟨S16384x128, .f32⟩ : BufTy).Contents (Elt F)) (x2 : (⟨S262144x128, .f32⟩ : BufTy).Contents (Elt F)) (x3 : (⟨S1024x128, .f32⟩ : BufTy).Contents (Elt F)) (x4 : (⟨S16384x128, .f32⟩ : BufTy).Contents (Elt F)) (x5 : (⟨S262144x128, .f32⟩ : BufTy).Contents (Elt F)) (x6 : (⟨S256x128, .f32⟩ : BufTy).Contents (Elt F)) (x7 : (⟨S256x128, .f32⟩ : BufTy).Contents (Elt F)) (x8 : (⟨S128x64, .f32⟩ : BufTy).Contents (Elt F)) (x9 : (⟨S64x8, .f32⟩ : BufTy).Contents (Elt F)) (x10 : (⟨S8x2, .f32⟩ : BufTy).Contents (Elt F)) (hA : Args V x0 x1 x2 x3 x4 x5 x6 x7 x8 x9 x10) :
    after (ops (F := F)) V (Proc.devRef .tc main_v42) = Cert.RefRead.val_main_v42 (F := F) x0 x1 x2 x3 x4 x5 x6 x7 x8 x9 x10
      ∧ Args (after (ops (F := F)) V) x0 x1 x2 x3 x4 x5 x6 x7 x8 x9 x10 := by
  have e : after (ops (F := F)) V
      = after (ops5 (F := F)) (after (ops4 (F := F)) (after (ops3 (F := F)) (after (ops2 (F := F)) (after (ops1 (F := F)) V)))) := by
    rw [ops_split, Cert.Lib.after_append, Cert.Lib.after_append, Cert.Lib.after_append, Cert.Lib.after_append]
  rw [e]
  have A1 := hA.after1
  have A2 := A1.after2
  have A3 := A2.after3
  have A4 := A3.after4
  refine ⟨?_, A4.after5⟩
  have h10 := first_v10 V x0 x1 x2 x3 x4 x5 x6 x7 x8 x9 x10 hA
  have h11 := first_v11 V x0 x1 x2 x3 x4 x5 x6 x7 x8 x9 x10 hA
  have h15 := second_v15 _ x4 x5 x6 h11
  have h19 := second_v19 _ x1 x2 x6 h10
  have h25 := third_v25 _ x0 x1 x2 x3 x4 x5 x6 x7 x8 x9 x10 A2 h15 h19
  have h31 := fourth_v31 _ x0 x1 x2 x3 x4 x5 x6 x7 x8 x9 x10 A3 h25
  exact fifth_v42 _ x0 x1 x2 x3 x4 x5 x6 x7 x8 x9 x10 h31

/-- On every device, for any float values, from any memory with zero counters: every weakly fair execution of @main
    terminates with the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = Cert.RefRead.val_main_v42 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      have hA : Args (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
        ⟨rfl, rfl, rfl, rfl, rfl, rfl, rfl, rfl, rfl, rfl, rfl⟩
      obtain ⟨hv, hF⟩ := after_ops (launchContents m c) _ _ _ _ _ _ _ _ _ _ _ hA
      exact ⟨(h c main_v42).trans hv, (h c main_arg0).trans hF.a0, (h c main_arg1).trans hF.a1, (h c main_arg2).trans hF.a2, (h c main_arg3).trans hF.a3, (h c main_arg4).trans hF.a4, (h c main_arg5).trans hF.a5, (h c main_arg6).trans hF.a6, (h c main_arg7).trans hF.a7, (h c main_arg8).trans hF.a8, (h c main_arg9).trans hF.a9, (h c main_arg10).trans hF.a10⟩)
    (run_seq scopedRefs_eq scopedSems_eq defs main (fun _ => ops) main_eq (fun _ => ops_sub) m ρ)

end Cert.RefRun

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«100680_g9603546873884_cont_9to1c4b_371_3_alg».proof.Proof.LibMatmul2
import proofs.«100680_g9603546873884_cont_9to1c4b_371_3_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibTileFlatten.lean ====
/-
  A stack of matrices flattened for a matrix product, and cut back.

  A [a, b, n] stack becomes a [m, n] matrix with m = a·b (what a reshape before a matrix product does) and a [m, n]
  result is cut back into a [a, b, n] stack: a cast keeps the row-major position, so row `r = p·b + q` of the matrix is
  entry (p, q) of the stack. With them, two repeats read at an index: a [a, b, 1] stack repeated along its last axis,
  and a vector [n] given two leading unit axes. Every lemma is generic in the extents and has both indices written by
  their coordinates.
-/
import Idealize.ShloMosaic.Lib.ValueLayout

namespace Cert.Lib

open Idealize.ShloMosaic Idealize.ShloMosaic.ValueIdx

variable {α : Type}

/-- A [a, b, n] stack flattened to a [m, n] matrix (m = a·b) reads, at row `r = p·b + q` and column k, the stack at
    (p, q, k). -/
theorem shapeCast_abn_mn_apply {a b n m : ℕ} (x : (⟨3, ![a, b, n]⟩ : Shape).Idx → α)
    (h : (⟨3, ![a, b, n]⟩ : Shape).ShapeCasts ⟨2, ![m, n]⟩) (p : Fin a) (q : Fin b) (k : Fin n) (r : Fin m)
    (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- A [m, n] matrix (m = a·b) cut into a [a, b, n] stack reads, at (p, q, k), the matrix at row `r = p·b + q`. -/
theorem shapeCast_mn_abn_apply {a b n m : ℕ} (x : (⟨2, ![m, n]⟩ : Shape).Idx → α)
    (h : (⟨2, ![m, n]⟩ : Shape).ShapeCasts ⟨3, ![a, b, n]⟩) (p : Fin a) (q : Fin b) (k : Fin n) (r : Fin m)
    (hr : r.val = p.val * b + q.val) :
    shapeCast ⟨3, ![a, b, n]⟩ x h (ix3 p q k) = x (ix2 r k) :=
  shapeCast_apply x h _ _ (by
    rw [Shape.rowMajor_val_three, Shape.rowMajor_val_two]
    show r.val * n + k.val = (p.val * b + q.val) * n + k.val
    rw [hr])

/-- A [a, b, 1] stack repeated along its last axis to [a, b, n] reads, at (p, q, k), the stack at (p, q, 0). -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [n] given two leading unit axes reads, at (u, v, k), the vector at k. -/
theorem shapeCast_n_11n_apply {n : ℕ} (x : (⟨1, ![n]⟩ : Shape).Idx → α)
    (h : (⟨1, ![n]⟩ : Shape).ShapeCasts ⟨3, ![1, 1, n]⟩) (u v : Fin 1) (k : Fin n) :
    shapeCast ⟨3, ![1, 1, n]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * n + k.val
    rw [hu, hv]
    simp)

end Cert.Lib
-- ==== Proof.LibMidAxisSum.lean ====
/-
  A sum over the MIDDLE axis of a stack, read at an index.

  A `[a, b, n]` stack summed over its middle axis gives an `[a, n]` matrix; at the ideal values its entry `(p, q)` is the
  sum over `k < b` of the stack at `(p, k, q)`: the index above `(p, q)` with coordinate `k` inserted on axis 1 is
  `(p, k, q)`. Generic in the three extents and the float format.
-/
import Idealize.ShloMosaic.Lib.ValueIdx
import Idealize.ShloMosaic.PureOps.Ideal.Laws

namespace Cert.Lib

open Idealize.ShloMosaic Idealize.ShloMosaic.ValueIdx

/-- Over the stack's middle axis, the index above `(p, q)` with coordinate `k` inserted is `(p, k, q)`. -/
theorem lift_mid_ix2 {a b n : ℕ} (h : (⟨3, ![a, b, n]⟩ : Shape).Reduces [1] ⟨2, ![a, n]⟩) (p : Fin a) (q : Fin n) (k : Fin b) :
    h.lift (ix2 p q) k = ix3 p k q := by
  funext c
  apply Fin.ext
  match c with
  | ⟨0, _⟩ => rfl
  | ⟨1, _⟩ => rfl
  | ⟨2, _⟩ => rfl

/-- At the ideal values, a sum over the middle axis of an `[a, b, n]` stack, read at `(p, q)`, is the sum over `k` of the
    stack at `(p, k, q)`. -/
theorem midSum_apply {a b n : ℕ} {φ : FTy} (src : FVec Ideal ⟨3, ![a, b, n]⟩ φ) (acc : BitVec φ.bits)
    (h : (⟨3, ![a, b, n]⟩ : Shape).Reduces [1] ⟨2, ![a, n]⟩) (hφ : FKind.Formats φ) (hacc : acc = FKind.add.neutral φ hφ)
    (p : Fin a) (q : Fin n) :
    multiReduction .add [1] ⟨2, ![a, n]⟩ src acc h hφ hacc (ix2 p q) = ∑ k : Fin b, src (ix3 p k q) := by
  refine (Ideal.multiReduction_add_single src acc h hφ hacc (ix2 p q)).trans ?_
  exact Finset.sum_congr rfl fun k _ => congrArg src (lift_mid_ix2 h p q k)

end Cert.Lib
-- ==== Proof.AccBridgeConsts.lean ====
/-
  The two float words of a mean of sixteen, and the rows a mean of sixteen is taken over.

  One side of the comparison divides a sum of sixteen entries by the word that denotes 16, the other multiplies it by
  the word that denotes 1/16. Both words denote these reals exactly, and on every extended real, the two infinities
  included, dividing by 16 is multiplying by 1/16.

  The sixteen rows under row `p` of a matrix of `n` rows are rows `16·p + j`, `j < 16`, of a matrix of `16·n` rows.
-/
import Idealize.ShloMosaic.PureOps.Ideal
import Idealize.ShloMosaic.PureOps.Ideal.Laws

noncomputable section

namespace Cert.AccBridge

open Idealize.ShloMosaic

/-- The word `0x41800000` denotes the real 16. -/
theorem ofBits_sixteen : Ideal.ofBits .f32 0x41800000#32 = ((16 : ℝ) : EReal) := by
  simp [Ideal.ofBits, Ideal.ieee, -EReal.coe_mul]; norm_num

/-- The word `0x3D800000` denotes the real 1/16. -/
theorem ofBits_sixteenth : Ideal.ofBits .f32 0x3D800000#32 = ((1 / 16 : ℝ) : EReal) := by
  simp [Ideal.ofBits, Ideal.ieee, -EReal.coe_mul]; norm_num

/-- Dividing an extended real by the first word is multiplying it by the second. -/
theorem div_sixteen (x : EReal) :
    Ideal.div x (Ideal.ofBits .f32 0x41800000#32) = x * Ideal.ofBits .f32 0x3D800000#32 := by
  rw [ofBits_sixteen, ofBits_sixteenth]
  exact Ideal.div_coe (by norm_num) x

/-- Row `16·ρ + j` of 1024 rows: the `j`-th of the sixteen rows under row `ρ` of 64. -/
def row64 (ρ : Fin 64) (j : Fin 16) : Fin 1024 :=
  ⟨ρ.val * 16 + j.val, by have := ρ.isLt; have := j.isLt; omega⟩

/-- Row `16·R + l` of 16384 rows: the `l`-th of the sixteen rows under row `R` of 1024. -/
def row1024 (R : Fin 1024) (l : Fin 16) : Fin 16384 :=
  ⟨R.val * 16 + l.val, by have := R.isLt; have := l.isLt; omega⟩

/-- Row `16·R + l` of 262144 rows: the `l`-th of the sixteen rows under row `R` of 16384. -/
def row16384 (R : Fin 16384) (l : Fin 16) : Fin 262144 :=
  ⟨R.val * 16 + l.val, by have := R.isLt; have := l.isLt; omega⟩

/-- Column `k` of the first 128 of 256, -/
def lo (k : Fin 128) : Fin 256 := ⟨k.val, by have := k.isLt; omega⟩

/-- and column `128 + k`, of the last 128. -/
def hi (k : Fin 128) : Fin 256 := ⟨128 + k.val, by have := k.isLt; omega⟩

/-- A sum over 256 terms is the sum over the first 128 plus the sum over the last 128. -/
theorem sum_split256 {M : Type*} [AddCommMonoid M] (f : Fin 256 → M) :
    ∑ k : Fin 256, f k = ∑ k : Fin 128, f (lo k) + ∑ k : Fin 128, f (hi k) :=
  Fin.sum_univ_add (a := 128) (b := 128) f

end Cert.AccBridge

end
-- ==== Proof.AccBridgeKernel.lean ====
/-
  One band of an accumulator read at an entry.

  At a grid point the body takes a block of 1024 first-hop rows `n1` and the 16384 second-hop rows `n2` under them, and
  the two halves `u`, `l` of a 256-row weight matrix. Its first-hop layer has, at block row `R` and column `c`,

      hop (R, c) = Σ_{k<128} n1 (R, k) · u (k, c) + Σ_{k<128} ((Σ_{l<16} n2 (16·R + l, k)) · (1/16)) · l (k, c),

  a product into a zero accumulator being the plain sum of products, and a sum over the middle axis of the block cut into
  groups of sixteen rows being the sum over the sixteen rows of the group. The band the point stores is the mean of the
  layer over the sixteen block rows under each of its 64 rows: (Σ_{j<16} hop (16·ρ + j, c)) · (1/16) at (ρ, c). The body
  computes this band twice, once per side; the second time the product with the splat 1/16 is taken in a later payload,
  and the composed term is the same.
-/
import proofs.«100680_g9603546873884_cont_9to1c4b_371_3_alg».proof.Proof.Gen.KernelIdeal.Skeleton
import proofs.«100680_g9603546873884_cont_9to1c4b_371_3_alg».proof.Proof.LibEntryReads
import proofs.«100680_g9603546873884_cont_9to1c4b_371_3_alg».proof.Proof.LibTileFlatten
import proofs.«100680_g9603546873884_cont_9to1c4b_371_3_alg».proof.Proof.LibMidAxisSum
import proofs.«100680_g9603546873884_cont_9to1c4b_371_3_alg».proof.Proof.AccBridgeConsts
import Idealize.ShloMosaic.Lib.ValueIdx
import Idealize.ShloMosaic.Lib.ValueLayout
import Idealize.ShloMosaic.Lib.Pipeline.Value
import Idealize.ShloMosaic.PureOps.Ideal.Laws

noncomputable section

namespace Cert.AccBridge

open Idealize.ShloMosaic Idealize.ShloMosaic.ValueIdx Cert.KernelIdeal Cert.KernelIdeal.Gen

/-- The first-hop layer of one block, as the body spells it. -/
def hop {F : FTy → Type} [FloatOps F] (v0 v1 : Vec F S128x128 .f32) (v2 : Vec F S16384x128 .f32) (v7 : Vec F S1024x128 .f32) :
    FVec F S1024x128 .f32 :=
  addf (matmul dot_S1024x128_S128x128_S1024x128_1_0_0_1_n_n none v7 v0 (constant S1024x128 .f32 0x00000000#32))
    (matmul dot_S1024x128_S128x128_S1024x128_1_0_0_1_n_n none
      (mulf (multiReduction .add [1] S1024x128 (shapeCast S1024x16x128 v2 shapeCasts_S16384x128_S1024x16x128) 0x00000000#32
          reduces_S1024x16x128_S1024x128 (.inl rfl) rfl)
        (broadcast S1024x128 (Scalar.ofBits .f32 0x3D800000#32)))
      v1 (constant S1024x128 .f32 0x00000000#32))

/-- The layer at block row `R` and column `c`. -/
theorem hop_apply (v0 v1 : Vec Ideal S128x128 .f32) (v2 : Vec Ideal S16384x128 .f32) (v7 : Vec Ideal S1024x128 .f32)
    (R : Fin 1024) (c : Fin 128) :
    hop (F := Ideal) v0 v1 v2 v7 (ix2 R c)
      = ∑ k : Fin 128, v7 (ix2 R k) * v0 (ix2 k c)
        + ∑ k : Fin 128, ((∑ l : Fin 16, v2 (ix2 (row1024 R l) k)) * Ideal.ofBits .f32 0x3D800000#32) * v1 (ix2 k c) := by
  unfold hop
  rw [addf_apply]
  refine congrArg₂ (· + ·)
    (Cert.Lib.matmul_plain_apply dot_S1024x128_S128x128_S1024x128_1_0_0_1_n_n
      dot_S1024x128_S128x128_S1024x128_1_0_0_1_n_n_wf rfl v7 v0 R c) ?_
  refine (Cert.Lib.matmul_plain_apply dot_S1024x128_S128x128_S1024x128_1_0_0_1_n_n
      dot_S1024x128_S128x128_S1024x128_1_0_0_1_n_n_wf rfl _ v1 R c).trans ?_
  refine Finset.sum_congr rfl fun k _ => ?_
  rw [mulf_apply, broadcast_apply]
  refine congrArg (fun z => z * _ * _) ?_
  refine (Cert.Lib.midSum_apply (a := 1024) (b := 16) (n := 128) _ _ reduces_S1024x16x128_S1024x128 _ _ R k).trans ?_
  exact Finset.sum_congr rfl fun l _ => Cert.Lib.shapeCast_mn_abn_apply v2 _ R l k (row1024 R l) rfl

/-- The band the point stores into the first accumulator, at row `ρ` and column `c`. -/
theorem pay5_apply (v0 v1 : Vec Ideal S128x128 .f32) (v2 : Vec Ideal S16384x128 .f32) (v7 : Vec Ideal S1024x128 .f32)
    (ρ : Fin 64) (c : Fin 128) :
    k0_pay5 (F := Ideal) v0 v1 v2 v7 (ix2 ρ c)
      = (∑ j : Fin 16, hop (F := Ideal) v0 v1 v2 v7 (ix2 (row64 ρ j) c)) * Ideal.ofBits .f32 0x3D800000#32 := by
  show shapeCast S64x128 (mulf (multiReduction .add [1] S64x128
      (shapeCast S64x16x128 (hop (F := Ideal) v0 v1 v2 v7) shapeCasts_S1024x128_S64x16x128) 0x00000000#32
      reduces_S64x16x128_S64x128 (.inl rfl) rfl) (broadcast S64x128 (Scalar.ofBits .f32 0x3D800000#32)))
    shapeCasts_S64x128_S64x128 (ix2 ρ c) = _
  rw [shapeCast_self, mulf_apply, broadcast_apply]
  refine congrArg (· * _) ?_
  refine (Cert.Lib.midSum_apply (a := 64) (b := 16) (n := 128) _ _ reduces_S64x16x128_S64x128 _ _ ρ c).trans ?_
  exact Finset.sum_congr rfl fun j _ =>
    Cert.Lib.shapeCast_mn_abn_apply (hop (F := Ideal) v0 v1 v2 v7) _ ρ j c (row64 ρ j) rfl

/-- The band stored into the second accumulator is the same term: the sum over the sixteen rows in one payload, its
    product with the splat 1/16 in the next. -/
theorem pay1_pay6_eq (v0 v1 : Vec Ideal S128x128 .f32) (v11 : Vec Ideal S16384x128 .f32) (v16 : Vec Ideal S1024x128 .f32) :
    k0_pay1 (F := Ideal) (k0_pay6 v0 v1 v11 v16) (k0_pay7 (F := Ideal)) = k0_pay5 v0 v1 v11 v16 := rfl

end Cert.AccBridge

end
-- ==== Proof.LibConcatWide.lean ====
/-
  Two matrices set side by side, read at an entry.

  The concatenation along the columns of an [n, w₁] matrix a and an [n, w₂] matrix b is the [n, W] matrix (W = w₁ + w₂)
  whose entry (r, k) is a(r, k) for k < w₁ and b(r, k − w₁) from column w₁ on.
-/
import Idealize.ShloMosaic.Lib.Pipeline.Value
import Idealize.ShloMosaic.Lib.ValueIdx

noncomputable section

namespace Cert.Lib

open Idealize.ShloMosaic Idealize.ShloMosaic.ValueIdx

variable {α : Type}

/-- Two matrices side by side, read at a column of the first: that entry of the first. -/
theorem concat_wide_left {n w1 w2 W : Nat}
    (h : Shape.Concatenates [(⟨2, ![n, w1]⟩ : Shape), ⟨2, ![n, w2]⟩] ⟨2, ![n, W]⟩ 1)
    (a : (⟨2, ![n, w1]⟩ : Shape).Idx → α) (b : (⟨2, ![n, w2]⟩ : Shape).Idx → α) (r : Fin n) (k : Fin W)
    (hk : k.val < w1) :
    concatenate ⟨2, ![n, W]⟩ 1 [⟨⟨2, ![n, w1]⟩, a⟩, ⟨⟨2, ![n, w2]⟩, b⟩] h (ix2 r k) = a (ix2 r ⟨k.val, hk⟩) :=
  concatenate_pair_apply_left 1 a b h (ix2 r k) rfl (ix2 r ⟨k.val, hk⟩)
    (fun c => match c with | ⟨0, _⟩ => rfl | ⟨1, _⟩ => rfl)

/-- … and at a column past the first: the second's entry, the first's width less. -/
theorem concat_wide_right {n w1 w2 W : Nat}
    (h : Shape.Concatenates [(⟨2, ![n, w1]⟩ : Shape), ⟨2, ![n, w2]⟩] ⟨2, ![n, W]⟩ 1)
    (a : (⟨2, ![n, w1]⟩ : Shape).Idx → α) (b : (⟨2, ![n, w2]⟩ : Shape).Idx → α) (r : Fin n) (k : Fin W)
    (hk : w1 ≤ k.val) (hlt : k.val - w1 < w2) :
    concatenate ⟨2, ![n, W]⟩ 1 [⟨⟨2, ![n, w1]⟩, a⟩, ⟨⟨2, ![n, w2]⟩, b⟩] h (ix2 r k) = b (ix2 r ⟨k.val - w1, hlt⟩) :=
  concatenate_pair_apply_right 1 a b h (ix2 r k) rfl rfl (ix2 r ⟨k.val - w1, hlt⟩)
    (fun c hc => match c, hc with
      | ⟨0, _⟩, _ => rfl
      | ⟨1, _⟩, hc => absurd rfl hc)
    (by show (k.val - w1) + w1 = k.val; omega)

end Cert.Lib

end
-- ==== Proof.AccBridgeRef.lean ====
/-
  The reference's second-hop mean read at an entry.

  The reference computes, for a side with first-hop features `n1` (16384 rows) and second-hop features `n2` (262144
  rows), the mean of the sixteen second-hop rows under each first-hop row — a sum from zero over the middle axis of `n2`
  cut into groups of sixteen rows, divided by 16, which is that sum times 1/16 —, sets it beside `n1` by columns,
  multiplies the 256 columns by the 256-row weight matrix `w`, and takes the mean of the sixteen first-hop rows under
  each node in the same way. The product over 256 columns splits at column 128 into the part that meets `n1` and the
  part that meets the mean. Read at an entry:

      layer (R, c) = Σ_{k<128} n1 (R, k) · w (k, c) + Σ_{k<128} ((Σ_{l<16} n2 (16·R + l, k)) · (1/16)) · w (128 + k, c),
      mean  (r, c) = (Σ_{j<16} layer (16·r + j, c)) · (1/16).

  The program computes this for its two sides with the same operations, so the two results are one function of the
  side's arrays.
-/
import proofs.«100680_g9603546873884_cont_9to1c4b_371_3_alg».proof.Proof.RefRead
import proofs.«100680_g9603546873884_cont_9to1c4b_371_3_alg».proof.Proof.LibConcatWide
import proofs.«100680_g9603546873884_cont_9to1c4b_371_3_alg».proof.Proof.AccBridgeConsts
import Idealize.ShloMosaic.Lib.ValueIdx
import Idealize.ShloMosaic.Lib.Pipeline.Value
import Idealize.ShloMosaic.PureOps.Ideal.Laws

noncomputable section

namespace Cert.AccBridge

open Idealize.ShloMosaic Idealize.ShloMosaic.ValueIdx Cert.ReferenceIdeal Cert.ReferenceIdeal.Gen Cert.RefRead

/-- The mean of the sixteen second-hop rows under first-hop row `R`, at column `k`. -/
theorem ref7_apply (x2 : (⟨S262144x128, .f32⟩ : BufTy).Contents (Elt Ideal)) (R : Fin 16384) (k : Fin 128) :
    val_main_v7 (F := Ideal) x2 (ix2 R k)
      = (∑ l : Fin 16, x2 (ix2 (row16384 R l) k)) * Ideal.ofBits .f32 0x3D800000#32 := by
  rw [val_main_v7_apply, val_main_v5_apply, val_main_v6_apply, val_main_cst_2_apply, val_main_cst_1_apply]
  simp only [Ideal.hostDivf_def, Ideal.ofBits_def, Ideal.ofBits_zero_f32, zero_add, div_sixteen]
  refine congrArg (· * _) (Finset.sum_congr rfl fun l _ => ?_)
  rw [val_main_v4_apply]
  refine congrArg x2 (funext fun a => Fin.ext ?_)
  have hk := k.isLt
  match a with
  | ⟨0, _⟩ => show ((R.val * 16 + l.val) * 128 + k.val) / 128 = R.val * 16 + l.val; omega
  | ⟨1, _⟩ => show ((R.val * 16 + l.val) * 128 + k.val) % 128 = k.val; omega

/-- The two arrays set side by side, read at one of the first 128 columns: the first-hop features; -/
theorem ref9_lo (x1 : (⟨S16384x128, .f32⟩ : BufTy).Contents (Elt Ideal)) (x2 : (⟨S262144x128, .f32⟩ : BufTy).Contents (Elt Ideal))
    (R : Fin 16384) (k : Fin 128) :
    val_main_v9 (F := Ideal) x1 x2 (ix2 R (lo k)) = x1 (ix2 R k) := by
  unfold val_main_v9
  exact Cert.Lib.concat_wide_left concatenates_S16384x128_S16384x128_S16384x256_d1 x1 (val_main_v7 (F := Ideal) x2) R (lo k) k.isLt

/-- and at one of the last 128: the mean. -/
theorem ref9_hi (x1 : (⟨S16384x128, .f32⟩ : BufTy).Contents (Elt Ideal)) (x2 : (⟨S262144x128, .f32⟩ : BufTy).Contents (Elt Ideal))
    (R : Fin 16384) (k : Fin 128) :
    val_main_v9 (F := Ideal) x1 x2 (ix2 R (hi k)) = val_main_v7 (F := Ideal) x2 (ix2 R k) := by
  unfold val_main_v9
  have hk := k.isLt
  refine (Cert.Lib.concat_wide_right concatenates_S16384x128_S16384x128_S16384x256_d1 x1 (val_main_v7 (F := Ideal) x2) R (hi k)
    (by show 128 ≤ 128 + k.val; omega) (by show 128 + k.val - 128 < 128; omega)).trans ?_
  exact congrArg (val_main_v7 (F := Ideal) x2) (congrArg (ix2 R ·) (Fin.ext (by show 128 + k.val - 128 = k.val; omega)))

/-- The first-hop layer at row `R` and column `c`. -/
theorem ref10_apply (x1 : (⟨S16384x128, .f32⟩ : BufTy).Contents (Elt Ideal)) (x2 : (⟨S262144x128, .f32⟩ : BufTy).Contents (Elt Ideal))
    (x6 : (⟨S256x128, .f32⟩ : BufTy).Contents (Elt Ideal)) (R : Fin 16384) (c : Fin 128) :
    val_main_v10 (F := Ideal) x1 x2 x6 (ix2 R c)
      = ∑ k : Fin 128, x1 (ix2 R k) * x6 (ix2 (lo k) c)
        + ∑ k : Fin 128, ((∑ l : Fin 16, x2 (ix2 (row16384 R l) k)) * Ideal.ofBits .f32 0x3D800000#32) * x6 (ix2 (hi k) c) := by
  rw [val_main_v10_apply, sum_split256]
  refine congrArg₂ (· + ·) (Finset.sum_congr rfl fun k _ => ?_) (Finset.sum_congr rfl fun k _ => ?_)
  · have e1 : lidx_main_v10 (ix2 R c) (lo k) = ix2 R (lo k) :=
      funext fun a => Fin.ext (by match a with | ⟨0, _⟩ => rfl | ⟨1, _⟩ => rfl)
    have e2 : ridx_main_v10 (ix2 R c) (lo k) = ix2 (lo k) c :=
      funext fun a => Fin.ext (by match a with | ⟨0, _⟩ => rfl | ⟨1, _⟩ => rfl)
    rw [e1, e2, ref9_lo]
  · have e1 : lidx_main_v10 (ix2 R c) (hi k) = ix2 R (hi k) :=
      funext fun a => Fin.ext (by match a with | ⟨0, _⟩ => rfl | ⟨1, _⟩ => rfl)
    have e2 : ridx_main_v10 (ix2 R c) (hi k) = ix2 (hi k) c :=
      funext fun a => Fin.ext (by match a with | ⟨0, _⟩ => rfl | ⟨1, _⟩ => rfl)
    rw [e1, e2, ref9_hi, ref7_apply]

/-- The second-hop mean of the layer at node `r` and column `c`. -/
theorem ref19_apply (x1 : (⟨S16384x128, .f32⟩ : BufTy).Contents (Elt Ideal)) (x2 : (⟨S262144x128, .f32⟩ : BufTy).Contents (Elt Ideal))
    (x6 : (⟨S256x128, .f32⟩ : BufTy).Contents (Elt Ideal)) (r : Fin 1024) (c : Fin 128) :
    val_main_v19 (F := Ideal) x1 x2 x6 (ix2 r c)
      = (∑ j : Fin 16, val_main_v10 (F := Ideal) x1 x2 x6 (ix2 (row1024 r j) c)) * Ideal.ofBits .f32 0x3D800000#32 := by
  rw [val_main_v19_apply, val_main_v17_apply, val_main_v18_apply, val_main_cst_6_apply, val_main_cst_5_apply]
  simp only [Ideal.hostDivf_def, Ideal.ofBits_def, Ideal.ofBits_zero_f32, zero_add, div_sixteen]
  refine congrArg (· * _) (Finset.sum_congr rfl fun j _ => ?_)
  rw [val_main_v16_apply]
  refine congrArg (val_main_v10 (F := Ideal) x1 x2 x6) (funext fun a => Fin.ext ?_)
  have hc := c.isLt
  match a with
  | ⟨0, _⟩ => show ((r.val * 16 + j.val) * 128 + c.val) / 128 = r.val * 16 + j.val; omega
  | ⟨1, _⟩ => show ((r.val * 16 + j.val) * 128 + c.val) % 128 = c.val; omega

/-- The other side's mean is the same function of that side's arrays: the same operations in the same order. -/
theorem ref15_eq_ref19 (x4 : (⟨S16384x128, .f32⟩ : BufTy).Contents (Elt Ideal)) (x5 : (⟨S262144x128, .f32⟩ : BufTy).Contents (Elt Ideal))
    (x6 : (⟨S256x128, .f32⟩ : BufTy).Contents (Elt Ideal)) :
    val_main_v15 (F := Ideal) x4 x5 x6 = val_main_v19 (F := Ideal) x4 x5 x6 := rfl

end Cert.AccBridge

end
-- ==== Proof.AccBridge.lean ====
/-
  The two accumulators are the reference's two second-hop means.

  Row `r` of an accumulator is filled at grid point `t = r / 64`, as row `ρ = r % 64` of the band that point computes from
  its block of 1024 first-hop rows (rows `1024·t …` of the whole array) and its block of 16384 second-hop rows (rows
  `16384·t …`). The band's entry is the mean over the block rows `16·ρ + j`, `j < 16`, of the first-hop layer, and block
  row `16·ρ + j` is row `1024·t + 16·ρ + j = 16·r + j` of the whole array — the rows the reference's mean at node `r`
  runs over; under it, block row `16·(16·ρ + j) + l` of the second-hop block is row `16·(16·r + j) + l` of the whole
  array. The upper and lower halves of the weight matrix are its rows `k` and `128 + k`. So the two double sums have
  the same terms, and both sides multiply by the same word for 1/16.
-/
import proofs.«100680_g9603546873884_cont_9to1c4b_371_3_alg».proof.Proof.KernelOut
import proofs.«100680_g9603546873884_cont_9to1c4b_371_3_alg».proof.Proof.AccBridgeKernel
import proofs.«100680_g9603546873884_cont_9to1c4b_371_3_alg».proof.Proof.AccBridgeRef

noncomputable section

namespace Cert.AccBridge

open Idealize.ShloMosaic Idealize.ShloMosaic.ValueIdx Cert.KernelIdeal Cert.KernelIdeal.Gen Cert.KernelOut Cert.RefRead

/-- A block of rows read at an entry, with the row of the whole matrix named. -/
theorem rowsAt_eq (N n C : Nat) (o : Nat) (h : o + n ≤ N) {α : Type} (X : (⟨2, ![N, C]⟩ : Shape).Idx → α)
    (p : Fin n) (q : Fin C) (R : Fin N) (hR : R.val = o + p.val) :
    rowsAt N n C o h X (ix2 p q) = X (ix2 R q) := by
  rw [rowsAt_apply]
  exact congrArg X (congrArg (ix2 · q) (Fin.ext hR.symm))

/-- The first accumulator at node `r` and column `c`: the band of the point that owns the row. -/
theorem accFirst_apply (x1 : Vec Ideal S16384x128 .f32) (x2 : Vec Ideal S262144x128 .f32) (x6 : Vec Ideal S256x128 .f32)
    (r : Fin 1024) (c : Fin 128) :
    accFirst (F := Ideal) x1 x2 x6 (ix2 r c)
      = k0_pay5 (F := Ideal) (upper x6) (lower x6)
          (rowsAt 262144 16384 128 (r.val / 64 * 16384) (by have := r.isLt; omega) x2)
          (rowsAt 16384 1024 128 (r.val / 64 * 1024) (by have := r.isLt; omega) x1)
          (ix2 ⟨r.val % 64, Nat.mod_lt _ (by decide)⟩ c) := rfl

/-- The first accumulator is the reference's second-hop mean of the first side. -/
theorem accFirst_eq (x1 : Vec Ideal Cert.KernelIdeal.S16384x128 .f32) (x2 : Vec Ideal Cert.KernelIdeal.S262144x128 .f32)
    (x6 : Vec Ideal Cert.KernelIdeal.S256x128 .f32) :
    Cert.KernelOut.accFirst (F := Ideal) x1 x2 x6 = Cert.RefRead.val_main_v19 (F := Ideal) x1 x2 x6 := by
  funext y
  obtain ⟨r, c, rfl⟩ : ∃ (r : Fin 1024) (c : Fin 128), y = ix2 r c := ⟨y 0, y 1, eq_ix2 y⟩
  rw [accFirst_apply, pay5_apply, ref19_apply]
  refine congrArg (· * _) (Finset.sum_congr rfl fun j _ => ?_)
  rw [hop_apply, ref10_apply]
  have hr := r.isLt
  have hj := j.isLt
  refine congrArg₂ (· + ·) (Finset.sum_congr rfl fun k _ => ?_) (Finset.sum_congr rfl fun k _ => ?_)
  · exact congrArg₂ (· * ·)
      (rowsAt_eq 16384 1024 128 _ _ x1 _ k (row1024 r j)
        (by show r.val * 16 + j.val = r.val / 64 * 1024 + (r.val % 64 * 16 + j.val); omega))
      (rowsAt_eq 256 128 128 0 _ x6 k c (lo k) (by show k.val = 0 + k.val; omega))
  · refine congrArg₂ (· * ·) (congrArg (· * _) (Finset.sum_congr rfl fun l _ => ?_))
      (rowsAt_eq 256 128 128 128 _ x6 k c (hi k) rfl)
    have hl := l.isLt
    exact rowsAt_eq 262144 16384 128 _ _ x2 _ k (row16384 (row1024 r j) l)
      (by show (r.val * 16 + j.val) * 16 + l.val = r.val / 64 * 16384 + ((r.val % 64 * 16 + j.val) * 16 + l.val); omega)

/-- The second accumulator is the reference's second-hop mean of the second side: the body computes its band by the
    same term, and the reference its mean by the same operations. -/
theorem accSecond_eq (x4 : Vec Ideal Cert.KernelIdeal.S16384x128 .f32) (x5 : Vec Ideal Cert.KernelIdeal.S262144x128 .f32)
    (x6 : Vec Ideal Cert.KernelIdeal.S256x128 .f32) :
    Cert.KernelOut.accSecond (F := Ideal) x4 x5 x6 = Cert.RefRead.val_main_v15 (F := Ideal) x4 x5 x6 :=
  (show accSecond (F := Ideal) x4 x5 x6 = accFirst (F := Ideal) x4 x5 x6 from rfl).trans
    ((accFirst_eq x4 x5 x6).trans (ref15_eq_ref19 x4 x5 x6).symm)

end Cert.AccBridge

end
-- ==== Proof.TailBridgeSplit.lean ====
/-
  A product with two matrices set side by side, against the sum of two products.

  Multiplying the row-block matrix [X | A] (X with w₁ columns, A with w₂) by a matrix Wt of w₁ + w₂ rows contracts over
  all w₁ + w₂ columns; the first w₁ terms of that sum meet the first w₁ rows of Wt and only entries of X, the remaining
  w₂ terms meet the rows from w₁ on and only entries of A. So [X | A] · Wt = X · Wt[0 … w₁) + A · Wt[w₁ … w₁ + w₂), entry
  by entry, and on the extended reals with no condition at all: the sum over the joined index is split in two by
  position, nothing is reordered across the two halves.
-/
import proofs.«100680_g9603546873884_cont_9to1c4b_371_3_alg».proof.Proof.KernelOut
import proofs.«100680_g9603546873884_cont_9to1c4b_371_3_alg».proof.Proof.LibMatmul2
import proofs.«100680_g9603546873884_cont_9to1c4b_371_3_alg».proof.Proof.LibEntryReads
import proofs.«100680_g9603546873884_cont_9to1c4b_371_3_alg».proof.Proof.LibConcatWide
import Idealize.ShloMosaic.Lib.ValueIdx
import Idealize.ShloMosaic.Lib.Pipeline.Value
import Idealize.ShloMosaic.PureOps.Ideal.Laws

noncomputable section

open scoped BigOperators

namespace Cert.TailBridge

open Idealize.ShloMosaic Idealize.ShloMosaic.ValueIdx

/-- A sum over w₁ + w₂ positions is the sum over the first w₁ plus the sum over the last w₂. -/
theorem sum_split {M : Type*} [AddCommMonoid M] {w1 w2 W : ℕ} (h : W = w1 + w2) (f : Fin W → M) :
    ∑ k, f k = ∑ k : Fin w1, f ⟨k.val, by have := k.isLt; omega⟩ + ∑ k : Fin w2, f ⟨w1 + k.val, by have := k.isLt; omega⟩ := by
  subst h
  rw [Fin.sum_univ_add]
  rfl

/-- [X | A] · Wt at (p, q) is X · (the first w₁ rows of Wt) + A · (the next w₂ rows of Wt) at (p, q): the two products into
    zero accumulators added, against the one product of the host. -/
theorem split_apply {n w1 w2 W m : ℕ} (hW : W = w1 + w2)
    (D1 : DotDims ⟨2, ![n, w1]⟩ ⟨2, ![w1, m]⟩ ⟨2, ![n, m]⟩)
    (wf1 : DotDims.WF ⟨2, ![n, w1]⟩ ⟨2, ![w1, m]⟩ ⟨2, ![n, m]⟩ [1] [0] [0] [1] [] []) (hD1 : D1 = Cert.Lib.plain2 wf1)
    (D2 : DotDims ⟨2, ![n, w2]⟩ ⟨2, ![w2, m]⟩ ⟨2, ![n, m]⟩)
    (wf2 : DotDims.WF ⟨2, ![n, w2]⟩ ⟨2, ![w2, m]⟩ ⟨2, ![n, m]⟩ [1] [0] [0] [1] [] []) (hD2 : D2 = Cert.Lib.plain2 wf2)
    (D : DotDims ⟨2, ![n, W]⟩ ⟨2, ![W, m]⟩ ⟨2, ![n, m]⟩)
    (wf : DotDims.WF ⟨2, ![n, W]⟩ ⟨2, ![W, m]⟩ ⟨2, ![n, m]⟩ [1] [0] [0] [1] [] []) (hD : D = Cert.Lib.plain2 wf)
    (hc : Shape.Concatenates [(⟨2, ![n, w1]⟩ : Shape), ⟨2, ![n, w2]⟩] ⟨2, ![n, W]⟩ 1)
    (X : FVec Ideal ⟨2, ![n, w1]⟩ .f32) (A : FVec Ideal ⟨2, ![n, w2]⟩ .f32) (Wt : FVec Ideal ⟨2, ![W, m]⟩ .f32)
    (h1 : 0 + w1 ≤ W) (h2 : w1 + w2 ≤ W) (p : Fin n) (q : Fin m) :
    addf (matmul D1 none X (Cert.KernelOut.rowsAt W w1 m 0 h1 Wt) (constant ⟨2, ![n, m]⟩ .f32 0x00000000#32))
         (matmul D2 none A (Cert.KernelOut.rowsAt W w2 m w1 h2 Wt) (constant ⟨2, ![n, m]⟩ .f32 0x00000000#32)) (ix2 p q)
      = Host.dotGeneral D none
          (concatenate ⟨2, ![n, W]⟩ 1 [⟨⟨2, ![n, w1]⟩, X⟩, ⟨⟨2, ![n, w2]⟩, A⟩] hc) Wt (ix2 p q) := by
  rw [addf_apply, Cert.Lib.matmul_plain_apply D1 wf1 hD1, Cert.Lib.matmul_plain_apply D2 wf2 hD2,
    Cert.Lib.dotGeneral_plain_apply D wf hD, sum_split hW]
  refine congrArg₂ (· + ·) (Finset.sum_congr rfl fun k _ => ?_) (Finset.sum_congr rfl fun k _ => ?_)
  · rw [Cert.KernelOut.rowsAt_apply, Cert.Lib.concat_wide_left hc X A p _ k.isLt]
    refine congrArg (X (ix2 p k) * ·) (congrArg Wt ?_)
    funext a; apply Fin.ext
    match a with
    | ⟨0, _⟩ => exact Nat.zero_add _
    | ⟨1, _⟩ => rfl
  · have hk : w1 ≤ (⟨w1 + k.val, by have := k.isLt; omega⟩ : Fin W).val := Nat.le_add_right _ _
    have hlt : (⟨w1 + k.val, by have := k.isLt; omega⟩ : Fin W).val - w1 < w2 := by
      show w1 + k.val - w1 < w2
      have := k.isLt; omega
    rw [Cert.KernelOut.rowsAt_apply, Cert.Lib.concat_wide_right hc X A p _ hk hlt]
    refine congrArg (· * Wt _) (congrArg A ?_)
    funext a; apply Fin.ext
    match a with
    | ⟨0, _⟩ => rfl
    | ⟨1, _⟩ => show k.val = w1 + k.val - w1; omega

/-- The same for whole arrays. -/
theorem split_eq {n w1 w2 W m : ℕ} (hW : W = w1 + w2)
    (D1 : DotDims ⟨2, ![n, w1]⟩ ⟨2, ![w1, m]⟩ ⟨2, ![n, m]⟩)
    (wf1 : DotDims.WF ⟨2, ![n, w1]⟩ ⟨2, ![w1, m]⟩ ⟨2, ![n, m]⟩ [1] [0] [0] [1] [] []) (hD1 : D1 = Cert.Lib.plain2 wf1)
    (D2 : DotDims ⟨2, ![n, w2]⟩ ⟨2, ![w2, m]⟩ ⟨2, ![n, m]⟩)
    (wf2 : DotDims.WF ⟨2, ![n, w2]⟩ ⟨2, ![w2, m]⟩ ⟨2, ![n, m]⟩ [1] [0] [0] [1] [] []) (hD2 : D2 = Cert.Lib.plain2 wf2)
    (D : DotDims ⟨2, ![n, W]⟩ ⟨2, ![W, m]⟩ ⟨2, ![n, m]⟩)
    (wf : DotDims.WF ⟨2, ![n, W]⟩ ⟨2, ![W, m]⟩ ⟨2, ![n, m]⟩ [1] [0] [0] [1] [] []) (hD : D = Cert.Lib.plain2 wf)
    (hc : Shape.Concatenates [(⟨2, ![n, w1]⟩ : Shape), ⟨2, ![n, w2]⟩] ⟨2, ![n, W]⟩ 1)
    (X : FVec Ideal ⟨2, ![n, w1]⟩ .f32) (A : FVec Ideal ⟨2, ![n, w2]⟩ .f32) (Wt : FVec Ideal ⟨2, ![W, m]⟩ .f32)
    (h1 : 0 + w1 ≤ W) (h2 : w1 + w2 ≤ W) :
    addf (matmul D1 none X (Cert.KernelOut.rowsAt W w1 m 0 h1 Wt) (constant ⟨2, ![n, m]⟩ .f32 0x00000000#32))
         (matmul D2 none A (Cert.KernelOut.rowsAt W w2 m w1 h2 Wt) (constant ⟨2, ![n, m]⟩ .f32 0x00000000#32))
      = Host.dotGeneral D none
          (concatenate ⟨2, ![n, W]⟩ 1 [⟨⟨2, ![n, w1]⟩, X⟩, ⟨⟨2, ![n, w2]⟩, A⟩] hc) Wt := by
  funext j
  obtain ⟨p, q, rfl⟩ : ∃ (p : Fin n) (q : Fin m), j = ix2 p q := ⟨j 0, j 1, eq_ix2 j⟩
  exact split_apply hW D1 wf1 hD1 D2 wf2 hD2 D wf hD hc X A Wt h1 h2 p q

end Cert.TailBridge

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«100680_g9603546873884_cont_9to1c4b_371_3_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.TailBridgeDense.lean ====
/-
  The dense layers: each is the same product and the same clamp on both sides.

  A product of an [A, K] and a [K, B] matrix is, entry by entry, the sum over k < K of l(p, k) · r(k, q), whether it is taken
  inside the body into a zero accumulator or by the host in one operation; and the clamp at zero is the maximum with
  the value of the zero word, whether that word is splatted over the shape or repeated from a scalar constant.
-/
import proofs.«100680_g9603546873884_cont_9to1c4b_371_3_alg».proof.Proof.LibMatmul2
import proofs.«100680_g9603546873884_cont_9to1c4b_371_3_alg».proof.Proof.LibEntryReads
import proofs.«100680_g9603546873884_cont_9to1c4b_371_3_alg».proof.Proof.LibHostReads
import Idealize.ShloMosaic.Lib.ValueIdx
import Idealize.ShloMosaic.Lib.Pipeline.Value
import Idealize.ShloMosaic.PureOps.Ideal.Laws

noncomputable section

open scoped BigOperators

namespace Cert.TailBridge

open Idealize.ShloMosaic Idealize.ShloMosaic.ValueIdx

/-- The body's plain product into the zero accumulator is the host's plain product. -/
theorem dense_eq {A K B : ℕ}
    (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (D' : DotDims ⟨2, ![A, K]⟩ ⟨2, ![K, B]⟩ ⟨2, ![A, B]⟩)
    (wf' : DotDims.WF ⟨2, ![A, K]⟩ ⟨2, ![K, B]⟩ ⟨2, ![A, B]⟩ [1] [0] [0] [1] [] []) (hD' : D' = Cert.Lib.plain2 wf')
    (l : FVec Ideal ⟨2, ![A, K]⟩ .f32) (r : FVec Ideal ⟨2, ![K, B]⟩ .f32) :
    matmul D none l r (constant ⟨2, ![A, B]⟩ .f32 0x00000000#32) = Host.dotGeneral D' none l r := by
  funext j
  obtain ⟨p, q, rfl⟩ : ∃ (p : Fin A) (q : Fin B), j = ix2 p q := ⟨j 0, j 1, eq_ix2 j⟩
  rw [Cert.Lib.matmul_plain_apply D wf hD, Cert.Lib.dotGeneral_plain_apply D' wf' hD']

/-- The clamp against a splatted word is the clamp against that word repeated from a scalar constant. -/
theorem relu_eq {s : Shape} (h : (⟨0, ![]⟩ : Shape).BroadcastsInDim s ![]) (w : BitVec 32) (Y : FVec Ideal s .f32) :
    maximumf Y (broadcast s (Scalar.ofBits (F := Ideal) .f32 w))
      = maximumf Y (broadcastInDim s ![] h (constant (F := Ideal) ⟨0, ![]⟩ .f32 w)) := by
  funext i
  rw [maximumf_apply, maximumf_apply, broadcast_apply, Cert.Lib.bcast_scalar_apply h w i]
  rfl

end Cert.TailBridge

end
-- ==== Proof.TailBridgeLogits.lean ====
/-
  The last point's logits are the reference's.

  Given the two second-hop means, each side's second-layer features are its own features times the upper half of the
  weight plus the mean times the lower half — on the host, the side-by-side matrix [own | mean] times the whole weight;
  the first dense layer treats the two sides' features the same way; then three dense layers with a clamp at zero
  between them. Operation by operation these are the host's, the only rearrangement being the product against a
  stacked weight taken as two products.
-/
import proofs.«100680_g9603546873884_cont_9to1c4b_371_3_alg».proof.Proof.KernelOut
import proofs.«100680_g9603546873884_cont_9to1c4b_371_3_alg».proof.Proof.RefRead
import proofs.«100680_g9603546873884_cont_9to1c4b_371_3_alg».proof.Proof.TailBridgeSplit
import proofs.«100680_g9603546873884_cont_9to1c4b_371_3_alg».proof.Proof.TailBridgeDense

noncomputable section

namespace Cert.TailBridge

open Idealize.ShloMosaic Idealize.ShloMosaic.ValueIdx
open Cert.KernelIdeal Cert.KernelIdeal.Gen

/-- One side of a layer: own features times the upper half plus neighbour features times the lower half is the
    side-by-side matrix times the whole weight. -/
theorem hop_eq (w : FVec Ideal S256x128 .f32) (X A : FVec Ideal S1024x128 .f32) :
    addf (matmul (φ₁ := .f32) (φ₂ := .f32) dot_S1024x128_S128x128_S1024x128_1_0_0_1_n_n none X (Cert.KernelOut.upper (F := Ideal) w : FVec Ideal S128x128 .f32) (constant S1024x128 .f32 0x00000000#32))
         (matmul (φ₁ := .f32) (φ₂ := .f32) dot_S1024x128_S128x128_S1024x128_1_0_0_1_n_n none A (Cert.KernelOut.lower (F := Ideal) w : FVec Ideal S128x128 .f32) (constant S1024x128 .f32 0x00000000#32))
      = Host.dotGeneral Cert.ReferenceIdeal.dot_S1024x256_S256x128_S1024x128_1_0_0_1_n_n none
          (concatenate Cert.ReferenceIdeal.S1024x256 1 [⟨Cert.ReferenceIdeal.S1024x128, X⟩, ⟨Cert.ReferenceIdeal.S1024x128, A⟩]
            Cert.ReferenceIdeal.Gen.concatenates_S1024x128_S1024x128_S1024x256_d1) w :=
  split_eq (n := 1024) (w1 := 128) (w2 := 128) (W := 256) (m := 128) rfl
    dot_S1024x128_S128x128_S1024x128_1_0_0_1_n_n dot_S1024x128_S128x128_S1024x128_1_0_0_1_n_n_wf rfl dot_S1024x128_S128x128_S1024x128_1_0_0_1_n_n dot_S1024x128_S128x128_S1024x128_1_0_0_1_n_n_wf rfl
    Cert.ReferenceIdeal.dot_S1024x256_S256x128_S1024x128_1_0_0_1_n_n Cert.ReferenceIdeal.Gen.dot_S1024x256_S256x128_S1024x128_1_0_0_1_n_n_wf rfl
    Cert.ReferenceIdeal.Gen.concatenates_S1024x128_S1024x128_S1024x256_d1 X A w _ _

/-- The logits of the last point, given the two completed accumulators, are the host's logits. -/
theorem logits_eq (x0 : Vec Ideal S1024x128 .f32) (x1 : Vec Ideal S16384x128 .f32) (x2 : Vec Ideal S262144x128 .f32) (x3 : Vec Ideal S1024x128 .f32) (x4 : Vec Ideal S16384x128 .f32) (x5 : Vec Ideal S262144x128 .f32) (x6 : Vec Ideal S256x128 .f32) (x7 : Vec Ideal S256x128 .f32) (x8 : Vec Ideal S128x64 .f32) (x9 : Vec Ideal S64x8 .f32) (x10 : Vec Ideal S8x2 .f32)
    (hA : Cert.KernelOut.accFirst (F := Ideal) x1 x2 x6 = Cert.RefRead.val_main_v19 (F := Ideal) x1 x2 x6)
    (hD : Cert.KernelOut.accSecond (F := Ideal) x4 x5 x6 = Cert.RefRead.val_main_v15 (F := Ideal) x4 x5 x6) :
    Cert.KernelOut.logits (F := Ideal) x0 x1 x2 x3 x4 x5 x6 x7 x8 x9 x10 = Cert.RefRead.val_main_v31 (F := Ideal) x0 x1 x2 x3 x4 x5 x6 x7 x8 x9 x10 := by
  unfold Cert.KernelOut.logits
  rw [hA, hD]
  unfold k0_pay3
  dsimp only
  rw [hop_eq x6 x0 (Cert.RefRead.val_main_v19 (F := Ideal) x1 x2 x6),
    hop_eq x6 x3 (Cert.RefRead.val_main_v15 (F := Ideal) x4 x5 x6),
    hop_eq x7 _ _,
    relu_eq Cert.ReferenceIdeal.Gen.bcast_S_S1024x128 0x00000000#32 _,
    dense_eq dot_S1024x128_S128x64_S1024x64_1_0_0_1_n_n dot_S1024x128_S128x64_S1024x64_1_0_0_1_n_n_wf rfl
      Cert.ReferenceIdeal.dot_S1024x128_S128x64_S1024x64_1_0_0_1_n_n Cert.ReferenceIdeal.Gen.dot_S1024x128_S128x64_S1024x64_1_0_0_1_n_n_wf rfl _ x8,
    relu_eq Cert.ReferenceIdeal.Gen.bcast_S_S1024x64 0x00000000#32 _,
    dense_eq dot_S1024x64_S64x8_S1024x8_1_0_0_1_n_n dot_S1024x64_S64x8_S1024x8_1_0_0_1_n_n_wf rfl
      Cert.ReferenceIdeal.dot_S1024x64_S64x8_S1024x8_1_0_0_1_n_n Cert.ReferenceIdeal.Gen.dot_S1024x64_S64x8_S1024x8_1_0_0_1_n_n_wf rfl _ x9,
    relu_eq Cert.ReferenceIdeal.Gen.bcast_S_S1024x8 0x00000000#32 _,
    dense_eq dot_S1024x8_S8x2_S1024x2_1_0_0_1_n_n dot_S1024x8_S8x2_S1024x2_1_0_0_1_n_n_wf rfl
      Cert.ReferenceIdeal.dot_S1024x8_S8x2_S1024x2_1_0_0_1_n_n Cert.ReferenceIdeal.Gen.dot_S1024x8_S8x2_S1024x2_1_0_0_1_n_n_wf rfl _ x10]
  rfl

end Cert.TailBridge

end
-- ==== Proof.TailBridgeSoftmax.lean ====
/-
  The row-wise softmax, as the body takes it and as the host takes it.

  Both subtract from each entry of a row the row's maximum, exponentiate, and divide by the row's sum of the
  exponentials. The body folds the maximum from the word of −∞, keeps it as a column and repeats the column along the
  row; the host folds it from the same word, takes once more the maximum with −∞ repeated over the rows — which changes
  nothing, −∞ being the least extended real — and repeats the result likewise. The sum is a sum from the zero word on
  both sides. So the two agree entry by entry with no condition on the logits.
-/
import proofs.«100680_g9603546873884_cont_9to1c4b_371_3_alg».proof.Proof.LibKeepdims
import proofs.«100680_g9603546873884_cont_9to1c4b_371_3_alg».proof.Proof.LibEntryReads
import proofs.«100680_g9603546873884_cont_9to1c4b_371_3_alg».proof.Proof.LibHostReads
import Idealize.ShloMosaic.Lib.ValueIdx
import Idealize.ShloMosaic.Lib.Pipeline.Value
import Idealize.ShloMosaic.PureOps.Ideal.Laws

noncomputable section

open scoped BigOperators

namespace Cert.TailBridge

open Idealize.ShloMosaic Idealize.ShloMosaic.ValueIdx

/-- The word 0xFF800000 is −∞, the least extended real. -/
theorem ofBits_neg_inf : Ideal.ofBits .f32 0xFF800000#32 = (⊥ : EReal) := by simp [Ideal.ofBits, Ideal.ieee]

/-- The maximum of −∞ and x is x. -/
theorem max_neg_inf (x : EReal) : max (Ideal.ofBits .f32 0xFF800000#32) x = x := by
  rw [ofBits_neg_inf]; exact max_bot_left x

section
variable {a n : ℕ}
  (hr : (⟨2, ![a, n]⟩ : Shape).Reduces [1] ⟨1, ![a]⟩)
  (hsc : (⟨1, ![a]⟩ : Shape).ShapeCasts ⟨2, ![a, 1]⟩)
  (hb : (⟨2, ![a, 1]⟩ : Shape).Broadcasts ⟨2, ![a, n]⟩)
  (hφ : FKind.Formats FTy.f32)
  (haccMax : (0xFF800000#32 : BitVec FTy.f32.bits) = FKind.maximumf.neutral .f32 hφ)
  (haccAdd : (0x00000000#32 : BitVec FTy.f32.bits) = FKind.add.neutral .f32 hφ)
  (hr' : (⟨2, ![a, n]⟩ : Shape).ReducesTo [1] ⟨1, ![a]⟩)
  (hu : 0 < (⟨0, ![]⟩ : Shape).numel)
  (hb0 : (⟨0, ![]⟩ : Shape).BroadcastsInDim ⟨1, ![a]⟩ ![])
  (hb1 : (⟨1, ![a]⟩ : Shape).BroadcastsInDim ⟨2, ![a, 1]⟩ ![0])
  (hb2 : (⟨2, ![a, 1]⟩ : Shape).BroadcastsInDim ⟨2, ![a, n]⟩ ![0, 1])

/-- The shifted exponentials: the body's, with the row maximum kept as a column and broadcast, are the host's, with
    the row maximum maxed once more against −∞ and broadcast in two steps. -/
theorem shiftExp_eq (L : FVec Ideal ⟨2, ![a, n]⟩ .f32) :
    exp (subf L (broadcastTo ⟨2, ![a, n]⟩
        (shapeCast ⟨2, ![a, 1]⟩ (multiReduction .maximumf [1] ⟨1, ![a]⟩ L 0xFF800000#32 hr hφ haccMax) hsc) hb))
      = Host.exp (subf L (broadcastInDim ⟨2, ![a, n]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf L (constant (⟨0, ![]⟩ : Shape) .f32 0xFF800000#32) hr' hu))))) := by
  funext j
  obtain ⟨p, c, rfl⟩ : ∃ (p : Fin a) (c : Fin n), j = ix2 p c := ⟨j 0, j 1, eq_ix2 j⟩
  rw [Cert.Lib.exp_apply, Cert.Lib.host_exp_apply, subf_apply, subf_apply,
    Cert.Lib.rowMax_keepdims_apply L 0xFF800000#32 hr hφ haccMax hsc hb p c,
    Cert.Lib.bcast_col_rows_apply _ hb2 p c, Cert.Lib.bcast_col_apply _ hb1 p 0, maximumf_apply,
    Cert.Lib.bcast_scalar_apply hb0 0xFF800000#32 (ix1 p), Cert.Lib.host_rowMax_apply hr L 0xFF800000#32 hr' hu p,
    max_neg_inf]

/-- Dividing each entry by its row's sum: the body's sum kept as a column and broadcast, the host's sum from the
    zero word broadcast in two steps. -/
theorem rowNormalize_eq (E : FVec Ideal ⟨2, ![a, n]⟩ .f32) :
    divf E (broadcastTo ⟨2, ![a, n]⟩
        (shapeCast ⟨2, ![a, 1]⟩ (multiReduction .add [1] ⟨1, ![a]⟩ E 0x00000000#32 hr hφ haccAdd) hsc) hb)
      = Host.divf E (broadcastInDim ⟨2, ![a, n]⟩ ![0, 1] hb2 (broadcastInDim ⟨2, ![a, 1]⟩ ![0] hb1
          (Host.reduceAdd E (constant (⟨0, ![]⟩ : Shape) .f32 0x00000000#32) hr' hu))) := by
  funext j
  obtain ⟨p, c, rfl⟩ : ∃ (p : Fin a) (c : Fin n), j = ix2 p c := ⟨j 0, j 1, eq_ix2 j⟩
  show Ideal.div (E (ix2 p c)) _ = Ideal.div (E (ix2 p c)) _
  rw [Cert.Lib.rowSum_keepdims_apply E 0x00000000#32 hr hφ haccAdd hsc hb p c,
    Cert.Lib.bcast_col_rows_apply _ hb2 p c, Cert.Lib.bcast_col_apply _ hb1 p 0,
    Cert.Lib.host_rowSum_apply hr E hr' hu p]

/-- The softmax of each row, the body's against the host's. -/
theorem softmax_eq (L : FVec Ideal ⟨2, ![a, n]⟩ .f32) :
    divf (exp (subf L (broadcastTo ⟨2, ![a, n]⟩
          (shapeCast ⟨2, ![a, 1]⟩ (multiReduction .maximumf [1] ⟨1, ![a]⟩ L 0xFF800000#32 hr hφ haccMax) hsc) hb)))
        (broadcastTo ⟨2, ![a, n]⟩
          (shapeCast ⟨2, ![a, 1]⟩ (multiReduction .add [1] ⟨1, ![a]⟩
            (exp (subf L (broadcastTo ⟨2, ![a, n]⟩
              (shapeCast ⟨2, ![a, 1]⟩ (multiReduction .maximumf [1] ⟨1, ![a]⟩ L 0xFF800000#32 hr hφ haccMax) hsc) hb)))
            0x00000000#32 hr hφ haccAdd) hsc) hb)
      = Host.divf
          (Host.exp (subf L (broadcastInDim ⟨2, ![a, n]⟩ ![0, 1] hb2 (broadcastInDim ⟨2, ![a, 1]⟩ ![0] hb1
            (maximumf (broadcastInDim ⟨1, ![a]⟩ ![] hb0 (constant (F := Ideal) ⟨0, ![]⟩ .f32 0xFF800000#32))
              (Host.reduce FloatOps.maximumf L (constant (⟨0, ![]⟩ : Shape) .f32 0xFF800000#32) hr' hu))))))
          (broadcastInDim ⟨2, ![a, n]⟩ ![0, 1] hb2 (broadcastInDim ⟨2, ![a, 1]⟩ ![0] hb1
            (Host.reduceAdd
              (Host.exp (subf L (broadcastInDim ⟨2, ![a, n]⟩ ![0, 1] hb2 (broadcastInDim ⟨2, ![a, 1]⟩ ![0] hb1
                (maximumf (broadcastInDim ⟨1, ![a]⟩ ![] hb0 (constant (F := Ideal) ⟨0, ![]⟩ .f32 0xFF800000#32))
                  (Host.reduce FloatOps.maximumf L (constant (⟨0, ![]⟩ : Shape) .f32 0xFF800000#32) hr' hu))))))
              (constant (⟨0, ![]⟩ : Shape) .f32 0x00000000#32) hr' hu))) := by
  rw [shiftExp_eq hr hsc hb hφ haccMax hr' hu hb0 hb1 hb2 L]
  exact rowNormalize_eq hr hsc hb hφ haccAdd hr' hu hb1 hb2 _

end

end Cert.TailBridge

end
-- ==== Proof.TailBridge.lean ====
/-
  The last point's result is the reference's result, given the two accumulators.

  The result is the row-wise softmax of the logits; the logits are the host's (the dense head over the two-layer
  aggregation), and the softmax of a matrix of logits is the host's softmax of it.
-/
import proofs.«100680_g9603546873884_cont_9to1c4b_371_3_alg».proof.Proof.KernelOut
import proofs.«100680_g9603546873884_cont_9to1c4b_371_3_alg».proof.Proof.RefRead
import proofs.«100680_g9603546873884_cont_9to1c4b_371_3_alg».proof.Proof.TailBridgeLogits
import proofs.«100680_g9603546873884_cont_9to1c4b_371_3_alg».proof.Proof.TailBridgeSoftmax

noncomputable section

namespace Cert.TailBridge

open Idealize.ShloMosaic Idealize.ShloMosaic.ValueIdx
open Cert.KernelIdeal Cert.KernelIdeal.Gen

/-- With each accumulator holding the host's second-hop mean of the first-hop layer, the body's result at the last
    point is the host's result. -/
theorem out_eq (x0 : Vec Ideal S1024x128 .f32) (x1 : Vec Ideal S16384x128 .f32) (x2 : Vec Ideal S262144x128 .f32) (x3 : Vec Ideal S1024x128 .f32) (x4 : Vec Ideal S16384x128 .f32) (x5 : Vec Ideal S262144x128 .f32) (x6 : Vec Ideal S256x128 .f32) (x7 : Vec Ideal S256x128 .f32) (x8 : Vec Ideal S128x64 .f32) (x9 : Vec Ideal S64x8 .f32) (x10 : Vec Ideal S8x2 .f32)
    (hA : Cert.KernelOut.accFirst (F := Ideal) x1 x2 x6 = Cert.RefRead.val_main_v19 (F := Ideal) x1 x2 x6)
    (hD : Cert.KernelOut.accSecond (F := Ideal) x4 x5 x6 = Cert.RefRead.val_main_v15 (F := Ideal) x4 x5 x6) :
    Cert.KernelOut.out (F := Ideal) x0 x1 x2 x3 x4 x5 x6 x7 x8 x9 x10 = Cert.RefRead.val_main_v42 (F := Ideal) x0 x1 x2 x3 x4 x5 x6 x7 x8 x9 x10 := by
  have hL := logits_eq x0 x1 x2 x3 x4 x5 x6 x7 x8 x9 x10 hA hD
  unfold Cert.KernelOut.logits at hL
  unfold Cert.KernelOut.out Cert.KernelOut.rowMaxCol Cert.KernelOut.logits k0_pay4 k0_pay2
  dsimp only
  rw [hL]
  exact softmax_eq (a := 1024) (n := 2) reduces_S1024x2_S1024 shapeCasts_S1024_S1024x1 broadcasts_S1024x1_S1024x2
    (.inl rfl) rfl rfl Cert.ReferenceIdeal.Gen.reducesTo_S1024x2_S1024_d1 Cert.ReferenceIdeal.Gen.h_S_ Cert.ReferenceIdeal.Gen.bcast_S_S1024
    Cert.ReferenceIdeal.Gen.bcast_S1024_S1024x1_0 Cert.ReferenceIdeal.Gen.bcast_S1024x1_S1024x2_0_1
    (Cert.RefRead.val_main_v31 (F := Ideal) x0 x1 x2 x3 x4 x5 x6 x7 x8 x9 x10)

end Cert.TailBridge

end
-- ==== Proof.lean ====
/-
  The kernel computes, for 1024 node pairs, a two-hop mean aggregation of neighbour features on each side, four dense
  layers and a row-wise softmax; the reference computes the same thing with whole-array operations.

  The kernel streams the second-hop features in sixteen blocks. At each it takes the mean of every group of sixteen
  second-hop rows, applies the aggregation weights to [first-hop row | that mean] as two products with the upper and the
  lower half of the weight matrix, and stores the mean of every sixteen resulting rows into a band of 64 rows of an
  accumulator, one accumulator per side. At the last block the accumulators are complete; the kernel applies the same
  layer to [node row | accumulator row], the dense head to the two sides joined, and the softmax.

  On the extended reals the two programs agree entry by entry, with no assumption on the inputs beyond the stated one:
  a mean of sixteen taken as a product with 1/16 (an exact binary fraction) is the quotient by 16; a product of a joined
  matrix [a | b] with a weight matrix is the sum of the products of a and b with its two halves, a sum over 256 split at
  128; and the greater of -inf and x is x. The frames: each program terminates without a fault and leaves its arguments
  as they were — for the kernel at both instances, by one run of the body per grid point over whole staging buffers,
  the accumulators carried from point to point as "the finished rows over contents nobody names".
-/
import proofs.«100680_g9603546873884_cont_9to1c4b_371_3_alg».proof.Defs
import proofs.«100680_g9603546873884_cont_9to1c4b_371_3_alg».proof.Proof.Gen.Kernel
import proofs.«100680_g9603546873884_cont_9to1c4b_371_3_alg».proof.Proof.Gen.KernelIdeal
import proofs.«100680_g9603546873884_cont_9to1c4b_371_3_alg».proof.Proof.Gen.ReferenceIdeal
import proofs.«100680_g9603546873884_cont_9to1c4b_371_3_alg».proof.Proof.Gen.Pre_finite_inputs
import proofs.«100680_g9603546873884_cont_9to1c4b_371_3_alg».proof.Proof.BodyObligW
import proofs.«100680_g9603546873884_cont_9to1c4b_371_3_alg».proof.Proof.KernelValue
import proofs.«100680_g9603546873884_cont_9to1c4b_371_3_alg».proof.Proof.RefRun
import proofs.«100680_g9603546873884_cont_9to1c4b_371_3_alg».proof.Proof.AccBridge
import proofs.«100680_g9603546873884_cont_9to1c4b_371_3_alg».proof.Proof.TailBridge
import Idealize.ShloMosaic.Adequacy
import Idealize.ShloMosaic.Init

noncomputable section

namespace Cert.Proof

open Idealize.ShloMosaic Idealize.ShloMosaic.TcCoe Idealize.SL.Sem

/-- The kernel's result of the argument arrays is the reference's: the two accumulators are the reference's second-hop
    means of its first-hop layer, and from them the last point's computation is the reference's remaining stages. -/
theorem result_eq (m : (ℓ : Loc Cert.KernelIdeal.nD Cert.KernelIdeal.τ Cert.KernelIdeal.sig) → Buf (Elt Ideal) ℓ) (c : Dev Cert.KernelIdeal.nD) :
    Cert.KernelIdeal.Body.outK (F := Ideal) m c
      = Cert.RefRead.val_main_v42 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) :=
  Cert.TailBridge.out_eq _ _ _ _ _ _ _ _ _ _ _ (Cert.AccBridge.accFirst_eq _ _ _) (Cert.AccBridge.accSecond_eq _ _ _)

theorem claim : Cert.Claim := by
  refine ⟨Cert.Kernel.Gen.facts, Cert.KernelIdeal.Gen.facts, Cert.ReferenceIdeal.Gen.facts, Cert.Pre_finite_inputs.Gen.facts, ?_, ?_, ?_, trivial, ?_⟩
  · exact fun m ρ _ => Cert.Kernel.Body.frame (F := Bits) m ρ
  · exact fun m ρ _ => Cert.KernelIdeal.Body.frame (F := Ideal) m ρ
  · exact fun m ρ _ => (θ_run Cert.ReferenceIdeal.defs _ _).mono (fun _ h c => (h c).2) (Cert.RefRun.run (F := Ideal) m ρ)
  · intro m ρ m' ρ' _ hagree
    refine ⟨fun c => Cert.KernelIdeal.Body.outK (F := Ideal) m c, Cert.KernelIdeal.Body.run_value (F := Ideal) m ρ, ?_⟩
    refine (θ_run Cert.ReferenceIdeal.defs _ _).mono (fun _ h c => ⟨(h c).1.trans ?_, (h c).2⟩)
      (Cert.RefRun.run (F := Ideal) m' ρ')
    obtain ⟨e0, e1, e2, e3, e4, e5, e6, e7, e8, e9, e10⟩ := hagree c
    rw [e0, e1, e2, e3, e4, e5, e6, e7, e8, e9, e10]
    exact (result_eq m c).symm

end Cert.Proof

end
